-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S100000x4 : Shape := ⟨2, ![100000, 4]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x67 : Shape := ⟨2, ![64, 67]⟩
abbrev S67 : Shape := ⟨1, ![67]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S100000x4 : S_.BroadcastsInDim S100000x4 (![] : Fin 0 → Fin S100000x4.rank)
  reducesTo_S100000x4_S_d0_1 : S100000x4.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x67 : S_.BroadcastsInDim S64x67 (![] : Fin 0 → Fin S64x67.rank)
  reducesTo_S64x67_S_d0_1 : S64x67.ReducesTo [0, 1] S_
  bcast_S_S67 : S_.BroadcastsInDim S67 (![] : Fin 0 → Fin S67.rank)
  reducesTo_S67_S_d0 : S67.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg12 : FVec F S1 .f32) (main_v48 : IVec S_ 1) (main_v49 : FVec F S32x1 .f32) (main_v50 : FVec F S32x1 .f32) : IVec S_ 1 :=
  let main_v51 : IVec S32x1 1 := cmpf .olt main_v49 main_v50
  let main_c_19 : IVec S_ 1 := constantI S_ 1 1#1
  let main_v52 : IVec S_ 1 := (fun x v => Host.reduce IntOp.andi x v reducesTo_S32x1_S_d0_1 h_S_) main_v51 main_c_19
  let main_v53 : IVec S_ 1 := andi main_v48 main_v52
  let main_v54 : FVec F S1 .f32 := Host.absf main_arg12
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg8 : FVec F S67 .f32) (main_arg9 : FVec F S64x32 .f32) (main_arg10 : FVec F S32 .f32) (main_arg11 : FVec F S32x1 .f32) (main_arg12 : FVec F S1 .f32) (main_v33 : IVec S_ 1) : IVec S_ 1 :=
  let main_v34 : FVec F S67 .f32 := Host.absf main_arg8
  let main_cst_12 : FVec F S_ .f32 := constant S_ .f32 0x7F800000#32
  let main_v35 : FVec F S67 .f32 := broadcastInDim S67 ![] bcast_S_S67 main_cst_12
  let main_v36 : IVec S67 1 := cmpf .olt main_v34 main_v35
  let main_c_13 : IVec S_ 1 := constantI S_ 1 1#1
  let main_v37 : IVec S_ 1 := (fun x v => Host.reduce IntOp.andi x v reducesTo_S67_S_d0 h_S_) main_v36 main_c_13
  let main_v38 : IVec S_ 1 := andi main_v33 main_v37
  let main_v39 : FVec F S64x32 .f32 := Host.absf main_arg9
  let main_cst_14 : FVec F S_ .f32 := constant S_ .f32 0x7F800000#32
  let main_v40 : FVec F S64x32 .f32 := broadcastInDim S64x32 ![] bcast_S_S64x32 main_cst_14
  let main_v41 : IVec S64x32 1 := cmpf .olt main_v39 main_v40
  let main_c_15 : IVec S_ 1 := constantI S_ 1 1#1
  let main_v42 : IVec S_ 1 := (fun x v => Host.reduce IntOp.andi x v reducesTo_S64x32_S_d0_1 h_S_) main_v41 main_c_15
  let main_v43 : IVec S_ 1 := andi main_v38 main_v42
  let main_v44 : FVec F S32 .f32 := Host.absf main_arg10
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S32x1 .f32 := Host.absf main_arg11
  let main_cst_18 : FVec F S_ .f32 := constant S_ .f32 0x7F800000#32
  let main_v50 : FVec F S32x1 .f32 := broadcastInDim S32x1 ![] bcast_S_S32x1 main_cst_18
  fn_part3 (F := F) main_arg12 main_v48 main_v49 main_v50

def fn_part1 {F : FTy → Type} [FloatOps F] (main_arg5 : FVec F S128x64 .f32) (main_arg6 : FVec F S64 .f32) (main_arg7 : FVec F S64x67 .f32) (main_arg8 : FVec F S67 .f32) (main_arg9 : FVec F S64x32 .f32) (main_arg10 : FVec F S32 .f32) (main_arg11 : FVec F S32x1 .f32) (main_arg12 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x67 .f32 := Host.absf main_arg7
  let main_cst_10 : FVec F S_ .f32 := constant S_ .f32 0x7F800000#32
  let main_v30 : FVec F S64x67 .f32 := broadcastInDim S64x67 ![] bcast_S_S64x67 main_cst_10
  let main_v31 : IVec S64x67 1 := cmpf .olt main_v29 main_v30
  let main_c_11 : IVec S_ 1 := constantI S_ 1 1#1
  let main_v32 : IVec S_ 1 := (fun x v => Host.reduce IntOp.andi x v reducesTo_S64x67_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S100000x64 .f32) (main_arg1 : FVec F S100000x4 .f32) (main_arg2 : IVec S2x1600000 32) (main_arg3 : FVec F S128x128 .f32) (main_arg4 : FVec F S128 .f32) (main_arg5 : FVec F S128x64 .f32) (main_arg6 : FVec F S64 .f32) (main_arg7 : FVec F S64x67 .f32) (main_arg8 : FVec F S67 .f32) (main_arg9 : FVec F S64x32 .f32) (main_arg10 : FVec F S32 .f32) (main_arg11 : FVec F S32x1 .f32) (main_arg12 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S100000x4 .f32 := Host.absf main_arg1
  let main_cst_0 : FVec F S_ .f32 := constant S_ .f32 0x7F800000#32
  let main_v5 : FVec F S100000x4 .f32 := broadcastInDim S100000x4 ![] bcast_S_S100000x4 main_cst_0
  let main_v6 : IVec S100000x4 1 := cmpf .olt main_v4 main_v5
  let main_c_1 : IVec S_ 1 := constantI S_ 1 1#1
  let main_v7 : IVec S_ 1 := (fun x v => Host.reduce IntOp.andi x v reducesTo_S100000x4_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_v13 main_v16
-- ==== Kernel.lean ====
abbrev S100000x64 : Shape := ⟨2, ![100000, 64]⟩
abbrev S100000x4 : Shape := ⟨2, ![100000, 4]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x67 : Shape := ⟨2, ![64, 67]⟩
abbrev S67 : Shape := ⟨1, ![67]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x1600000 : Shape := ⟨2, ![1, 1600000]⟩
abbrev S1600000 : Shape := ⟨1, ![1600000]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S3200000x64 : Shape := ⟨2, ![3200000, 64]⟩
abbrev S100000x1 : Shape := ⟨2, ![100000, 1]⟩
abbrev S64x128 : Shape := ⟨2, ![64, 128]⟩
abbrev S64x3 : Shape := ⟨2, ![64, 3]⟩
abbrev S64x64 : Shape := ⟨2, ![64, 64]⟩
abbrev S3 : Shape := ⟨1, ![3]⟩
abbrev S1x128 : Shape := ⟨2, ![1, 128]⟩
abbrev S1x64 : Shape := ⟨2, ![1, 64]⟩
abbrev S1x3 : Shape := ⟨2, ![1, 3]⟩
abbrev S1x32 : Shape := ⟨2, ![1, 32]⟩
abbrev S1x1 : Shape := ⟨2, ![1, 1]⟩
abbrev S100000x68 : Shape := ⟨2, ![100000, 68]⟩
abbrev S5000x64 : Shape := ⟨2, ![5000, 64]⟩
abbrev S5000x1 : Shape := ⟨2, ![5000, 1]⟩
abbrev S5000x4 : Shape := ⟨2, ![5000, 4]⟩
abbrev S5000x68 : Shape := ⟨2, ![5000, 68]⟩
abbrev S5000 : Shape := ⟨1, ![5000]⟩
abbrev S5000x128 : Shape := ⟨2, ![5000, 128]⟩
abbrev S5000x3 : Shape := ⟨2, ![5000, 3]⟩
abbrev S5000x32 : Shape := ⟨2, ![5000, 32]⟩

abbrev nBuf : Space → Nat
  | .hbm => 54
  | .vmem => 23
  | .smem => 0
  | _ => 0

abbrev bufTy : (tb : Table) → Fin (tcTables nBuf tb) → BufTy
  | .hbm, ⟨0, _⟩ => ⟨S100000x64, .f32⟩
  | .hbm, ⟨1, _⟩ => ⟨S100000x4, .f32⟩
  | .hbm, ⟨2, _⟩ => ⟨S2x1600000, .i32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S64x67, .f32⟩
  | .hbm, ⟨8, _⟩ => ⟨S67, .f32⟩
  | .hbm, ⟨9, _⟩ => ⟨S64x32, .f32⟩
  | .hbm, ⟨10, _⟩ => ⟨S32, .f32⟩
  | .hbm, ⟨11, _⟩ => ⟨S32x1, .f32⟩
  | .hbm, ⟨12, _⟩ => ⟨S1, .f32⟩
  | .hbm, ⟨13, _⟩ => ⟨S1x1600000, .i32⟩
  | .hbm, ⟨14, _⟩ => ⟨S1600000, .i32⟩
  | .hbm, ⟨15, _⟩ => ⟨S1x1600000, .i32⟩
  | .hbm, ⟨16, _⟩ => ⟨S1600000, .i32⟩
  | .hbm, ⟨17, _⟩ => ⟨S3200000, .i32⟩
  | .hbm, ⟨18, _⟩ => ⟨S3200000, .i32⟩
  | .hbm, ⟨19, _⟩ => ⟨S_, .f32⟩
  | .hbm, ⟨20, _⟩ => ⟨S3200000, .f32⟩
  | .hbm, ⟨21, _⟩ => ⟨S_, .f32⟩
  | .hbm, ⟨22, _⟩ => ⟨S100000, .f32⟩
  | .hbm, ⟨23, _⟩ => ⟨S3200000x1, .i32⟩
  | .hbm, ⟨24, _⟩ => ⟨S100000, .f32⟩
  | .hbm, ⟨25, _⟩ => ⟨S100000x64, .bf16⟩
  | .hbm, ⟨26, _⟩ => ⟨S_, .i32⟩
  | .hbm, ⟨27, _⟩ => ⟨S3200000, .i32⟩
  | .hbm, ⟨28, _⟩ => ⟨S3200000, .i1⟩
  | .hbm, ⟨29, _⟩ => ⟨S_, .i32⟩
  | .hbm, ⟨30, _⟩ => ⟨S3200000, .i32⟩
  | .hbm, ⟨31, _⟩ => ⟨S3200000, .i32⟩
  | .hbm, ⟨32, _⟩ => ⟨S3200000, .i32⟩
  | .hbm, ⟨33, _⟩ => ⟨S3200000x1, .i32⟩
  | .hbm, ⟨34, _⟩ => ⟨S3200000x64, .bf16⟩
  | .hbm, ⟨35, _⟩ => ⟨S3200000x64, .f32⟩
  | .hbm, ⟨36, _⟩ => ⟨S_, .f32⟩
  | .hbm, ⟨37, _⟩ => ⟨S100000x64, .f32⟩
  | .hbm, ⟨38, _⟩ => ⟨S3200000x1, .i32⟩
  | .hbm, ⟨39, _⟩ => ⟨S100000x64, .f32⟩
  | .hbm, ⟨40, _⟩ => ⟨S100000x1, .f32⟩
  | .hbm, ⟨41, _⟩ => ⟨S64x128, .f32⟩
  | .hbm, ⟨42, _⟩ => ⟨S64x128, .f32⟩
  | .hbm, ⟨43, _⟩ => ⟨S64x3, .f32⟩
  | .hbm, ⟨44, _⟩ => ⟨S64x64, .f32⟩
  | .hbm, ⟨45, _⟩ => ⟨S3, .f32⟩
  | .hbm, ⟨46, _⟩ => ⟨S64, .f32⟩
  | .hbm, ⟨47, _⟩ => ⟨S1x128, .f32⟩
  | .hbm, ⟨48, _⟩ => ⟨S1x64, .f32⟩
  | .hbm, ⟨49, _⟩ => ⟨S1x3, .f32⟩
  | .hbm, ⟨50, _⟩ => ⟨S1x64, .f32⟩
  | .hbm, ⟨51, _⟩ => ⟨S1x32, .f32⟩
  | .hbm, ⟨52, _⟩ => ⟨S1x1, .f32⟩
  | .hbm, ⟨53, _⟩ => ⟨S100000x68, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S5000x1, .f32⟩
  | .local _ .vmem, ⟨5, _⟩ => ⟨S5000x1, .f32⟩
  | .local _ .vmem, ⟨6, _⟩ => ⟨S5000x4, .f32⟩
  | .local _ .vmem, ⟨7, _⟩ => ⟨S5000x4, .f32⟩
  | .local _ .vmem, ⟨8, _⟩ => ⟨S64x128, .f32⟩
  | .local _ .vmem, ⟨9, _⟩ => ⟨S1x128, .f32⟩
  | .local _ .vmem, ⟨10, _⟩ => ⟨S64x128, .f32⟩
  | .local _ .vmem, ⟨11, _⟩ => ⟨S128x64, .f32⟩
  | .local _ .vmem, ⟨12, _⟩ => ⟨S1x64, .f32⟩
  | .local _ .vmem, ⟨13, _⟩ => ⟨S64x3, .f32⟩
  | .local _ .vmem, ⟨14, _⟩ => ⟨S1x3, .f32⟩
  | .local _ .vmem, ⟨15, _⟩ => ⟨S64x64, .f32⟩
  | .local _ .vmem, ⟨16, _⟩ => ⟨S1x64, .f32⟩
  | .local _ .vmem, ⟨17, _⟩ => ⟨S64x32, .f32⟩
  | .local _ .vmem, ⟨18, _⟩ => ⟨S1x32, .f32⟩
  | .local _ .vmem, ⟨19, _⟩ => ⟨S32x1, .f32⟩
  | .local _ .vmem, ⟨20, _⟩ => ⟨S1x1, .f32⟩
  | .local _ .vmem, ⟨21, _⟩ => ⟨S5000x68, .f32⟩
  | .local _ .vmem, ⟨22, _⟩ => ⟨S5000x68, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev main_cst_0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c : Ref sig .tc := ⟨.hbm, 26, rfl⟩
abbrev main_v11 : Ref sig .tc := ⟨.hbm, 27, rfl⟩
abbrev main_v12 : Ref sig .tc := ⟨.hbm, 28, rfl⟩
abbrev main_c_1 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_2 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg17_0 : Ref sig .tc := ⟨.vmem, 21, rfl⟩
abbrev cc0_stg17_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem17_0 : DmaSem sig := 21
abbrev cc0_sem17_1 : DmaSem sig := 22

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x4 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x3 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x3 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S64x32 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x32 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S32x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S5000x68 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S1600000_S3200000_d0 : Shape.Concatenates [S1600000, S1600000] S3200000 0
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bitsLt_bf16_f32 : FTy.bits .bf16 < FTy.bits .f32
  bcast_S_S100000x64 : S_.BroadcastsInDim S100000x64 (![] : Fin 0 → Fin S100000x64.rank)
  shapeCasts_S100000_S100000x1 : S100000.ShapeCasts S100000x1
  slices_S128x128_S64x128_0_0 : S128x128.Slices ![0, 0] S64x128
  slices_S128x128_S64x128_64_0 : S128x128.Slices ![64, 0] S64x128
  slices_S64x67_S64x3_0_0 : S64x67.Slices ![0, 0] S64x3
  slices_S64x67_S64x64_0_3 : S64x67.Slices ![0, 3] S64x64
  slices_S67_S3_0 : S67.Slices ![0] S3
  slices_S67_S64_3 : S67.Slices ![3] S64
  shapeCasts_S128_S1x128 : S128.ShapeCasts S1x128
  shapeCasts_S64_S1x64 : S64.ShapeCasts S1x64
  shapeCasts_S3_S1x3 : S3.ShapeCasts S1x3
  shapeCasts_S32_S1x32 : S32.ShapeCasts S1x32
  shapeCasts_S1_S1x1 : S1.ShapeCasts S1x1
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x4_S5000x4_0_0 : ∀ a, (![0, 0] : Fin 2 → Nat) a + S5000x4.size a ≤ S5000x4.size a
  h_S5000x4 : 0 < S5000x4.numel
  broadcasts_S5000x1_S5000x64 : S5000x1.Broadcasts S5000x64
  reduces_S5000x4_S5000 : S5000x4.Reduces [1] S5000
  shapeCasts_S5000_S5000x1 : S5000.ShapeCasts S5000x1
  broadcasts_S5000x1_S5000x4 : S5000x1.Broadcasts S5000x4
  slices_S5000x4_o0_0_S5000x1 : S5000x4.Slices ![0, 0] S5000x1
  natLt_1_32 : 1 < 32
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x3_S64x3_0_0 : ∀ a, (![0, 0] : Fin 2 → Nat) a + S64x3.size a ≤ S64x3.size a
  h_S64x3 : 0 < S64x3.numel
  shapeCasts_S64x3_S64x3 : S64x3.ShapeCasts S64x3
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S5000x3 : S1x3.Broadcasts S5000x3
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S32x1_S32x1_0_0 : ∀ a, (![0, 0] : Fin 2 → Nat) a + S32x1.size a ≤ S32x1.size a
  h_S32x1 : 0 < S32x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  broadcasts_S5000x1_S5000x3 : S5000x1.Broadcasts S5000x3
  inb_S5000x68_S5000x3_0_0 : ∀ a, (![0, 0] : Fin 2 → Nat) a + S5000x3.size a ≤ S5000x68.size a
  h_S5000x3 : 0 < S5000x3.numel
  inb_S5000x68_S5000x64_0_3 : ∀ a, (![0, 3] : Fin 2 → Nat) a + S5000x64.size a ≤ S5000x68.size a
  inb_S5000x68_S5000x1_0_67 : ∀ a, (![0, 67] : Fin 2 → Nat) a + S5000x1.size a ≤ S5000x68.size a
  scatter_S100000_S3200000x1_S3200000_n_0_0_1_wf : ScatterDims.WF S100000 S3200000x1 S3200000 [] [0] [0] 1
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S5000x64_S64x128_S5000x128_1_0_0_1_n_n_wf : DotDims.WF S5000x64 S64x128 S5000x128 [1] [0] [0] [1] [] []
  dot_S5000x128_S128x64_S5000x64_1_0_0_1_n_n_wf : DotDims.WF S5000x128 S128x64 S5000x64 [1] [0] [0] [1] [] []
  dot_S5000x64_S64x3_S5000x3_1_0_0_1_n_n_wf : DotDims.WF S5000x64 S64x3 S5000x3 [1] [0] [0] [1] [] []
  dot_S5000x64_S64x64_S5000x64_1_0_0_1_n_n_wf : DotDims.WF S5000x64 S64x64 S5000x64 [1] [0] [0] [1] [] []
  dot_S5000x64_S64x32_S5000x32_1_0_0_1_n_n_wf : DotDims.WF S5000x64 S64x32 S5000x32 [1] [0] [0] [1] [] []
  dot_S5000x32_S32x1_S5000x1_1_0_0_1_n_n_wf : DotDims.WF S5000x32 S32x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x4.size a ≤ S100000x4.size a
  hwx0_3 : ∀ i : grid0.Coords, EltTy.bits .f32 = 32 ∨ (Rect.block (s := S100000x4) S5000x4.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .f32 = 32 ∨ (Rect.block (s := S64x128) S64x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x128.size a ≤ S64x128.size a
  hwx0_6 : ∀ i : grid0.Coords, EltTy.bits .f32 = 32 ∨ (Rect.block (s := S64x128) S64x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x64.size a ≤ S128x64.size a
  hwx0_7 : ∀ i : grid0.Coords, EltTy.bits .f32 = 32 ∨ (Rect.block (s := S128x64) S128x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64x3.size a ≤ S64x3.size a
  hwx0_9 : ∀ i : grid0.Coords, EltTy.bits .f32 = 32 ∨ (Rect.block (s := S64x3) S64x3.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x3.size a ≤ S1x3.size a
  hwx0_10 : ∀ i : grid0.Coords, EltTy.bits .f32 = 32 ∨ (Rect.block (s := S1x3) S1x3.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S64x64.size a ≤ S64x64.size a
  hwx0_11 : ∀ i : grid0.Coords, EltTy.bits .f32 = 32 ∨ (Rect.block (s := S64x64) S64x64.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x64.size a ≤ S1x64.size a
  hwx0_12 : ∀ i : grid0.Coords, EltTy.bits .f32 = 32 ∨ (Rect.block (s := S1x64) S1x64.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S64x32.size a ≤ S64x32.size a
  hwx0_13 : ∀ i : grid0.Coords, EltTy.bits .f32 = 32 ∨ (Rect.block (s := S64x32) S64x32.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x32.size a ≤ S1x32.size a
  hwx0_14 : ∀ i : grid0.Coords, EltTy.bits .f32 = 32 ∨ (Rect.block (s := S1x32) S1x32.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S32x1.size a ≤ S32x1.size a
  hwx0_15 : ∀ i : grid0.Coords, EltTy.bits .f32 = 32 ∨ (Rect.block (s := S32x1) S32x1.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x1.size a ≤ S1x1.size a
  hwx0_16 : ∀ i : grid0.Coords, EltTy.bits .f32 = 32 ∨ (Rect.block (s := S1x1) S1x1.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S5000x68.size a ≤ S100000x68.size a
  hwx0_17 : ∀ i : grid0.Coords, EltTy.bits .f32 = 32 ∨ (Rect.block (s := S100000x68) S5000x68.size (cc0_transform_17 i) (hinb0_17 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x3_S5000x3_1_0_0_1_n_n : DotDims S5000x64 S64x3 S5000x3 where
  lhsContracting := [1]
  rhsContracting := [0]
  lhsNonContracting := [0]
  rhsNonContracting := [1]
  lhsBatch := []
  rhsBatch := []
  wf := dot_S5000x64_S64x3_S5000x3_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def dot_S5000x32_S32x1_S5000x1_1_0_0_1_n_n : DotDims S5000x32 S32x1 S5000x1 where
  lhsContracting := [1]
  rhsContracting := [0]
  lhsNonContracting := [0]
  rhsNonContracting := [1]
  lhsBatch := []
  rhsBatch := []
  wf := dot_S5000x32_S32x1_S5000x1_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S5000x4.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v23) S64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v29) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S64x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg5) S128x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v30) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v25) S64x3.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v31) S1x3.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v26) S64x64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v32) S1x64.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg9) S64x32.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v33) S1x32.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg11) S32x1.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v34) S1x1.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v35) S5000x68.size cc0_transform_17 reads0_17 true false 2 stage0_17 sem0_17
    hrank0 hreads0_17 hinb0_17 nbuf0_17 (Memref.isWhole_whole _) hwx0_17 hstage0_17

abbrev win0 : Fin 18 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | ⟨_ + 18, h⟩ => absurd h (Nat.not_lt.2 (Nat.le_add_left _ _))
abbrev spec0 : Fin 18 → Pipeline.WinSpec sig grid0.rank := fun w => (win0 w).toWinSpec

class Facts : Prop extends Facts₀ where

variable [Facts]
-- ==== ReferenceIdeal.lean ====
abbrev S100000x64 : Shape := ⟨2, ![100000, 64]⟩
abbrev S100000x4 : Shape := ⟨2, ![100000, 4]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x67 : Shape := ⟨2, ![64, 67]⟩
abbrev S67 : Shape := ⟨1, ![67]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S100000x1 : Shape := ⟨2, ![100000, 1]⟩
abbrev S1600000x1 : Shape := ⟨2, ![1600000, 1]⟩
abbrev S1600000x64 : Shape := ⟨2, ![1600000, 64]⟩
abbrev S100000x128 : Shape := ⟨2, ![100000, 128]⟩
abbrev S1x128 : Shape := ⟨2, ![1, 128]⟩
abbrev S1x64 : Shape := ⟨2, ![1, 64]⟩
abbrev S100000x67 : Shape := ⟨2, ![100000, 67]⟩
abbrev S1x67 : Shape := ⟨2, ![1, 67]⟩
abbrev S100000x3 : Shape := ⟨2, ![100000, 3]⟩
abbrev S100000x32 : Shape := ⟨2, ![100000, 32]⟩
abbrev S1x32 : Shape := ⟨2, ![1, 32]⟩
abbrev S1x1 : Shape := ⟨2, ![1, 1]⟩
abbrev S100000x68 : Shape := ⟨2, ![100000, 68]⟩

abbrev nBuf : Space → Nat
  | .hbm => 129
  | .vmem => 0
  | .smem => 0
  | _ => 0

abbrev hbmTy0_0 (i : Nat) : BufTy := match i % 128 with
  | 0 => ⟨S100000x64, .f32⟩
  | 1 => ⟨S100000x4, .f32⟩
  | 2 => ⟨S2x1600000, .i32⟩
  | 3 => ⟨S128x128, .f32⟩
  | 4 => ⟨S128, .f32⟩
  | 5 => ⟨S128x64, .f32⟩
  | 6 => ⟨S64, .f32⟩
  | 7 => ⟨S64x67, .f32⟩
  | 8 => ⟨S67, .f32⟩
  | 9 => ⟨S64x32, .f32⟩
  | 10 => ⟨S32, .f32⟩
  | 11 => ⟨S32x1, .f32⟩
  | 12 => ⟨S1, .f32⟩
  | 13 => ⟨S1x1600000, .i32⟩
  | 14 => ⟨S1600000, .i32⟩
  | 15 => ⟨S1x1600000, .i32⟩
  | 16 => ⟨S1600000, .i32⟩
  | 17 => ⟨S_, .f32⟩
  | 18 => ⟨S100000, .f32⟩
  | 19 => ⟨S_, .f32⟩
  | 20 => ⟨S100000, .f32⟩
  | 21 => ⟨S100000, .f32⟩
  | 22 => ⟨S100000x1, .f32⟩
  | 23 => ⟨S100000x4, .f32⟩
  | 24 => ⟨S100000x4, .f32⟩
  | 25 => ⟨S100000x4, .f32⟩
  | 26 => ⟨S_, .f32⟩
  | 27 => ⟨S100000, .f32⟩
  | 28 => ⟨S100000x1, .f32⟩
  | 29 => ⟨S100000x4, .f32⟩
  | 30 => ⟨S100000x4, .f32⟩
  | 31 => ⟨S100000x1, .f32⟩
  | 32 => ⟨S100000, .f32⟩
  | 33 => ⟨S_, .f32⟩
  | 34 => ⟨S1600000, .f32⟩
  | 35 => ⟨S_, .f32⟩
  | 36 => ⟨S100000, .f32⟩
  | 37 => ⟨S1600000x1, .i32⟩
  | 38 => ⟨S100000, .f32⟩
  | 39 => ⟨S_, .f32⟩
  | 40 => ⟨S100000, .f32⟩
  | 41 => ⟨S1600000x1, .i32⟩
  | 42 => ⟨S100000, .f32⟩
  | 43 => ⟨S100000, .f32⟩
  | 44 => ⟨S_, .f32⟩
  | 45 => ⟨S100000, .f32⟩
  | 46 => ⟨S100000, .i1⟩
  | 47 => ⟨S_, .f32⟩
  | 48 => ⟨S100000, .f32⟩
  | 49 => ⟨S100000, .i1⟩
  | 50 => ⟨S100000, .i1⟩
  | 51 => ⟨S100000, .f32⟩
  | 52 => ⟨S_, .i32⟩
  | 53 => ⟨S1600000, .i32⟩
  | 54 => ⟨S1600000, .i1⟩
  | 55 => ⟨S_, .i32⟩
  | 56 => ⟨S1600000, .i32⟩
  | 57 => ⟨S1600000, .i32⟩
  | 58 => ⟨S1600000, .i32⟩
  | 59 => ⟨S1600000x1, .i32⟩
  | 60 => ⟨S1600000x64, .f32⟩
  | 61 => ⟨S_, .f32⟩
  | 62 => ⟨S100000x64, .f32⟩
  | 63 => ⟨S1600000x1, .i32⟩
  | 64 => ⟨S100000x64, .f32⟩
  | 65 => ⟨S_, .i32⟩
  | 66 => ⟨S1600000, .i32⟩
  | 67 => ⟨S1600000, .i1⟩
  | 68 => ⟨S_, .i32⟩
  | 69 => ⟨S1600000, .i32⟩
  | 70 => ⟨S1600000, .i32⟩
  | 71 => ⟨S1600000, .i32⟩
  | 72 => ⟨S1600000x1, .i32⟩
  | 73 => ⟨S1600000x64, .f32⟩
  | 74 => ⟨S_, .f32⟩
  | 75 => ⟨S100000x64, .f32⟩
  | 76 => ⟨S1600000x1, .i32⟩
  | 77 => ⟨S100000x64, .f32⟩
  | 78 => ⟨S100000x64, .f32⟩
  | 79 => ⟨S_, .f32⟩
  | 80 => ⟨S100000, .f32⟩
  | 81 => ⟨S100000, .f32⟩
  | 82 => ⟨S100000x1, .f32⟩
  | 83 => ⟨S100000x64, .f32⟩
  | 84 => ⟨S100000x64, .f32⟩
  | 85 => ⟨S100000x128, .f32⟩
  | 86 => ⟨S100000x128, .f32⟩
  | 87 => ⟨S1x128, .f32⟩
  | 88 => ⟨S100000x128, .f32⟩
  | 89 => ⟨S100000x128, .f32⟩
  | 90 => ⟨S_, .f32⟩
  | 91 => ⟨S100000x128, .f32⟩
  | 92 => ⟨S100000x128, .f32⟩
  | 93 => ⟨S100000x64, .f32⟩
  | 94 => ⟨S1x64, .f32⟩
  | 95 => ⟨S100000x64, .f32⟩
  | 96 => ⟨S100000x64, .f32⟩
  | 97 => ⟨S_, .f32⟩
  | 98 => ⟨S100000x64, .f32⟩
  | 99 => ⟨S100000x64, .f32⟩
  | 100 => ⟨S100000x67, .f32⟩
  | 101 => ⟨S1x67, .f32⟩
  | 102 => ⟨S100000x67, .f32⟩
  | 103 => ⟨S100000x67, .f32⟩
  | 104 => ⟨S100000x3, .f32⟩
  | 105 => ⟨S100000x64, .f32⟩
  | 106 => ⟨S100000x32, .f32⟩
  | 107 => ⟨S1x32, .f32⟩
  | 108 => ⟨S100000x32, .f32⟩
  | 109 => ⟨S100000x32, .f32⟩
  | 110 => ⟨S_, .f32⟩
  | 111 => ⟨S100000x32, .f32⟩
  | 112 => ⟨S100000x32, .f32⟩
  | 113 => ⟨S100000x1, .f32⟩
  | 114 => ⟨S1x1, .f32⟩
  | 115 => ⟨S100000x1, .f32⟩
  | 116 => ⟨S100000x1, .f32⟩
  | 117 => ⟨S100000x1, .f32⟩
  | 118 => ⟨S100000x1, .f32⟩
  | 119 => ⟨S_, .f32⟩
  | 120 => ⟨S100000x1, .f32⟩
  | 121 => ⟨S100000x1, .f32⟩
  | 122 => ⟨S_, .f32⟩
  | 123 => ⟨S100000x1, .f32⟩
  | 124 => ⟨S100000x1, .f32⟩
  | 125 => ⟨S100000x68, .f32⟩
  | 126 => ⟨S100000x1, .f32⟩
  | 127 => ⟨S100000x68, .f32⟩
  | _ => ⟨S100000x64, .f32⟩

abbrev hbmTy0_1 (i : Nat) : BufTy := match i % 128 with
  | 0 => ⟨S100000x68, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_2 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_4 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_5 : Ref sig .tc := ⟨.hbm, 44, rfl⟩
abbrev main_v25 : Ref sig .tc := ⟨.hbm, 45, rfl⟩
abbrev main_v26 : Ref sig .tc := ⟨.hbm, 46, rfl⟩
abbrev main_cst_6 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_8 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_c_9 : Ref sig .tc := ⟨.hbm, 65, rfl⟩
abbrev main_v41 : Ref sig .tc := ⟨.hbm, 66, rfl⟩
abbrev main_v42 : Ref sig .tc := ⟨.hbm, 67, rfl⟩
abbrev main_c_10 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_cst_11 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst_12 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_call0_cst : Ref sig .tc := ⟨.hbm, 90, rfl⟩
abbrev main_call0_v0 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_call1_cst : Ref sig .tc := ⟨.hbm, 97, rfl⟩
abbrev main_call1_v0 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_call2_cst : Ref sig .tc := ⟨.hbm, 110, rfl⟩
abbrev main_call2_v0 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_cst_13 : Ref sig .tc := ⟨.hbm, 119, rfl⟩
abbrev main_v85 : Ref sig .tc := ⟨.hbm, 120, rfl⟩
abbrev main_v86 : Ref sig .tc := ⟨.hbm, 121, rfl⟩
abbrev main_cst_14 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  reducesTo_S100000x4_S100000_d1 : S100000x4.ReducesTo [1] S100000
  h_S_ : 0 < S_.numel
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x4_0_1 : S100000x1.BroadcastsInDim S100000x4 (![0, 1] : Fin 2 → Fin S100000x4.rank)
  slices_S100000x4_S100000x1_0_0 : S100000x4.Slices ![0, 0] S100000x1
  shapeCasts_S100000x1_S100000 : S100000x1.ShapeCasts S100000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  concatenates_S100000x64_S100000x64_S100000x128_d1 : Shape.Concatenates [S100000x64, S100000x64] S100000x128 1
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S67_S1x67_1 : S67.BroadcastsInDim S1x67 (![1] : Fin 1 → Fin S1x67.rank)
  bcast_S1x67_S100000x67_0_1 : S1x67.BroadcastsInDim S100000x67 (![0, 1] : Fin 2 → Fin S100000x67.rank)
  slices_S100000x67_S100000x3_0_0 : S100000x67.Slices ![0, 0] S100000x3
  slices_S100000x67_S100000x64_0_3 : S100000x67.Slices ![0, 3] S100000x64
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S100000x1 : S_.BroadcastsInDim S100000x1 (![] : Fin 0 → Fin S100000x1.rank)
  concatenates_S100000x3_S100000x64_S100000x1_S100000x68_d1 : Shape.Concatenates [S100000x3, S100000x64, S100000x1] S100000x68 1
  bcast_S100000x1_S100000x68_0_1 : S100000x1.BroadcastsInDim S100000x68 (![0, 1] : Fin 2 → Fin S100000x68.rank)
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []
  dot_S100000x64_S64x67_S100000x67_1_0_0_1_n_n_wf : DotDims.WF S100000x64 S64x67 S100000x67 [1] [0] [0] [1] [] []
  dot_S100000x64_S64x32_S100000x32_1_0_0_1_n_n_wf : DotDims.WF S100000x64 S64x32 S100000x32 [1] [0] [0] [1] [] []
  dot_S100000x32_S32x1_S100000x1_1_0_0_1_n_n_wf : DotDims.WF S100000x32 S32x1 S100000x1 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x67_S100000x67_1_0_0_1_n_n : DotDims S100000x64 S64x67 S100000x67 where
  lhsContracting := [1]
  rhsContracting := [0]
  lhsNonContracting := [0]
  rhsNonContracting := [1]
  lhsBatch := []
  rhsBatch := []
  wf := dot_S100000x64_S64x67_S100000x67_1_0_0_1_n_n_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def dot_S100000x32_S32x1_S100000x1_1_0_0_1_n_n : DotDims S100000x32 S32x1 S100000x1 where
  lhsContracting := [1]
  rhsContracting := [0]
  lhsNonContracting := [0]
  rhsNonContracting := [1]
  lhsBatch := []
  rhsBatch := []
  wf := dot_S100000x32_S32x1_S100000x1_1_0_0_1_n_n_wf

class Facts : Prop extends Facts₀ where

variable [Facts]
-- ==== Proof.NodeSpec.lean ====
/-
  One node of the graph network, as a function on the extended reals.

  A node carries a feature row x (64 numbers), the sum s of its neighbours' feature rows, its degree d and a row o of
  four operation scores. Its output row has 68 entries:
    * nm   = s / max(d, 1), the neighbours' mean;
    * a1   = relu(x · W1[0:64] + nm · W1[64:128] + b1)   (the first layer's matrix split into the rows that meet x and
             the rows that meet nm);
    * a2   = relu(a1 · W2 + b2);
    * pos  = a2 · W3[:, 0:3] + b3[0:3],  feats = a2 · W3[:, 3:67] + b3[3:67];
    * prob = logistic(relu(feats · P1 + pb1) · P2 + pb2);
    * mask = 1 when the softmax of o puts more than 1/2 on its first entry and d > 0, else 0 (the value of a
             one-bit word);
    * the row (pos | feats | prob), every entry times mask.
  The constants 0, 1/2, 1 and -∞ are kept as the binary32 words the programs spell, except that the running maximum
  starts from the least extended real.
-/
import Idealize.ShloMosaic.PureOps.Ideal
import Idealize.ShloMosaic.Lib.ValueIdx

noncomputable section

open scoped BigOperators

namespace Cert.NodeNet

open Idealize.ShloMosaic Idealize.ShloMosaic.ValueIdx

/-- The words of 0, 1/2 and 1. -/
abbrev zeroF : EReal := Ideal.ofBits .f32 0x00000000#32
abbrev halfF : EReal := Ideal.ofBits .f32 0x3F000000#32
abbrev oneF : EReal := Ideal.ofBits .f32 0x3F800000#32

/-- The layers' weights, each a function of its coordinates. -/
structure Weights where
  W1a : Fin 64 → Fin 128 → EReal
  W1b : Fin 64 → Fin 128 → EReal
  b1 : Fin 128 → EReal
  W2 : Fin 128 → Fin 64 → EReal
  b2 : Fin 64 → EReal
  W3p : Fin 64 → Fin 3 → EReal
  b3p : Fin 3 → EReal
  W3f : Fin 64 → Fin 64 → EReal
  b3f : Fin 64 → EReal
  P1 : Fin 64 → Fin 32 → EReal
  pb1 : Fin 32 → EReal
  P2 : Fin 32 → EReal
  pb2 : EReal

/-- The weights read off the thirteen blocks one grid point is handed: the two halves of the first matrix, the
    biases as rows of one line, the third layer already cut into its first three and its last 64 columns. -/
def Weights.ofBlocks
    (w1a : (⟨2, ![64, 128]⟩ : Shape).Idx → EReal) (c1 : (⟨2, ![1, 128]⟩ : Shape).Idx → EReal)
    (w1b : (⟨2, ![64, 128]⟩ : Shape).Idx → EReal)
    (w2 : (⟨2, ![128, 64]⟩ : Shape).Idx → EReal) (c2 : (⟨2, ![1, 64]⟩ : Shape).Idx → EReal)
    (w3p : (⟨2, ![64, 3]⟩ : Shape).Idx → EReal) (c3p : (⟨2, ![1, 3]⟩ : Shape).Idx → EReal)
    (w3f : (⟨2, ![64, 64]⟩ : Shape).Idx → EReal) (c3f : (⟨2, ![1, 64]⟩ : Shape).Idx → EReal)
    (p1 : (⟨2, ![64, 32]⟩ : Shape).Idx → EReal) (q1 : (⟨2, ![1, 32]⟩ : Shape).Idx → EReal)
    (p2 : (⟨2, ![32, 1]⟩ : Shape).Idx → EReal) (q2 : (⟨2, ![1, 1]⟩ : Shape).Idx → EReal) : Weights where
  W1a k j := w1a (ix2 k j)
  W1b k j := w1b (ix2 k j)
  b1 j := c1 (ix2 (0 : Fin 1) j)
  W2 k j := w2 (ix2 k j)
  b2 j := c2 (ix2 (0 : Fin 1) j)
  W3p k c := w3p (ix2 k c)
  b3p c := c3p (ix2 (0 : Fin 1) c)
  W3f k c := w3f (ix2 k c)
  b3f c := c3f (ix2 (0 : Fin 1) c)
  P1 k j := p1 (ix2 k j)
  pb1 j := q1 (ix2 (0 : Fin 1) j)
  P2 k := p2 (ix2 k (0 : Fin 1))
  pb2 := q2 (ix2 (0 : Fin 1) (0 : Fin 1))

/-- The weights read off the ten parameter arrays as the network is given them. -/
def Weights.ofArrays
    (W1 : (⟨2, ![128, 128]⟩ : Shape).Idx → EReal) (b1 : (⟨1, ![128]⟩ : Shape).Idx → EReal)
    (W2 : (⟨2, ![128, 64]⟩ : Shape).Idx → EReal) (b2 : (⟨1, ![64]⟩ : Shape).Idx → EReal)
    (W3 : (⟨2, ![64, 67]⟩ : Shape).Idx → EReal) (b3 : (⟨1, ![67]⟩ : Shape).Idx → EReal)
    (P1 : (⟨2, ![64, 32]⟩ : Shape).Idx → EReal) (pb1 : (⟨1, ![32]⟩ : Shape).Idx → EReal)
    (P2 : (⟨2, ![32, 1]⟩ : Shape).Idx → EReal) (pb2 : (⟨1, ![1]⟩ : Shape).Idx → EReal) : Weights where
  W1a k j := W1 (ix2 (⟨k.val, by omega⟩ : Fin 128) j)
  W1b k j := W1 (ix2 (⟨64 + k.val, by omega⟩ : Fin 128) j)
  b1 j := b1 (ix1 j)
  W2 k j := W2 (ix2 k j)
  b2 j := b2 (ix1 j)
  W3p k c := W3 (ix2 k (⟨c.val, by omega⟩ : Fin 67))
  b3p c := b3 (ix1 (⟨c.val, by omega⟩ : Fin 67))
  W3f k c := W3 (ix2 k (⟨3 + c.val, by omega⟩ : Fin 67))
  b3f c := b3 (ix1 (⟨3 + c.val, by omega⟩ : Fin 67))
  P1 k j := P1 (ix2 k j)
  pb1 j := pb1 (ix1 j)
  P2 k := P2 (ix2 k (0 : Fin 1))
  pb2 := pb2 (ix1 (0 : Fin 1))

/-- The neighbours' mean: the sum over max(degree, 1). -/
def nmean (s : Fin 64 → EReal) (d : EReal) (k : Fin 64) : EReal := Ideal.div (s k) (max d oneF)

/-- The largest of the four scores, as a running maximum from the least extended real (taken once more against it). -/
def rowMax (o : Fin 4 → EReal) : EReal := max ⊥ ((Finset.univ : Finset (Fin 4)).fold max ⊥ o)

/-- The softmax of the four scores at its first entry. -/
def insertProb (o : Fin 4 → EReal) : EReal :=
  Ideal.div (Ideal.exp (o 0 - rowMax o)) (∑ k : Fin 4, Ideal.exp (o k - rowMax o))

/-- The candidate bit: the first softmax entry exceeds 1/2 and the degree is positive. -/
def maskBit (o : Fin 4 → EReal) (d : EReal) : BitVec 1 :=
  IntOp.andi (Ideal.cmp .ogt (insertProb o) halfF) (Ideal.cmp .ogt d zeroF)

/-- The candidate bit as a number, 0 or 1. -/
def mask (o : Fin 4 → EReal) (d : EReal) : EReal := (((maskBit o d).toNat : ℝ) : EReal)

variable (w : Weights)

def layer1 (x nm : Fin 64 → EReal) (j : Fin 128) : EReal :=
  max ((∑ k : Fin 64, x k * w.W1a k j) + (∑ k : Fin 64, nm k * w.W1b k j) + w.b1 j) zeroF

def layer2 (a : Fin 128 → EReal) (j : Fin 64) : EReal := max ((∑ k : Fin 128, a k * w.W2 k j) + w.b2 j) zeroF

def posOf (a : Fin 64 → EReal) (c : Fin 3) : EReal := (∑ k : Fin 64, a k * w.W3p k c) + w.b3p c

def featsOf (a : Fin 64 → EReal) (c : Fin 64) : EReal := (∑ k : Fin 64, a k * w.W3f k c) + w.b3f c

def hidden (f : Fin 64 → EReal) (j : Fin 32) : EReal := max ((∑ k : Fin 64, f k * w.P1 k j) + w.pb1 j) zeroF

def probOf (p : Fin 32 → EReal) : EReal := Ideal.logistic ((∑ k : Fin 32, p k * w.P2 k) + w.pb2)

/-- The second layer's activations of a node. -/
def act2 (x s : Fin 64 → EReal) (d : EReal) : Fin 64 → EReal := layer2 w (layer1 w x (nmean s d))

/-- The three bands of a node's output row, before masking. -/
def posRow (x s : Fin 64 → EReal) (d : EReal) (c : Fin 3) : EReal := posOf w (act2 w x s d) c
def featsRow (x s : Fin 64 → EReal) (d : EReal) (c : Fin 64) : EReal := featsOf w (act2 w x s d) c
def probRow (x s : Fin 64 → EReal) (d : EReal) : EReal := probOf w (hidden w (featsRow w x s d))

/-- A node's output row: positions in columns 0–2, features in columns 3–66, the probability in column 67, all
    times the candidate mask. -/
def rowOut (x s : Fin 64 → EReal) (d : EReal) (o : Fin 4 → EReal) (j : Fin 68) : EReal :=
  if h3 : j.val < 3 then posRow w x s d ⟨j.val, h3⟩ * mask o d
  else if h67 : j.val < 67 then featsRow w x s d ⟨j.val - 3, by omega⟩ * mask o d
  else probRow w x s d * mask o d

theorem rowOut_pos (x s : Fin 64 → EReal) (d : EReal) (o : Fin 4 → EReal) (c : Fin 3) (h : c.val < 68) :
    rowOut w x s d o ⟨c.val, h⟩ = posRow w x s d c * mask o d := by
  unfold rowOut
  rw [dif_pos (show (⟨c.val, h⟩ : Fin 68).val < 3 from c.isLt)]

theorem rowOut_feats (x s : Fin 64 → EReal) (d : EReal) (o : Fin 4 → EReal) (c : Fin 64) (h : 3 + c.val < 68) :
    rowOut w x s d o ⟨3 + c.val, h⟩ = featsRow w x s d c * mask o d := by
  unfold rowOut
  rw [dif_neg (show ¬ (⟨3 + c.val, h⟩ : Fin 68).val < 3 by show ¬ 3 + c.val < 3; omega),
    dif_pos (show (⟨3 + c.val, h⟩ : Fin 68).val < 67 by show 3 + c.val < 67; have := c.isLt; omega)]
  exact congrArg (fun q => featsRow w x s d q * mask o d) (Fin.ext (by show 3 + c.val - 3 = c.val; omega))

theorem rowOut_prob (x s : Fin 64 → EReal) (d : EReal) (o : Fin 4 → EReal) (h : 67 < 68) :
    rowOut w x s d o ⟨67, h⟩ = probRow w x s d * mask o d := by
  unfold rowOut
  rw [dif_neg (show ¬ (⟨67, h⟩ : Fin 68).val < 3 by show ¬ 67 < 3; omega),
    dif_neg (show ¬ (⟨67, h⟩ : Fin 68).val < 67 by show ¬ 67 < 67; omega)]

/-- The whole output array: row n is the node function of row n of the features X, row n of the neighbour sums NS,
    the degree DEG n and row n of the scores OPS. -/
def netOut (X NS : (⟨2, ![100000, 64]⟩ : Shape).Idx → EReal) (DEG : Fin 100000 → EReal)
    (OPS : (⟨2, ![100000, 4]⟩ : Shape).Idx → EReal) : (⟨2, ![100000, 68]⟩ : Shape).Idx → EReal :=
  fun i => rowOut w (fun k => X (ix2 (i 0 : Fin 100000) k)) (fun k => NS (ix2 (i 0 : Fin 100000) k))
    (DEG (i 0 : Fin 100000)) (fun k => OPS (ix2 (i 0 : Fin 100000) k)) (i 1 : Fin 68)

theorem netOut_apply (X NS : (⟨2, ![100000, 64]⟩ : Shape).Idx → EReal) (DEG : Fin 100000 → EReal)
    (OPS : (⟨2, ![100000, 4]⟩ : Shape).Idx → EReal) (n : Fin 100000) (j : Fin 68) :
    netOut w X NS DEG OPS (ix2 n j)
      = rowOut w (fun k => X (ix2 n k)) (fun k => NS (ix2 n k)) (DEG n) (fun k => OPS (ix2 n k)) j := rfl

end Cert.NodeNet

end
-- ==== Proof.LibColumnLayout.lean ====
/-
  Column layouts and row reductions read at an index.

  A reduction along the last axis with `keepdims` leaves a column: the reduced vector `[a]` is cast to `[a, 1]` and
  broadcast back to `[a, b]`, so entry `(p, c)` of the broadcast is entry `p` of the reduced vector. The reductions
  themselves, over the last axis of a rank-2 array and read at row `p`, are the sum (resp. the fold of `max`) over that
  row's entries. Stated over literal-size constructors (`ix1`, `ix2`) so that they fire on indices built by coordinates.
-/
import Idealize.ShloMosaic.Lib.ValueIdx
import Idealize.ShloMosaic.Lib.ValueLayout
import Idealize.ShloMosaic.Lib.Pipeline.Value
import Idealize.ShloMosaic.PureOps.Ideal.Laws

noncomputable section

namespace Idealize.ShloMosaic.ColumnLayout

open Idealize.ShloMosaic Idealize.ShloMosaic.ValueIdx

variable {α : Type}

/-- An `[a]` array cast to the column `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, b]` array cast to `[1, 1, a, b]` reads, at `(u, v, i, j)`, the operand at `(i, j)`, whatever the unit coordinates. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_two, Shape.rowMajor_val_four]
    show i.val * b + j.val = ((u.val * 1 + v.val) * a + i.val) * b + j.val
    simp only [hu, hv, Nat.zero_mul, Nat.zero_add])

/-- The two together: a reduced vector kept as a column and broadcast back along the rows. -/
theorem keepdims_apply {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) :=
  (broadcastTo_a1_ab_apply _ h' p c).trans (shapeCast_a_a1_apply x h p 0)

/-- A float sum over the last axis of an `[a, b]` array from the zero word, read at row `p` at the extended reals: the sum
    of the row's entries. -/
theorem rowSum_apply {a b : ℕ} (src : FVec Ideal ⟨2, ![a, b]⟩ .f32) (h : (⟨2, ![a, b]⟩ : Shape).Reduces [1] ⟨1, ![a]⟩)
    (hφ : FKind.Formats FTy.f32) (hacc : (0x00000000#32 : BitVec FTy.f32.bits) = FKind.add.neutral .f32 hφ) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => congrArg src (funext fun ax => Fin.ext ?_)
  match ax with
  | ⟨0, _⟩ => rfl
  | ⟨1, _⟩ => rfl

/-- The binary32 word of `−∞` is the least extended real. -/
theorem ofBits_neg_inf_f32 : Ideal.ofBits .f32 0xFF800000#32 = ⊥ := by simp [Ideal.ofBits, Ideal.ieee]

/-- A float maximum over the last axis of an `[a, b]` array from the `−∞` word, read at row `p` at the extended reals: the
    fold of `max` over the row's entries from `⊥`. -/
theorem rowMax_apply {a b : ℕ} (src : FVec Ideal ⟨2, ![a, b]⟩ .f32) (h : (⟨2, ![a, b]⟩ : Shape).Reduces [1] ⟨1, ![a]⟩)
    (hφ : FKind.Formats FTy.f32) (hacc : (0xFF800000#32 : BitVec FTy.f32.bits) = FKind.maximumf.neutral .f32 hφ) (p : Fin a) :
    multiReduction .maximumf [1] ⟨1, ![a]⟩ src 0xFF800000#32 h hφ hacc (ix1 p)
      = (Finset.univ : Finset (Fin b)).fold max ⊥ (fun k => src (ix2 p k)) := by
  refine (Ideal.multiReduction_maximumf_single src 0xFF800000#32 h hφ hacc (ix1 p)).trans ?_
  show (Finset.univ : Finset (Fin b)).fold max (Ideal.ofBits .f32 0xFF800000#32) (src ∘ h.lift (ix1 p)) = _
  rw [ofBits_neg_inf_f32]
  refine congrArg (Finset.fold max ⊥ · Finset.univ) (funext fun k => congrArg src (funext fun ax => Fin.ext ?_))
  match ax with
  | ⟨0, _⟩ => rfl
  | ⟨1, _⟩ => rfl

/-- A row softmax read at an entry. The printed form: the row maximum (a float `max` reduction from `−∞`) kept as a
    column, subtracted, exponentiated; the row sum of the exponentials (a float `add` reduction from zero) kept as a column;
    the quotient. At `(m, n)`, over the extended reals, it is `exp (s[m, n] − max_n' s[m, n'])` over the sum of the same
    expression along row `m`. -/
theorem rowSoftmax_apply {a b : ℕ} (s : FVec Ideal ⟨2, ![a, b]⟩ .f32)
    (h : (⟨2, ![a, b]⟩ : Shape).Reduces [1] ⟨1, ![a]⟩) (hφ hφ' : FKind.Formats FTy.f32)
    (hmax : (0xFF800000#32 : BitVec FTy.f32.bits) = FKind.maximumf.neutral .f32 hφ)
    (hadd : (0x00000000#32 : BitVec FTy.f32.bits) = FKind.add.neutral .f32 hφ')
    (hc : (⟨1, ![a]⟩ : Shape).ShapeCasts ⟨2, ![a, 1]⟩) (hb : (⟨2, ![a, 1]⟩ : Shape).Broadcasts ⟨2, ![a, b]⟩)
    (m : Fin a) (n : Fin b) :
    divf
        (exp (subf s (broadcastTo ⟨2, ![a, b]⟩
          (shapeCast ⟨2, ![a, 1]⟩ (multiReduction .maximumf [1] ⟨1, ![a]⟩ s 0xFF800000#32 h hφ hmax) hc) hb)))
        (broadcastTo ⟨2, ![a, b]⟩
          (shapeCast ⟨2, ![a, 1]⟩
            (multiReduction .add [1] ⟨1, ![a]⟩
              (exp (subf s (broadcastTo ⟨2, ![a, b]⟩
                (shapeCast ⟨2, ![a, 1]⟩ (multiReduction .maximumf [1] ⟨1, ![a]⟩ s 0xFF800000#32 h hφ hmax) hc) hb)))
              0x00000000#32 h hφ' hadd) hc) hb)
        (ix2 m n)
      = Ideal.div (Ideal.exp (s (ix2 m n) - (Finset.univ : Finset (Fin b)).fold max ⊥ (fun n' => s (ix2 m n'))))
          (∑ n' : Fin b, Ideal.exp (s (ix2 m n') - (Finset.univ : Finset (Fin b)).fold max ⊥ (fun n'' => s (ix2 m n'')))) := by
  have hnum : ∀ n' : Fin b,
      exp (subf s (broadcastTo ⟨2, ![a, b]⟩
          (shapeCast ⟨2, ![a, 1]⟩ (multiReduction .maximumf [1] ⟨1, ![a]⟩ s 0xFF800000#32 h hφ hmax) hc) hb)) (ix2 m n')
        = Ideal.exp (s (ix2 m n') - (Finset.univ : Finset (Fin b)).fold max ⊥ (fun n'' => s (ix2 m n''))) := by
    intro n'
    show Ideal.exp (s (ix2 m n') - broadcastTo ⟨2, ![a, b]⟩
          (shapeCast ⟨2, ![a, 1]⟩ (multiReduction .maximumf [1] ⟨1, ![a]⟩ s 0xFF800000#32 h hφ hmax) hc) hb (ix2 m n')) = _
    rw [keepdims_apply, rowMax_apply]
  rw [divf_apply, hnum n, keepdims_apply, rowSum_apply]
  exact congrArg (Ideal.div _) (Finset.sum_congr rfl fun n' _ => hnum n')

end Idealize.ShloMosaic.ColumnLayout

end
-- ==== Proof.BodyMask.lean ====
/-
  The candidate mask of the kernel body, read at a row.

  The body forms the softmax of a node's four operation scores along the row: the row maximum (a running maximum from
  -∞, taken once more against -∞), the exponentials of the shifted scores, their row sum, the quotient. It keeps the
  first column, compares it with 1/2, compares the degree with 0, takes the conjunction of the two one-bit answers,
  widens that bit to a 32-bit word and reads the word as a signed integer. A one-bit word widened with zeros is 0 or 1,
  so the signed reading is the bit's value as a natural number: the mask of the node specification.
-/
import proofs.«169547_j85856396247142_2_alg».proof.Proof.Gen.KernelIdeal.Skeleton
import proofs.«169547_j85856396247142_2_alg».proof.Proof.NodeSpec
import proofs.«169547_j85856396247142_2_alg».proof.Proof.LibColumnLayout
import Idealize.ShloMosaic.Lib.ValueIdx
import Idealize.ShloMosaic.Lib.ValueLayout
import Idealize.ShloMosaic.Lib.Pipeline.Value
import Idealize.ShloMosaic.PureOps.Ideal
import Idealize.ShloMosaic.PureOps.Ideal.Laws

noncomputable section

open scoped BigOperators

namespace Cert.BodyRows

open Idealize.ShloMosaic Idealize.ShloMosaic.ValueIdx Idealize.ShloMosaic.ColumnLayout
open Cert.KernelIdeal Cert.KernelIdeal.Gen

/-! ## A one-bit word widened and read as a signed integer -/

/-- A one-bit word widened with zeros to 32 bits is 0 or 1, so its signed reading is the bit's value. -/
theorem toInt_setWidth_bit (w : BitVec 1) : (w.setWidth 32).toInt = (w.toNat : ℤ) := by
  rcases BitVec.eq_zero_or_eq_one w with h | h <;> subst h <;> decide

/-- The same as an extended real. -/
theorem bit_as_real (w : BitVec 1) : ((((w.setWidth 32).toInt : ℤ) : ℝ) : EReal) = ((w.toNat : ℝ) : EReal) := by
  rw [toInt_setWidth_bit, Int.cast_natCast]

/-! ## Pointwise operations at an index -/

/-- A bitwise conjunction at an index is the conjunction of the elements. -/
theorem andi_apply {s : Shape} {w : ℕ} (x y : IVec s w) (i : s.Idx) : andi x y i = IntOp.andi (x i) (y i) := rfl

/-- The first column of a four-column array, read at a row. -/
theorem col0_apply {α : Type} (x : S5000x4.Idx → α) (p : Fin 5000) :
    extractStridedSlice S5000x1 ![0, 0] x slices_S5000x4_o0_0_S5000x1 (ix2 p (0 : Fin 1)) = x (ix2 p (0 : Fin 4)) :=
  extractStridedSlice_apply _ x _ _ _ (fun ax => by
    match ax with
    | ⟨0, _⟩ => show p.val = 0 + p.val; omega
    | ⟨1, _⟩ => rfl)

/-! ## The softmax row -/

/-- The exponentials of the scores shifted by their row's maximum, as the body forms them: the row maximum is a
    running maximum from -∞, taken once more against -∞, kept as a column and repeated along the row. -/
def expRows (x3 : Vec Ideal S5000x4 .f32) : FVec Ideal S5000x4 .f32 :=
  exp (subf x3 (broadcastTo S5000x4 (shapeCast S5000x1
    (maximumf (broadcast S5000 (Scalar.ofBits (F := Ideal) .f32 0xFF800000#32))
      (multiReduction (F := Ideal) .maximumf [1] S5000 x3 0xFF800000#32 reduces_S5000x4_S5000 (.inl rfl) rfl))
    shapeCasts_S5000_S5000x1) broadcasts_S5000x1_S5000x4))

/-- The first column of the row softmax, as the body forms it: the exponentials over their row sum (kept as a column
    and repeated along the row), cut to column 0. -/
def softmaxCol0 (x3 : Vec Ideal S5000x4 .f32) : FVec Ideal S5000x1 .f32 :=
  extractStridedSlice S5000x1 ![0, 0]
    (divf (expRows x3) (broadcastTo S5000x4 (shapeCast S5000x1
      (multiReduction (F := Ideal) .add [1] S5000 (expRows x3) 0x00000000#32 reduces_S5000x4_S5000 (.inl rfl) rfl)
      shapeCasts_S5000_S5000x1) broadcasts_S5000x1_S5000x4))
    slices_S5000x4_o0_0_S5000x1

/-- Entry `(r, c)` of the exponentials is `exp (o c - rowMax o)` for the row `o` of scores of node `r`. -/
theorem expRows_apply (x3 : Vec Ideal S5000x4 .f32) (r : Fin 5000) (c : Fin 4) :
    expRows x3 (ix2 r c) = Ideal.exp (x3 (ix2 r c) - Cert.NodeNet.rowMax (fun k => x3 (ix2 r k))) := by
  unfold expRows
  show Ideal.exp (x3 (ix2 r c) - broadcastTo S5000x4 (shapeCast S5000x1 _ shapeCasts_S5000_S5000x1)
      broadcasts_S5000x1_S5000x4 (ix2 r c)) = _
  rw [keepdims_apply]
  show Ideal.exp (x3 (ix2 r c) - max (Ideal.ofBits .f32 0xFF800000#32)
      (multiReduction (F := Ideal) .maximumf [1] S5000 x3 0xFF800000#32 reduces_S5000x4_S5000 (.inl rfl) rfl (ix1 r))) = _
  rw [ofBits_neg_inf_f32]
  exact congrArg (fun t => Ideal.exp (x3 (ix2 r c) - max ⊥ t)) (rowMax_apply x3 reduces_S5000x4_S5000 _ _ r)

/-- Row `r` of the softmax's first column is the specification's first softmax entry of node `r`'s scores. -/
theorem softmaxCol0_apply (x3 : Vec Ideal S5000x4 .f32) (r : Fin 5000) :
    softmaxCol0 x3 (ix2 r (0 : Fin 1)) = Cert.NodeNet.insertProb (fun k => x3 (ix2 r k)) := by
  unfold softmaxCol0
  refine (col0_apply _ r).trans ?_
  show Ideal.div (expRows x3 (ix2 r (0 : Fin 4))) (broadcastTo S5000x4 (shapeCast S5000x1 _ shapeCasts_S5000_S5000x1)
      broadcasts_S5000x1_S5000x4 (ix2 r (0 : Fin 4))) = _
  refine (congrArg (Ideal.div _)
    ((keepdims_apply _ _ _ r (0 : Fin 4)).trans (rowSum_apply (expRows x3) reduces_S5000x4_S5000 _ _ r))).trans ?_
  unfold Cert.NodeNet.insertProb
  exact congr (congrArg Ideal.div (expRows_apply x3 r 0)) (Finset.sum_congr rfl fun k _ => expRows_apply x3 r k)

/-! ## The mask -/

/-- The mask column at row `r`, opened down to the softmax column and the degree: the conjunction of the two
    comparisons, widened and read as a signed integer. -/
theorem pay5_unfold (x2 : Vec Ideal S5000x1 .f32) (x3 : Vec Ideal S5000x4 .f32) (r : Fin 5000) :
    k0_pay5 (F := Ideal) x2 x3 (ix2 r (0 : Fin 1))
      = (((((IntOp.andi (Ideal.cmp .ogt (softmaxCol0 x3 (ix2 r (0 : Fin 1))) Cert.NodeNet.halfF)
              (Ideal.cmp .ogt (x2 (ix2 r (0 : Fin 1))) Cert.NodeNet.zeroF)).setWidth 32).toInt : ℤ) : ℝ) : EReal) := by
  unfold k0_pay5 k0_pay4
  simp only [sitofp_apply, extui_apply, andi_apply, cmpf_apply, broadcast_apply]
  rw [shapeCast_self]
  rfl

/-- The mask column of the body at row `r` is the specification's mask of that node's scores and degree. -/
theorem pay5_apply (x2 : Vec Ideal S5000x1 .f32) (x3 : Vec Ideal S5000x4 .f32) (r : Fin 5000) :
    k0_pay5 (F := Ideal) x2 x3 (ix2 r (0 : Fin 1))
      = Cert.NodeNet.mask (fun k => x3 (ix2 r k)) (x2 (ix2 r (0 : Fin 1))) := by
  rw [pay5_unfold, softmaxCol0_apply]
  exact bit_as_real (Cert.NodeNet.maskBit (fun k => x3 (ix2 r k)) (x2 (ix2 r (0 : Fin 1))))

end Cert.BodyRows

end
-- ==== Proof.LibPlainMatmul.lean ====
/-
  The plain matrix product on the extended reals, read at one entry.

  A matrix unit's product of an `m × k` by a `k × n` array (rows against columns, no batch axis), accumulated into the
  zero array, holds at entry `(a, b)` the sum over the contracted position `c` of `A[a,c] · B[c,b]`. The contraction's
  index set has one axis; it is re-indexed by its one coordinate, and the operands' indices at output entry `(a, b)`
  and contraction position `c` are named by their coordinates, axis by axis: a free axis reads the output's
  coordinate, the contracted axis reads `c`.
-/
import Idealize.ShloMosaic.PureOps.Ideal.Laws
import Idealize.ShloMosaic.Lib.ValueIdx

noncomputable section

open scoped BigOperators

namespace Idealize.ShloMosaic.PlainMatmul

open Idealize.ShloMosaic Idealize.ShloMosaic.ValueIdx

variable {m k n : Nat}

/-- The left operand's row coordinate is the output's row coordinate. -/
theorem lhs_row (i : (⟨2, ![m, n]⟩ : Shape).Idx) (q : (DotDims.plain m k n).contr.Idx) :
    ((DotDims.plain m k n).lhsIdx i q 0).val = (i 0).val := by
  unfold DotDims.lhsIdx
  rw [dif_neg (show ¬(0 : Fin (⟨2, ![m, k]⟩ : Shape).rank) ∈ (DotDims.plain m k n).lhsBatch from List.not_mem_nil),
    dif_pos (show (0 : Fin (⟨2, ![m, k]⟩ : Shape).rank) ∈ (DotDims.plain m k n).lhsNonContracting from List.mem_singleton.mpr rfl)]
  rfl

/-- The left operand's column coordinate is the contraction position. -/
theorem lhs_col (i : (⟨2, ![m, n]⟩ : Shape).Idx) (q : (DotDims.plain m k n).contr.Idx) :
    ((DotDims.plain m k n).lhsIdx i q 1).val = (q ⟨0, (Nat.one_pos : 0 < 1)⟩).val :=
  (DotDims.plain m k n).lhsIdx_val_of_single rfl i q

/-- The right operand's row coordinate is the contraction position. -/
theorem rhs_row (i : (⟨2, ![m, n]⟩ : Shape).Idx) (q : (DotDims.plain m k n).contr.Idx) :
    ((DotDims.plain m k n).rhsIdx i q 0).val = (q ⟨0, (Nat.one_pos : 0 < 1)⟩).val :=
  (DotDims.plain m k n).rhsIdx_val_of_single rfl i q

/-- The right operand's column coordinate is the output's column coordinate. -/
theorem rhs_col (i : (⟨2, ![m, n]⟩ : Shape).Idx) (q : (DotDims.plain m k n).contr.Idx) :
    ((DotDims.plain m k n).rhsIdx i q 1).val = (i 1).val := by
  unfold DotDims.rhsIdx
  rw [dif_neg (show ¬(1 : Fin (⟨2, ![k, n]⟩ : Shape).rank) ∈ (DotDims.plain m k n).rhsBatch from List.not_mem_nil),
    dif_pos (show (1 : Fin (⟨2, ![k, n]⟩ : Shape).rank) ∈ (DotDims.plain m k n).rhsNonContracting from List.mem_singleton.mpr rfl)]
  rfl

/-- **The plain product into the zero accumulator at an entry**: `∑ c, A[a,c] · B[c,b]`, at the ideal values,
    whatever the operands' formats and the precision key. -/
theorem matmul_zero_apply {φ₁ φ₂ : FTy} (prec : Option ContractPrecision)
    (A : FVec Ideal ⟨2, ![m, k]⟩ φ₁) (B : FVec Ideal ⟨2, ![k, n]⟩ φ₂) (a : Fin m) (b : Fin n) :
    FloatOps.matmul (DotDims.plain m k n) prec A B (constant ⟨2, ![m, n]⟩ .f32 0x00000000#32) (ix2 a b)
      = ∑ c : Fin k, A (ix2 a c) * B (ix2 c b) := by
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  have el : (DotDims.plain m k n).lhsIdx (ix2 a b) ((contrEquiv1 (DotDims.plain m k n) k rfl rfl).symm c) = ix2 a c :=
    funext fun ax => Fin.ext (by
      match ax with
      | ⟨0, _⟩ => exact lhs_row _ _
      | ⟨1, _⟩ => exact (lhs_col _ _).trans hc)
  have er : (DotDims.plain m k n).rhsIdx (ix2 a b) ((contrEquiv1 (DotDims.plain m k n) k rfl rfl).symm c) = ix2 c b :=
    funext fun ax => Fin.ext (by
      match ax with
      | ⟨0, _⟩ => exact (rhs_row _ _).trans hc
      | ⟨1, _⟩ => exact rhs_col _ _)
  rw [el, er]

end Idealize.ShloMosaic.PlainMatmul

end
-- ==== Proof.BodyLayers.lean ====
/-
  The layers of the kernel body, read at an entry.

  Every matrix product of the body is a plain rows-by-columns product into the zero array, so at entry `(a, b)` it is
  `∑ i, A (a, i) * W (i, b)`; a bias is a one-line row repeated down the rows; the rectifier is the maximum against
  the zero word; a change of number format and a cast to the same shape do nothing to the extended reals. Read this
  way, row `r` of the second layer's activations is `act2` of the node specification at node `r`'s feature row,
  neighbour-sum row and degree, and the position and feature bands are `posRow` and `featsRow`.
-/
import proofs.«169547_j85856396247142_2_alg».proof.Proof.Gen.KernelIdeal.Skeleton
import proofs.«169547_j85856396247142_2_alg».proof.Proof.NodeSpec
import proofs.«169547_j85856396247142_2_alg».proof.Proof.LibColumnLayout
import proofs.«169547_j85856396247142_2_alg».proof.Proof.LibPlainMatmul
import Idealize.ShloMosaic.Lib.ValueIdx
import Idealize.ShloMosaic.Lib.ValueLayout
import Idealize.ShloMosaic.Lib.Pipeline.Value
import Idealize.ShloMosaic.PureOps.Ideal
import Idealize.ShloMosaic.PureOps.Ideal.Laws

noncomputable section

open scoped BigOperators

namespace Cert.BodyRows

open Idealize.ShloMosaic Idealize.ShloMosaic.ValueIdx Idealize.ShloMosaic.ColumnLayout Idealize.ShloMosaic.PlainMatmul
open Cert.KernelIdeal Cert.KernelIdeal.Gen

/-! ## The six products are plain products -/

theorem dot_64_128_eq : dot_S5000x64_S64x128_S5000x128_1_0_0_1_n_n = DotDims.plain 5000 64 128 := rfl
theorem dot_128_64_eq : dot_S5000x128_S128x64_S5000x64_1_0_0_1_n_n = DotDims.plain 5000 128 64 := rfl
theorem dot_64_3_eq : dot_S5000x64_S64x3_S5000x3_1_0_0_1_n_n = DotDims.plain 5000 64 3 := rfl
theorem dot_64_64_eq : dot_S5000x64_S64x64_S5000x64_1_0_0_1_n_n = DotDims.plain 5000 64 64 := rfl
theorem dot_64_32_eq : dot_S5000x64_S64x32_S5000x32_1_0_0_1_n_n = DotDims.plain 5000 64 32 := rfl
theorem dot_32_1_eq : dot_S5000x32_S32x1_S5000x1_1_0_0_1_n_n = DotDims.plain 5000 32 1 := rfl

/-- A plain product into the zero array at an entry, spelt with the vector operation the body applies. -/
theorem matmul_plain_apply {m k n : ℕ} {φ₁ φ₂ : FTy} (prec : Option ContractPrecision) (A : FVec Ideal ⟨2, ![m, k]⟩ φ₁)
    (W : FVec Ideal ⟨2, ![k, n]⟩ φ₂) (a : Fin m) (b : Fin n) :
    matmul (DotDims.plain m k n) prec A W (constant (F := Ideal) ⟨2, ![m, n]⟩ .f32 0x00000000#32) (ix2 a b)
      = ∑ i : Fin k, A (ix2 a i) * W (ix2 i b) :=
  matmul_zero_apply prec A W a b

/-- A dense layer at an entry: the product into the zero array plus the bias row repeated down the rows is
    `∑ i, A (a, i) * W (i, b)` plus the bias at column `b`. -/
theorem dense_apply {m k n : ℕ} {φ₁ φ₂ : FTy} (prec : Option ContractPrecision) (A : FVec Ideal ⟨2, ![m, k]⟩ φ₁)
    (W : FVec Ideal ⟨2, ![k, n]⟩ φ₂) (c : FVec Ideal ⟨2, ![1, n]⟩ .f32)
    (hb : (⟨2, ![1, n]⟩ : Shape).Broadcasts ⟨2, ![m, n]⟩) (a : Fin m) (b : Fin n) :
    matmul (DotDims.plain m k n) prec A W (constant (F := Ideal) ⟨2, ![m, n]⟩ .f32 0x00000000#32) (ix2 a b)
        + broadcastTo ⟨2, ![m, n]⟩ c hb (ix2 a b)
      = (∑ i : Fin k, A (ix2 a i) * W (ix2 i b)) + c (ix2 (0 : Fin 1) b) := by
  rw [matmul_plain_apply, broadcastTo_1b_ab_apply]

/-! ## The loaded blocks as the body passes them on -/

theorem pay6_apply (x0 : Vec Ideal S5000x64 .f32) (r : Fin 5000) (k : Fin 64) :
    k0_pay6 (F := Ideal) x0 (ix2 r k) = x0 (ix2 r k) := rfl

/-- The neighbour sums over the degree clamped below by one, the degree column repeated along the row: the
    neighbours' mean. -/
theorem pay7_apply (x1 : Vec Ideal S5000x64 .f32) (x2 : Vec Ideal S5000x1 .f32) (r : Fin 5000) (k : Fin 64) :
    k0_pay7 (F := Ideal) x1 x2 (ix2 r k)
      = Cert.NodeNet.nmean (fun k => x1 (ix2 r k)) (x2 (ix2 r (0 : Fin 1))) k := by
  unfold k0_pay7 k0_pay4 Cert.NodeNet.nmean
  rw [shapeCast_self, shapeCast_self]
  show Ideal.div (x1 (ix2 r k)) (broadcastTo S5000x64 _ broadcasts_S5000x1_S5000x64 (ix2 r k)) = _
  rw [broadcastTo_a1_ab_apply]
  rfl

theorem pay8_apply (x4 : Vec Ideal S64x128 .f32) (k : Fin 64) (j : Fin 128) :
    k0_pay8 (F := Ideal) x4 (ix2 k j) = x4 (ix2 k j) := by
  unfold k0_pay8
  rw [shapeCast_self]
  rfl

theorem pay9_apply (x6 : Vec Ideal S64x128 .f32) (k : Fin 64) (j : Fin 128) :
    k0_pay9 (F := Ideal) x6 (ix2 k j) = x6 (ix2 k j) := by
  unfold k0_pay9
  rw [shapeCast_self]
  rfl

theorem pay10_apply (x5 : Vec Ideal S1x128 .f32) (u : Fin 1) (j : Fin 128) :
    k0_pay10 (F := Ideal) x5 (ix2 u j) = x5 (ix2 u j) := by
  unfold k0_pay10
  rw [shapeCast_self]

theorem pay15_apply (x13 : Vec Ideal S64x32 .f32) (k : Fin 64) (j : Fin 32) :
    k0_pay15 (F := Ideal) x13 (ix2 k j) = x13 (ix2 k j) := rfl

/-! ## The two hidden layers -/

/-- The second layer's activations at an entry, over whatever the first layer is handed. -/
theorem pay11_apply (A B : FVec Ideal S5000x64 .bf16) (C D : FVec Ideal S64x128 .bf16) (E : FVec Ideal S1x128 .f32)
    (x7 : Vec Ideal S128x64 .f32) (x8 : Vec Ideal S1x64 .f32) (r : Fin 5000) (j : Fin 64) :
    k0_pay11 (F := Ideal) A B C D E x7 x8 (ix2 r j)
      = max ((∑ k : Fin 128,
              max ((∑ i : Fin 64, A (ix2 r i) * C (ix2 i k)) + (∑ i : Fin 64, B (ix2 r i) * D (ix2 i k))
                  + E (ix2 (0 : Fin 1) k)) Cert.NodeNet.zeroF
                * x7 (ix2 k j)) + x8 (ix2 (0 : Fin 1) j)) Cert.NodeNet.zeroF := by
  unfold k0_pay11
  simp only [truncf_apply, maximumf_apply, addf_apply, broadcast_apply]
  rw [dot_128_64_eq, dot_64_128_eq, shapeCast_self, dense_apply]
  refine congrArg (fun t => max (t + x8 (ix2 (0 : Fin 1) j)) _) (Finset.sum_congr rfl fun k _ => ?_)
  simp only [truncf_apply, maximumf_apply, addf_apply, broadcast_apply]
  rw [matmul_plain_apply, matmul_plain_apply, broadcastTo_1b_ab_apply]
  rfl

/-- Row `r` of the second layer's activations is the specification's `act2` at node `r`. -/
theorem act2_apply (x0 x1 : Vec Ideal S5000x64 .f32) (x2 : Vec Ideal S5000x1 .f32) (x3 : Vec Ideal S5000x4 .f32) (x4 : Vec Ideal S64x128 .f32) (x5 : Vec Ideal S1x128 .f32) (x6 : Vec Ideal S64x128 .f32) (x7 : Vec Ideal S128x64 .f32) (x8 : Vec Ideal S1x64 .f32) (x9 : Vec Ideal S64x3 .f32) (x10 : Vec Ideal S1x3 .f32) (x11 : Vec Ideal S64x64 .f32) (x12 : Vec Ideal S1x64 .f32) (x13 : Vec Ideal S64x32 .f32) (x14 : Vec Ideal S1x32 .f32) (x15 : Vec Ideal S32x1 .f32) (x16 : Vec Ideal S1x1 .f32) (r : Fin 5000) (j : Fin 64) :
    k0_pay11 (F := Ideal) (k0_pay6 x0) (k0_pay7 x1 x2) (k0_pay8 x4) (k0_pay9 x6) (k0_pay10 x5) x7 x8 (ix2 r j)
      = Cert.NodeNet.act2 (Cert.NodeNet.Weights.ofBlocks x4 x5 x6 x7 x8 x9 x10 x11 x12 x13 x14 x15 x16) (fun k => x0 (ix2 r k)) (fun k => x1 (ix2 r k)) (x2 (ix2 r (0 : Fin 1))) j := by
  rw [pay11_apply]
  simp only [pay6_apply, pay7_apply, pay8_apply, pay9_apply, pay10_apply]
  rfl

/-! ## The output bands before masking -/

/-- The position band at an entry, over whatever the layers are handed. -/
theorem pay12_apply (A B : FVec Ideal S5000x64 .bf16) (C D : FVec Ideal S64x128 .bf16) (E : FVec Ideal S1x128 .f32)
    (x7 : Vec Ideal S128x64 .f32) (x8 : Vec Ideal S1x64 .f32) (x9 : Vec Ideal S64x3 .f32) (x10 : Vec Ideal S1x3 .f32)
    (r : Fin 5000) (c : Fin 3) :
    k0_pay12 (F := Ideal) A B C D E x7 x8 x9 x10 (ix2 r c)
      = (∑ k : Fin 64, k0_pay11 (F := Ideal) A B C D E x7 x8 (ix2 r k) * x9 (ix2 k c)) + x10 (ix2 (0 : Fin 1) c) := by
  unfold k0_pay12
  simp only [addf_apply]
  rw [dot_64_3_eq, shapeCast_self, shapeCast_self, dense_apply]
  rfl

/-- The feature band at an entry, over whatever the layers are handed. -/
theorem pay13_apply (A B : FVec Ideal S5000x64 .bf16) (C D : FVec Ideal S64x128 .bf16) (E : FVec Ideal S1x128 .f32)
    (x7 : Vec Ideal S128x64 .f32) (x8 : Vec Ideal S1x64 .f32) (x11 : Vec Ideal S64x64 .f32) (x12 : Vec Ideal S1x64 .f32)
    (r : Fin 5000) (c : Fin 64) :
    k0_pay13 (F := Ideal) A B C D E x7 x8 x11 x12 (ix2 r c)
      = (∑ k : Fin 64, k0_pay11 (F := Ideal) A B C D E x7 x8 (ix2 r k) * x11 (ix2 k c)) + x12 (ix2 (0 : Fin 1) c) := by
  unfold k0_pay13
  simp only [addf_apply]
  rw [dot_64_64_eq, shapeCast_self, shapeCast_self, dense_apply]
  rfl

/-- Row `r` of the position band is the specification's `posRow` at node `r`. -/
theorem pos_apply (x0 x1 : Vec Ideal S5000x64 .f32) (x2 : Vec Ideal S5000x1 .f32) (x3 : Vec Ideal S5000x4 .f32) (x4 : Vec Ideal S64x128 .f32) (x5 : Vec Ideal S1x128 .f32) (x6 : Vec Ideal S64x128 .f32) (x7 : Vec Ideal S128x64 .f32) (x8 : Vec Ideal S1x64 .f32) (x9 : Vec Ideal S64x3 .f32) (x10 : Vec Ideal S1x3 .f32) (x11 : Vec Ideal S64x64 .f32) (x12 : Vec Ideal S1x64 .f32) (x13 : Vec Ideal S64x32 .f32) (x14 : Vec Ideal S1x32 .f32) (x15 : Vec Ideal S32x1 .f32) (x16 : Vec Ideal S1x1 .f32) (r : Fin 5000) (c : Fin 3) :
    k0_pay12 (F := Ideal) (k0_pay6 x0) (k0_pay7 x1 x2) (k0_pay8 x4) (k0_pay9 x6) (k0_pay10 x5) x7 x8 x9 x10 (ix2 r c)
      = Cert.NodeNet.posRow (Cert.NodeNet.Weights.ofBlocks x4 x5 x6 x7 x8 x9 x10 x11 x12 x13 x14 x15 x16) (fun k => x0 (ix2 r k)) (fun k => x1 (ix2 r k)) (x2 (ix2 r (0 : Fin 1))) c := by
  rw [pay12_apply]
  simp only [act2_apply x0 x1 x2 x3 x4 x5 x6 x7 x8 x9 x10 x11 x12 x13 x14 x15 x16]
  rfl

/-- Row `r` of the feature band is the specification's `featsRow` at node `r`. -/
theorem feats_apply (x0 x1 : Vec Ideal S5000x64 .f32) (x2 : Vec Ideal S5000x1 .f32) (x3 : Vec Ideal S5000x4 .f32) (x4 : Vec Ideal S64x128 .f32) (x5 : Vec Ideal S1x128 .f32) (x6 : Vec Ideal S64x128 .f32) (x7 : Vec Ideal S128x64 .f32) (x8 : Vec Ideal S1x64 .f32) (x9 : Vec Ideal S64x3 .f32) (x10 : Vec Ideal S1x3 .f32) (x11 : Vec Ideal S64x64 .f32) (x12 : Vec Ideal S1x64 .f32) (x13 : Vec Ideal S64x32 .f32) (x14 : Vec Ideal S1x32 .f32) (x15 : Vec Ideal S32x1 .f32) (x16 : Vec Ideal S1x1 .f32) (r : Fin 5000) (c : Fin 64) :
    k0_pay13 (F := Ideal) (k0_pay6 x0) (k0_pay7 x1 x2) (k0_pay8 x4) (k0_pay9 x6) (k0_pay10 x5) x7 x8 x11 x12 (ix2 r c)
      = Cert.NodeNet.featsRow (Cert.NodeNet.Weights.ofBlocks x4 x5 x6 x7 x8 x9 x10 x11 x12 x13 x14 x15 x16) (fun k => x0 (ix2 r k)) (fun k => x1 (ix2 r k)) (x2 (ix2 r (0 : Fin 1))) c := by
  rw [pay13_apply]
  simp only [act2_apply x0 x1 x2 x3 x4 x5 x6 x7 x8 x9 x10 x11 x12 x13 x14 x15 x16]
  rfl

/-- The feature band in the narrower format is the feature band. -/
theorem pay14_apply (A B : FVec Ideal S5000x64 .bf16) (C D : FVec Ideal S64x128 .bf16) (E : FVec Ideal S1x128 .f32)
    (x7 : Vec Ideal S128x64 .f32) (x8 : Vec Ideal S1x64 .f32) (x11 : Vec Ideal S64x64 .f32) (x12 : Vec Ideal S1x64 .f32)
    (r : Fin 5000) (c : Fin 64) :
    k0_pay14 (F := Ideal) A B C D E x7 x8 x11 x12 (ix2 r c) = k0_pay13 (F := Ideal) A B C D E x7 x8 x11 x12 (ix2 r c) := rfl

end Cert.BodyRows

end
-- ==== Proof.BodyRows.lean ====
/-
  The three values the kernel body stores, row by row.

  The body stores the position band into columns 0–2, the feature band into columns 3–66 and the insertion
  probability into column 67 of its output block, each multiplied by the mask column (repeated along the row for the
  two bands). Row `r` of each stored value is therefore the corresponding band of the node specification at node
  `r`'s feature row, neighbour-sum row and degree, times the specification's mask of node `r`'s scores and degree.
  The probability is the logistic function of a two-layer head applied to the feature band.
-/
import proofs.«169547_j85856396247142_2_alg».proof.Proof.BodyMask
import proofs.«169547_j85856396247142_2_alg».proof.Proof.BodyLayers

noncomputable section

open scoped BigOperators

namespace Cert.BodyRows

open Idealize.ShloMosaic Idealize.ShloMosaic.ValueIdx Idealize.ShloMosaic.ColumnLayout Idealize.ShloMosaic.PlainMatmul
open Cert.KernelIdeal Cert.KernelIdeal.Gen

/-- A logistic at an index is the logistic of the element. -/
theorem logistic_apply {s : Shape} {φ : FTy} (a : FVec Ideal s φ) (i : s.Idx) : logistic a i = Ideal.logistic (a i) := rfl

/-- The probability column at a row, over whatever mask, feature band and first head matrix it is handed: the
    logistic of the head's second layer over the rectified first layer, times the mask. -/
theorem pay3_apply (M : FVec Ideal S5000x1 .f32) (G : FVec Ideal S5000x64 .bf16) (P : FVec Ideal S64x32 .bf16)
    (x14 : Vec Ideal S1x32 .f32) (x15 : Vec Ideal S32x1 .f32) (x16 : Vec Ideal S1x1 .f32) (r : Fin 5000) :
    k0_pay3 (F := Ideal) M G P x14 x15 x16 (ix2 r (0 : Fin 1))
      = Ideal.logistic ((∑ k : Fin 32,
            max ((∑ i : Fin 64, G (ix2 r i) * P (ix2 i k)) + x14 (ix2 (0 : Fin 1) k)) Cert.NodeNet.zeroF
              * x15 (ix2 k (0 : Fin 1))) + x16 (ix2 (0 : Fin 1) (0 : Fin 1)))
          * M (ix2 r (0 : Fin 1)) := by
  unfold k0_pay3
  simp only [mulf_apply, logistic_apply, addf_apply]
  rw [dot_32_1_eq, dot_64_32_eq, shapeCast_self, shapeCast_self, dense_apply]
  refine congrArg (fun t => Ideal.logistic (t + x16 (ix2 (0 : Fin 1) (0 : Fin 1))) * M (ix2 r (0 : Fin 1)))
    (Finset.sum_congr rfl fun k _ => ?_)
  simp only [truncf_apply, maximumf_apply, addf_apply, broadcast_apply]
  rw [dense_apply]
  rfl

section
variable (x0 x1 : Vec Ideal S5000x64 .f32) (x2 : Vec Ideal S5000x1 .f32) (x3 : Vec Ideal S5000x4 .f32) (x4 : Vec Ideal S64x128 .f32) (x5 : Vec Ideal S1x128 .f32) (x6 : Vec Ideal S64x128 .f32) (x7 : Vec Ideal S128x64 .f32) (x8 : Vec Ideal S1x64 .f32) (x9 : Vec Ideal S64x3 .f32) (x10 : Vec Ideal S1x3 .f32) (x11 : Vec Ideal S64x64 .f32) (x12 : Vec Ideal S1x64 .f32) (x13 : Vec Ideal S64x32 .f32) (x14 : Vec Ideal S1x32 .f32) (x15 : Vec Ideal S32x1 .f32) (x16 : Vec Ideal S1x1 .f32)

/-- Columns 0–2: the position band times the mask. -/
theorem store_pos (r : Fin 5000) (c : Fin 3) :
    k0_pay1 (F := Ideal) (k0_pay5 x2 x3) (k0_pay12 (k0_pay6 x0) (k0_pay7 x1 x2) (k0_pay8 x4) (k0_pay9 x6) (k0_pay10 x5) x7 x8 x9 x10) (ix2 r c)
      = Cert.NodeNet.posRow (Cert.NodeNet.Weights.ofBlocks x4 x5 x6 x7 x8 x9 x10 x11 x12 x13 x14 x15 x16) (fun k => x0 (ix2 r k)) (fun k => x1 (ix2 r k)) (x2 (ix2 r (0 : Fin 1))) c
          * Cert.NodeNet.mask (fun k => x3 (ix2 r k)) (x2 (ix2 r (0 : Fin 1))) := by
  unfold k0_pay1
  simp only [mulf_apply]
  rw [broadcastTo_a1_ab_apply, pay5_apply,
    pos_apply x0 x1 x2 x3 x4 x5 x6 x7 x8 x9 x10 x11 x12 x13 x14 x15 x16]

/-- Columns 3–66: the feature band times the mask. -/
theorem store_feats (r : Fin 5000) (c : Fin 64) :
    k0_pay2 (F := Ideal) (k0_pay5 x2 x3) (k0_pay13 (k0_pay6 x0) (k0_pay7 x1 x2) (k0_pay8 x4) (k0_pay9 x6) (k0_pay10 x5) x7 x8 x11 x12) (ix2 r c)
      = Cert.NodeNet.featsRow (Cert.NodeNet.Weights.ofBlocks x4 x5 x6 x7 x8 x9 x10 x11 x12 x13 x14 x15 x16) (fun k => x0 (ix2 r k)) (fun k => x1 (ix2 r k)) (x2 (ix2 r (0 : Fin 1))) c
          * Cert.NodeNet.mask (fun k => x3 (ix2 r k)) (x2 (ix2 r (0 : Fin 1))) := by
  unfold k0_pay2
  simp only [mulf_apply]
  rw [broadcastTo_a1_ab_apply, pay5_apply,
    feats_apply x0 x1 x2 x3 x4 x5 x6 x7 x8 x9 x10 x11 x12 x13 x14 x15 x16]

/-- Column 67: the insertion probability times the mask. -/
theorem store_prob (r : Fin 5000) (u : Fin 1) :
    k0_pay3 (F := Ideal) (k0_pay5 x2 x3) (k0_pay14 (k0_pay6 x0) (k0_pay7 x1 x2) (k0_pay8 x4) (k0_pay9 x6) (k0_pay10 x5) x7 x8 x11 x12) (k0_pay15 x13) x14 x15 x16 (ix2 r u)
      = Cert.NodeNet.probRow (Cert.NodeNet.Weights.ofBlocks x4 x5 x6 x7 x8 x9 x10 x11 x12 x13 x14 x15 x16) (fun k => x0 (ix2 r k)) (fun k => x1 (ix2 r k)) (x2 (ix2 r (0 : Fin 1)))
          * Cert.NodeNet.mask (fun k => x3 (ix2 r k)) (x2 (ix2 r (0 : Fin 1))) := by
  obtain rfl : u = 0 := Subsingleton.elim _ _
  rw [pay3_apply, pay5_apply]
  simp only [pay14_apply, pay15_apply,
    feats_apply x0 x1 x2 x3 x4 x5 x6 x7 x8 x9 x10 x11 x12 x13 x14 x15 x16]
  rfl

end

end Cert.BodyRows

end
-- ==== Proof.BlockOut.lean ====
/-
  What one grid point leaves in its output block.

  The body writes its 5000 × 68 output block with three stores: columns 0–2 (the positions), columns 3–66 (the
  features) and column 67 (the probability), each already multiplied by the candidate mask. Together the three
  rectangles cover the block, and every one of them is the restriction of ONE function of the block index (r, j): the
  node function of row r of the four row-tiled input blocks, with the weights read off the thirteen weight blocks.
  So the buffer after the body holds that function, whatever it held before.
-/
import proofs.«169547_j85856396247142_2_alg».proof.Proof.Gen.KernelIdeal.Frame
import proofs.«169547_j85856396247142_2_alg».proof.Proof.NodeSpec
import proofs.«169547_j85856396247142_2_alg».proof.Proof.BodyRows
import Idealize.ShloMosaic.Lib.Pipeline.Value

set_option maxRecDepth 16384

noncomputable section

namespace Cert.BlockOut

open Idealize.ShloMosaic Idealize.ShloMosaic.TcCoe Idealize.ShloMosaic.ValueIdx Idealize.ShloMosaic.Tactic Cert.KernelIdeal Cert.KernelIdeal.Gen

theorem zero_offsets : (![0, 0] : Fin 2 → Nat) = fun _ => 0 := funext fun a => by fin_cases a <;> rfl

/-- The output block of one grid point as ONE function of the block index (r, j): row r of the block is the node
    function of row r of the feature block, of the neighbour-sum block, of the degree column and of the score block,
    with the weights read off the thirteen weight blocks. -/
def blockFn (x0 x1 : Vec Ideal S5000x64 .f32) (x2 : Vec Ideal S5000x1 .f32) (x3 : Vec Ideal S5000x4 .f32) (x4 : Vec Ideal S64x128 .f32) (x5 : Vec Ideal S1x128 .f32) (x6 : Vec Ideal S64x128 .f32) (x7 : Vec Ideal S128x64 .f32) (x8 : Vec Ideal S1x64 .f32) (x9 : Vec Ideal S64x3 .f32) (x10 : Vec Ideal S1x3 .f32) (x11 : Vec Ideal S64x64 .f32) (x12 : Vec Ideal S1x64 .f32) (x13 : Vec Ideal S64x32 .f32) (x14 : Vec Ideal S1x32 .f32) (x15 : Vec Ideal S32x1 .f32) (x16 : Vec Ideal S1x1 .f32) : S5000x68.Idx → EReal := fun y =>
  Cert.NodeNet.rowOut (Cert.NodeNet.Weights.ofBlocks x4 x5 x6 x7 x8 x9 x10 x11 x12 x13 x14 x15 x16)
    (fun k => x0 (ix2 (y 0 : Fin 5000) k)) (fun k => x1 (ix2 (y 0 : Fin 5000) k)) (x2 (ix2 (y 0 : Fin 5000) (0 : Fin 1)))
    (fun k => x3 (ix2 (y 0 : Fin 5000) k)) (y 1 : Fin 68)

theorem blockFn_apply (x0 x1 : Vec Ideal S5000x64 .f32) (x2 : Vec Ideal S5000x1 .f32) (x3 : Vec Ideal S5000x4 .f32) (x4 : Vec Ideal S64x128 .f32) (x5 : Vec Ideal S1x128 .f32) (x6 : Vec Ideal S64x128 .f32) (x7 : Vec Ideal S128x64 .f32) (x8 : Vec Ideal S1x64 .f32) (x9 : Vec Ideal S64x3 .f32) (x10 : Vec Ideal S1x3 .f32) (x11 : Vec Ideal S64x64 .f32) (x12 : Vec Ideal S1x64 .f32) (x13 : Vec Ideal S64x32 .f32) (x14 : Vec Ideal S1x32 .f32) (x15 : Vec Ideal S32x1 .f32) (x16 : Vec Ideal S1x1 .f32) (r : Fin 5000) (j : Fin 68) :
    blockFn x0 x1 x2 x3 x4 x5 x6 x7 x8 x9 x10 x11 x12 x13 x14 x15 x16 (ix2 r j)
      = Cert.NodeNet.rowOut (Cert.NodeNet.Weights.ofBlocks x4 x5 x6 x7 x8 x9 x10 x11 x12 x13 x14 x15 x16) (fun k => x0 (ix2 r k)) (fun k => x1 (ix2 r k)) (x2 (ix2 r (0 : Fin 1)))
          (fun k => x3 (ix2 r k)) j := rfl

/-- What the body leaves in the output's staging buffer is that function: the three stores write columns 0–2,
    3–66 and 67 of it, and together they cover the block. -/
theorem out_block (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S5000x4 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S64x128 .f32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x3 .f32) (harg10 : arg10.IsWhole) (arg11 : Memref sig .tc .vmem S1x3 .f32) (harg11 : arg11.IsWhole) (arg12 : Memref sig .tc .vmem S64x64 .f32) (harg12 : arg12.IsWhole) (arg13 : Memref sig .tc .vmem S1x64 .f32) (harg13 : arg13.IsWhole) (arg14 : Memref sig .tc .vmem S64x32 .f32) (harg14 : arg14.IsWhole) (arg15 : Memref sig .tc .vmem S1x32 .f32) (harg15 : arg15.IsWhole) (arg16 : Memref sig .tc .vmem S32x1 .f32) (harg16 : arg16.IsWhole) (arg17 : Memref sig .tc .vmem S1x1 .f32) (harg17 : arg17.IsWhole) (arg18 : Memref sig .tc .vmem S5000x68 .f32) (harg18 : arg18.IsWhole)
    (x0 : Vec Ideal S5000x64 .f32) (x1 : Vec Ideal S5000x64 .f32) (x2 : Vec Ideal S5000x1 .f32) (x3 : Vec Ideal S5000x4 .f32) (x4 : Vec Ideal S64x128 .f32) (x5 : Vec Ideal S1x128 .f32) (x6 : Vec Ideal S64x128 .f32) (x7 : Vec Ideal S128x64 .f32) (x8 : Vec Ideal S1x64 .f32) (x9 : Vec Ideal S64x3 .f32) (x10 : Vec Ideal S1x3 .f32) (x11 : Vec Ideal S64x64 .f32) (x12 : Vec Ideal S1x64 .f32) (x13 : Vec Ideal S64x32 .f32) (x14 : Vec Ideal S1x32 .f32) (x15 : Vec Ideal S32x1 .f32) (x16 : Vec Ideal S1x1 .f32) :
    out0_A_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 = blockFn x0 x1 x2 x3 x4 x5 x6 x7 x8 x9 x10 x11 x12 x13 x14 x15 x16 := by
  unfold out0_A_17
  rw [View.read_writes_eq_canon _ _ _ (cover0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16)]
  funext y
  have hc := cover0_A_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 y
  revert hc
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S5000x64) zero_offsets, View.ld_unit_zero (S := S5000x1) zero_offsets, View.ld_unit_zero (S := S5000x4) zero_offsets, View.ld_unit_zero (S := S64x128) zero_offsets, View.ld_unit_zero (S := S1x128) zero_offsets, View.ld_unit_zero (S := S128x64) zero_offsets, View.ld_unit_zero (S := S1x64) zero_offsets, View.ld_unit_zero (S := S64x3) zero_offsets, View.ld_unit_zero (S := S1x3) zero_offsets, View.ld_unit_zero (S := S64x64) zero_offsets, View.ld_unit_zero (S := S64x32) zero_offsets, View.ld_unit_zero (S := S1x32) zero_offsets, View.ld_unit_zero (S := S32x1) zero_offsets, View.ld_unit_zero (S := S1x1) zero_offsets]
  intro hc
  refine View.canon_apply_of_pieces (blockFn x0 x1 x2 x3 x4 x5 x6 x7 x8 x9 x10 x11 x12 x13 x14 x15 x16) _ ?_ y hc
  intro p hp x
  simp only [List.mem_cons, List.not_mem_nil, or_false] at hp
  rcases hp with rfl | rfl | rfl
  · obtain ⟨r, u, rfl⟩ : ∃ (r : Fin 5000) (u : Fin 1), x = ix2 r u := ⟨x 0, x 1, eq_ix2 x⟩
    have he : (Rect.unit (s := S5000x68) ![0, 67] ![5000, 1] inb_S5000x68_S5000x1_0_67).emb (ix2 r u)
        = ix2 r (⟨67, by omega⟩ : Fin 68) := funext fun a => Fin.ext (by
      match a with
      | ⟨0, _⟩ => show 0 + 1 * r.val = r.val; omega
      | ⟨1, _⟩ => show 67 + 1 * u.val = 67; omega)
    show k0_pay3 (F := Ideal) _ _ _ _ _ _ (ix2 r u) = blockFn x0 x1 x2 x3 x4 x5 x6 x7 x8 x9 x10 x11 x12 x13 x14 x15 x16 ((Rect.unit (s := S5000x68) ![0, 67] ![5000, 1] inb_S5000x68_S5000x1_0_67).emb (ix2 r u))
    rw [he, blockFn_apply, Cert.NodeNet.rowOut_prob]
    exact Cert.BodyRows.store_prob x0 x1 x2 x3 x4 x5 x6 x7 x8 x9 x10 x11 x12 x13 x14 x15 x16 r u
  · obtain ⟨r, q, rfl⟩ : ∃ (r : Fin 5000) (q : Fin 64), x = ix2 r q := ⟨x 0, x 1, eq_ix2 x⟩
    have he : (Rect.unit (s := S5000x68) ![0, 3] ![5000, 64] inb_S5000x68_S5000x64_0_3).emb (ix2 r q)
        = ix2 r (⟨3 + q.val, by omega⟩ : Fin 68) := funext fun a => Fin.ext (by
      match a with
      | ⟨0, _⟩ => show 0 + 1 * r.val = r.val; omega
      | ⟨1, _⟩ => show 3 + 1 * q.val = 3 + q.val; omega)
    show k0_pay2 (F := Ideal) _ _ (ix2 r q) = blockFn x0 x1 x2 x3 x4 x5 x6 x7 x8 x9 x10 x11 x12 x13 x14 x15 x16 ((Rect.unit (s := S5000x68) ![0, 3] ![5000, 64] inb_S5000x68_S5000x64_0_3).emb (ix2 r q))
    rw [he, blockFn_apply, Cert.NodeNet.rowOut_feats]
    exact Cert.BodyRows.store_feats x0 x1 x2 x3 x4 x5 x6 x7 x8 x9 x10 x11 x12 x13 x14 x15 x16 r q
  · obtain ⟨r, q, rfl⟩ : ∃ (r : Fin 5000) (q : Fin 3), x = ix2 r q := ⟨x 0, x 1, eq_ix2 x⟩
    have he : (Rect.unit (s := S5000x68) ![0, 0] ![5000, 3] inb_S5000x68_S5000x3_0_0).emb (ix2 r q)
        = ix2 r (⟨q.val, by omega⟩ : Fin 68) := funext fun a => Fin.ext (by
      match a with
      | ⟨0, _⟩ => show 0 + 1 * r.val = r.val; omega
      | ⟨1, _⟩ => show 0 + 1 * q.val = q.val; omega)
    show k0_pay1 (F := Ideal) _ _ (ix2 r q) = blockFn x0 x1 x2 x3 x4 x5 x6 x7 x8 x9 x10 x11 x12 x13 x14 x15 x16 ((Rect.unit (s := S5000x68) ![0, 0] ![5000, 3] inb_S5000x68_S5000x3_0_0).emb (ix2 r q))
    rw [he, blockFn_apply, Cert.NodeNet.rowOut_pos]
    exact Cert.BodyRows.store_pos x0 x1 x2 x3 x4 x5 x6 x7 x8 x9 x10 x11 x12 x13 x14 x15 x16 r q

end Cert.BlockOut

end
-- ==== Proof.ArrayReads.lean ====
/-
  The windows' blocks read off their arrays.

  The grid has 20 points. The output window and the four row-tiled input windows (features, neighbour sums, degree
  column, scores) take at point t the block of rows 5000·t … 5000·t + 4999 and all their columns; the thirteen weight
  windows take their one block, the whole array, at every point. Both facts are decided over the 20 points from the
  printed index maps. Hence row r of a row-tiled block is row 5000·t + r of the array, and a weight block is the array.
-/
import proofs.«169547_j85856396247142_2_alg».proof.Proof.Gen.KernelIdeal.Value
import Idealize.ShloMosaic.Lib.Pipeline.Value
import Idealize.ShloMosaic.Lib.ValueIdx

set_option maxRecDepth 16384

noncomputable section

namespace Cert.ArrayOut

open Idealize.ShloMosaic Idealize.ShloMosaic.TcCoe Idealize.ShloMosaic.ValueIdx Idealize.SL.Sem Cert.KernelIdeal Cert.KernelIdeal.Gen
open Idealize.ShloMosaic.Pipeline (Dat)

variable (m : (ℓ : Loc nD τ sig) → Buf (Elt Ideal) ℓ) (ρ : Dev nD → PrngReg)

/-- The printed index maps, decided over the 20 grid points: the output window and the four row-tiled input windows
    take block t along the rows and block 0 along the columns. -/
theorem idx_rows : ∀ t : Fin cfg0.N,
    win0_17.index t (0 : Fin 2) = t.val ∧ win0_17.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- … and the thirteen weight windows take their one block at every point. -/
theorem idx_zero : ∀ t : Fin cfg0.N,
    win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0
    ∧ win0_12.index t (0 : Fin 2) = 0 ∧ win0_12.index t (1 : Fin 2) = 0
    ∧ win0_13.index t (0 : Fin 2) = 0 ∧ win0_13.index t (1 : Fin 2) = 0
    ∧ win0_14.index t (0 : Fin 2) = 0 ∧ win0_14.index t (1 : Fin 2) = 0
    ∧ win0_15.index t (0 : Fin 2) = 0 ∧ win0_15.index t (1 : Fin 2) = 0
    ∧ win0_16.index t (0 : Fin 2) = 0 ∧ win0_16.index t (1 : Fin 2) = 0 :=
  (by decide +kernel : ∀ t : Fin grid0.N, _)

theorem points : cfg0.N = 20 := N_0

/-- Row r of window 0's block at point t, read off any array, is that array's row 5000·t + r. -/
theorem blk_rows0 (t : Fin cfg0.N) (A : S100000x64.Idx → EReal) (r : Fin 5000) (k : Fin 64) (n : Fin 100000) (hn : n.val = t.val * 5000 + r.val) :
    ((cfg0.win 0).blk t).view.read (Elt Ideal) A (ix2 r k) = A (ix2 n k) := by
  have e := idx_rows t
  show A (((cfg0.win 0).blk t).view.emb (ix2 r k)) = _
  refine congrArg A (funext fun a => Fin.ext ?_)
  match a with
  | ⟨0, _⟩ => show win0_0.index t (0 : Fin 2) * 5000 + 1 * r.val = n.val; omega
  | ⟨1, _⟩ => show win0_0.index t (1 : Fin 2) * 64 + 1 * k.val = k.val; omega

theorem read_rows0 (c : Dev nD) (t : Fin cfg0.N) (r : Fin 5000) (k : Fin 64) (n : Fin 100000) (hn : n.val = t.val * 5000 + r.val) :
    iblk m c 0 t (ix2 r k) = (V m c main_arg0 : S100000x64.Idx → EReal) (ix2 n k) :=
  blk_rows0 t (V m c main_arg0 : S100000x64.Idx → EReal) r k n hn

/-- Row r of window 1's block at point t, read off any array, is that array's row 5000·t + r. -/
theorem blk_rows1 (t : Fin cfg0.N) (A : S100000x64.Idx → EReal) (r : Fin 5000) (k : Fin 64) (n : Fin 100000) (hn : n.val = t.val * 5000 + r.val) :
    ((cfg0.win 1).blk t).view.read (Elt Ideal) A (ix2 r k) = A (ix2 n k) := by
  have e := idx_rows t
  show A (((cfg0.win 1).blk t).view.emb (ix2 r k)) = _
  refine congrArg A (funext fun a => Fin.ext ?_)
  match a with
  | ⟨0, _⟩ => show win0_1.index t (0 : Fin 2) * 5000 + 1 * r.val = n.val; omega
  | ⟨1, _⟩ => show win0_1.index t (1 : Fin 2) * 64 + 1 * k.val = k.val; omega

theorem read_rows1 (c : Dev nD) (t : Fin cfg0.N) (r : Fin 5000) (k : Fin 64) (n : Fin 100000) (hn : n.val = t.val * 5000 + r.val) :
    iblk m c 1 t (ix2 r k) = (V m c main_v21 : S100000x64.Idx → EReal) (ix2 n k) :=
  blk_rows1 t (V m c main_v21 : S100000x64.Idx → EReal) r k n hn

/-- Row r of window 2's block at point t, read off any array, is that array's row 5000·t + r. -/
theorem blk_rows2 (t : Fin cfg0.N) (A : S100000x1.Idx → EReal) (r : Fin 5000) (k : Fin 1) (n : Fin 100000) (hn : n.val = t.val * 5000 + r.val) :
    ((cfg0.win 2).blk t).view.read (Elt Ideal) A (ix2 r k) = A (ix2 n k) := by
  have e := idx_rows t
  show A (((cfg0.win 2).blk t).view.emb (ix2 r k)) = _
  refine congrArg A (funext fun a => Fin.ext ?_)
  match a with
  | ⟨0, _⟩ => show win0_2.index t (0 : Fin 2) * 5000 + 1 * r.val = n.val; omega
  | ⟨1, _⟩ => show win0_2.index t (1 : Fin 2) * 1 + 1 * k.val = k.val; omega

theorem read_rows2 (c : Dev nD) (t : Fin cfg0.N) (r : Fin 5000) (k : Fin 1) (n : Fin 100000) (hn : n.val = t.val * 5000 + r.val) :
    iblk m c 2 t (ix2 r k) = (V m c main_v22 : S100000x1.Idx → EReal) (ix2 n k) :=
  blk_rows2 t (V m c main_v22 : S100000x1.Idx → EReal) r k n hn

/-- Row r of window 3's block at point t, read off any array, is that array's row 5000·t + r. -/
theorem blk_rows3 (t : Fin cfg0.N) (A : S100000x4.Idx → EReal) (r : Fin 5000) (k : Fin 4) (n : Fin 100000) (hn : n.val = t.val * 5000 + r.val) :
    ((cfg0.win 3).blk t).view.read (Elt Ideal) A (ix2 r k) = A (ix2 n k) := by
  have e := idx_rows t
  show A (((cfg0.win 3).blk t).view.emb (ix2 r k)) = _
  refine congrArg A (funext fun a => Fin.ext ?_)
  match a with
  | ⟨0, _⟩ => show win0_3.index t (0 : Fin 2) * 5000 + 1 * r.val = n.val; omega
  | ⟨1, _⟩ => show win0_3.index t (1 : Fin 2) * 4 + 1 * k.val = k.val; omega

theorem read_rows3 (c : Dev nD) (t : Fin cfg0.N) (r : Fin 5000) (k : Fin 4) (n : Fin 100000) (hn : n.val = t.val * 5000 + r.val) :
    iblk m c 3 t (ix2 r k) = (V m c main_arg1 : S100000x4.Idx → EReal) (ix2 n k) :=
  blk_rows3 t (V m c main_arg1 : S100000x4.Idx → EReal) r k n hn

theorem blk_whole4 (t : Fin cfg0.N) (X : S64x128.Idx → EReal) :
    (((cfg0.win 4).blk t).view.read (Elt Ideal) X : S64x128.Idx → EReal) = X := by
  have e := idx_zero t
  funext y
  obtain ⟨a, b, rfl⟩ : ∃ (a : Fin 64) (b : Fin 128), y = ix2 a b := ⟨y 0, y 1, eq_ix2 y⟩
  show X (((cfg0.win 4).blk t).view.emb (ix2 a b)) = _
  refine congrArg X (funext fun x => Fin.ext ?_)
  match x with
  | ⟨0, _⟩ => show win0_4.index t (0 : Fin 2) * 64 + 1 * a.val = a.val; omega
  | ⟨1, _⟩ => show win0_4.index t (1 : Fin 2) * 128 + 1 * b.val = b.val; omega

theorem read_whole4 (c : Dev nD) (t : Fin cfg0.N) : (iblk m c 4 t : S64x128.Idx → EReal) = (V m c main_v23 : S64x128.Idx → EReal) :=
  blk_whole4 t (V m c main_v23 : S64x128.Idx → EReal)

theorem blk_whole5 (t : Fin cfg0.N) (X : S1x128.Idx → EReal) :
    (((cfg0.win 5).blk t).view.read (Elt Ideal) X : S1x128.Idx → EReal) = X := by
  have e := idx_zero t
  funext y
  obtain ⟨a, b, rfl⟩ : ∃ (a : Fin 1) (b : Fin 128), y = ix2 a b := ⟨y 0, y 1, eq_ix2 y⟩
  show X (((cfg0.win 5).blk t).view.emb (ix2 a b)) = _
  refine congrArg X (funext fun x => Fin.ext ?_)
  match x with
  | ⟨0, _⟩ => show win0_5.index t (0 : Fin 2) * 1 + 1 * a.val = a.val; omega
  | ⟨1, _⟩ => show win0_5.index t (1 : Fin 2) * 128 + 1 * b.val = b.val; omega

theorem read_whole5 (c : Dev nD) (t : Fin cfg0.N) : (iblk m c 5 t : S1x128.Idx → EReal) = (V m c main_v29 : S1x128.Idx → EReal) :=
  blk_whole5 t (V m c main_v29 : S1x128.Idx → EReal)

theorem blk_whole6 (t : Fin cfg0.N) (X : S64x128.Idx → EReal) :
    (((cfg0.win 6).blk t).view.read (Elt Ideal) X : S64x128.Idx → EReal) = X := by
  have e := idx_zero t
  funext y
  obtain ⟨a, b, rfl⟩ : ∃ (a : Fin 64) (b : Fin 128), y = ix2 a b := ⟨y 0, y 1, eq_ix2 y⟩
  show X (((cfg0.win 6).blk t).view.emb (ix2 a b)) = _
  refine congrArg X (funext fun x => Fin.ext ?_)
  match x with
  | ⟨0, _⟩ => show win0_6.index t (0 : Fin 2) * 64 + 1 * a.val = a.val; omega
  | ⟨1, _⟩ => show win0_6.index t (1 : Fin 2) * 128 + 1 * b.val = b.val; omega

theorem read_whole6 (c : Dev nD) (t : Fin cfg0.N) : (iblk m c 6 t : S64x128.Idx → EReal) = (V m c main_v24 : S64x128.Idx → EReal) :=
  blk_whole6 t (V m c main_v24 : S64x128.Idx → EReal)

theorem blk_whole7 (t : Fin cfg0.N) (X : S128x64.Idx → EReal) :
    (((cfg0.win 7).blk t).view.read (Elt Ideal) X : S128x64.Idx → EReal) = X := by
  have e := idx_zero t
  funext y
  obtain ⟨a, b, rfl⟩ : ∃ (a : Fin 128) (b : Fin 64), y = ix2 a b := ⟨y 0, y 1, eq_ix2 y⟩
  show X (((cfg0.win 7).blk t).view.emb (ix2 a b)) = _
  refine congrArg X (funext fun x => Fin.ext ?_)
  match x with
  | ⟨0, _⟩ => show win0_7.index t (0 : Fin 2) * 128 + 1 * a.val = a.val; omega
  | ⟨1, _⟩ => show win0_7.index t (1 : Fin 2) * 64 + 1 * b.val = b.val; omega

theorem read_whole7 (c : Dev nD) (t : Fin cfg0.N) : (iblk m c 7 t : S128x64.Idx → EReal) = (V m c main_arg5 : S128x64.Idx → EReal) :=
  blk_whole7 t (V m c main_arg5 : S128x64.Idx → EReal)

theorem blk_whole8 (t : Fin cfg0.N) (X : S1x64.Idx → EReal) :
    (((cfg0.win 8).blk t).view.read (Elt Ideal) X : S1x64.Idx → EReal) = X := by
  have e := idx_zero t
  funext y
  obtain ⟨a, b, rfl⟩ : ∃ (a : Fin 1) (b : Fin 64), y = ix2 a b := ⟨y 0, y 1, eq_ix2 y⟩
  show X (((cfg0.win 8).blk t).view.emb (ix2 a b)) = _
  refine congrArg X (funext fun x => Fin.ext ?_)
  match x with
  | ⟨0, _⟩ => show win0_8.index t (0 : Fin 2) * 1 + 1 * a.val = a.val; omega
  | ⟨1, _⟩ => show win0_8.index t (1 : Fin 2) * 64 + 1 * b.val = b.val; omega

theorem read_whole8 (c : Dev nD) (t : Fin cfg0.N) : (iblk m c 8 t : S1x64.Idx → EReal) = (V m c main_v30 : S1x64.Idx → EReal) :=
  blk_whole8 t (V m c main_v30 : S1x64.Idx → EReal)

theorem blk_whole9 (t : Fin cfg0.N) (X : S64x3.Idx → EReal) :
    (((cfg0.win 9).blk t).view.read (Elt Ideal) X : S64x3.Idx → EReal) = X := by
  have e := idx_zero t
  funext y
  obtain ⟨a, b, rfl⟩ : ∃ (a : Fin 64) (b : Fin 3), y = ix2 a b := ⟨y 0, y 1, eq_ix2 y⟩
  show X (((cfg0.win 9).blk t).view.emb (ix2 a b)) = _
  refine congrArg X (funext fun x => Fin.ext ?_)
  match x with
  | ⟨0, _⟩ => show win0_9.index t (0 : Fin 2) * 64 + 1 * a.val = a.val; omega
  | ⟨1, _⟩ => show win0_9.index t (1 : Fin 2) * 3 + 1 * b.val = b.val; omega

theorem read_whole9 (c : Dev nD) (t : Fin cfg0.N) : (iblk m c 9 t : S64x3.Idx → EReal) = (V m c main_v25 : S64x3.Idx → EReal) :=
  blk_whole9 t (V m c main_v25 : S64x3.Idx → EReal)

theorem blk_whole10 (t : Fin cfg0.N) (X : S1x3.Idx → EReal) :
    (((cfg0.win 10).blk t).view.read (Elt Ideal) X : S1x3.Idx → EReal) = X := by
  have e := idx_zero t
  funext y
  obtain ⟨a, b, rfl⟩ : ∃ (a : Fin 1) (b : Fin 3), y = ix2 a b := ⟨y 0, y 1, eq_ix2 y⟩
  show X (((cfg0.win 10).blk t).view.emb (ix2 a b)) = _
  refine congrArg X (funext fun x => Fin.ext ?_)
  match x with
  | ⟨0, _⟩ => show win0_10.index t (0 : Fin 2) * 1 + 1 * a.val = a.val; omega
  | ⟨1, _⟩ => show win0_10.index t (1 : Fin 2) * 3 + 1 * b.val = b.val; omega

theorem read_whole10 (c : Dev nD) (t : Fin cfg0.N) : (iblk m c 10 t : S1x3.Idx → EReal) = (V m c main_v31 : S1x3.Idx → EReal) :=
  blk_whole10 t (V m c main_v31 : S1x3.Idx → EReal)

theorem blk_whole11 (t : Fin cfg0.N) (X : S64x64.Idx → EReal) :
    (((cfg0.win 11).blk t).view.read (Elt Ideal) X : S64x64.Idx → EReal) = X := by
  have e := idx_zero t
  funext y
  obtain ⟨a, b, rfl⟩ : ∃ (a : Fin 64) (b : Fin 64), y = ix2 a b := ⟨y 0, y 1, eq_ix2 y⟩
  show X (((cfg0.win 11).blk t).view.emb (ix2 a b)) = _
  refine congrArg X (funext fun x => Fin.ext ?_)
  match x with
  | ⟨0, _⟩ => show win0_11.index t (0 : Fin 2) * 64 + 1 * a.val = a.val; omega
  | ⟨1, _⟩ => show win0_11.index t (1 : Fin 2) * 64 + 1 * b.val = b.val; omega

theorem read_whole11 (c : Dev nD) (t : Fin cfg0.N) : (iblk m c 11 t : S64x64.Idx → EReal) = (V m c main_v26 : S64x64.Idx → EReal) :=
  blk_whole11 t (V m c main_v26 : S64x64.Idx → EReal)

theorem blk_whole12 (t : Fin cfg0.N) (X : S1x64.Idx → EReal) :
    (((cfg0.win 12).blk t).view.read (Elt Ideal) X : S1x64.Idx → EReal) = X := by
  have e := idx_zero t
  funext y
  obtain ⟨a, b, rfl⟩ : ∃ (a : Fin 1) (b : Fin 64), y = ix2 a b := ⟨y 0, y 1, eq_ix2 y⟩
  show X (((cfg0.win 12).blk t).view.emb (ix2 a b)) = _
  refine congrArg X (funext fun x => Fin.ext ?_)
  match x with
  | ⟨0, _⟩ => show win0_12.index t (0 : Fin 2) * 1 + 1 * a.val = a.val; omega
  | ⟨1, _⟩ => show win0_12.index t (1 : Fin 2) * 64 + 1 * b.val = b.val; omega

theorem read_whole12 (c : Dev nD) (t : Fin cfg0.N) : (iblk m c 12 t : S1x64.Idx → EReal) = (V m c main_v32 : S1x64.Idx → EReal) :=
  blk_whole12 t (V m c main_v32 : S1x64.Idx → EReal)

theorem blk_whole13 (t : Fin cfg0.N) (X : S64x32.Idx → EReal) :
    (((cfg0.win 13).blk t).view.read (Elt Ideal) X : S64x32.Idx → EReal) = X := by
  have e := idx_zero t
  funext y
  obtain ⟨a, b, rfl⟩ : ∃ (a : Fin 64) (b : Fin 32), y = ix2 a b := ⟨y 0, y 1, eq_ix2 y⟩
  show X (((cfg0.win 13).blk t).view.emb (ix2 a b)) = _
  refine congrArg X (funext fun x => Fin.ext ?_)
  match x with
  | ⟨0, _⟩ => show win0_13.index t (0 : Fin 2) * 64 + 1 * a.val = a.val; omega
  | ⟨1, _⟩ => show win0_13.index t (1 : Fin 2) * 32 + 1 * b.val = b.val; omega

theorem read_whole13 (c : Dev nD) (t : Fin cfg0.N) : (iblk m c 13 t : S64x32.Idx → EReal) = (V m c main_arg9 : S64x32.Idx → EReal) :=
  blk_whole13 t (V m c main_arg9 : S64x32.Idx → EReal)

theorem blk_whole14 (t : Fin cfg0.N) (X : S1x32.Idx → EReal) :
    (((cfg0.win 14).blk t).view.read (Elt Ideal) X : S1x32.Idx → EReal) = X := by
  have e := idx_zero t
  funext y
  obtain ⟨a, b, rfl⟩ : ∃ (a : Fin 1) (b : Fin 32), y = ix2 a b := ⟨y 0, y 1, eq_ix2 y⟩
  show X (((cfg0.win 14).blk t).view.emb (ix2 a b)) = _
  refine congrArg X (funext fun x => Fin.ext ?_)
  match x with
  | ⟨0, _⟩ => show win0_14.index t (0 : Fin 2) * 1 + 1 * a.val = a.val; omega
  | ⟨1, _⟩ => show win0_14.index t (1 : Fin 2) * 32 + 1 * b.val = b.val; omega

theorem read_whole14 (c : Dev nD) (t : Fin cfg0.N) : (iblk m c 14 t : S1x32.Idx → EReal) = (V m c main_v33 : S1x32.Idx → EReal) :=
  blk_whole14 t (V m c main_v33 : S1x32.Idx → EReal)

theorem blk_whole15 (t : Fin cfg0.N) (X : S32x1.Idx → EReal) :
    (((cfg0.win 15).blk t).view.read (Elt Ideal) X : S32x1.Idx → EReal) = X := by
  have e := idx_zero t
  funext y
  obtain ⟨a, b, rfl⟩ : ∃ (a : Fin 32) (b : Fin 1), y = ix2 a b := ⟨y 0, y 1, eq_ix2 y⟩
  show X (((cfg0.win 15).blk t).view.emb (ix2 a b)) = _
  refine congrArg X (funext fun x => Fin.ext ?_)
  match x with
  | ⟨0, _⟩ => show win0_15.index t (0 : Fin 2) * 32 + 1 * a.val = a.val; omega
  | ⟨1, _⟩ => show win0_15.index t (1 : Fin 2) * 1 + 1 * b.val = b.val; omega

theorem read_whole15 (c : Dev nD) (t : Fin cfg0.N) : (iblk m c 15 t : S32x1.Idx → EReal) = (V m c main_arg11 : S32x1.Idx → EReal) :=
  blk_whole15 t (V m c main_arg11 : S32x1.Idx → EReal)

theorem blk_whole16 (t : Fin cfg0.N) (X : S1x1.Idx → EReal) :
    (((cfg0.win 16).blk t).view.read (Elt Ideal) X : S1x1.Idx → EReal) = X := by
  have e := idx_zero t
  funext y
  obtain ⟨a, b, rfl⟩ : ∃ (a : Fin 1) (b : Fin 1), y = ix2 a b := ⟨y 0, y 1, eq_ix2 y⟩
  show X (((cfg0.win 16).blk t).view.emb (ix2 a b)) = _
  refine congrArg X (funext fun x => Fin.ext ?_)
  match x with
  | ⟨0, _⟩ => show win0_16.index t (0 : Fin 2) * 1 + 1 * a.val = a.val; omega
  | ⟨1, _⟩ => show win0_16.index t (1 : Fin 2) * 1 + 1 * b.val = b.val; omega

theorem read_whole16 (c : Dev nD) (t : Fin cfg0.N) : (iblk m c 16 t : S1x1.Idx → EReal) = (V m c main_v34 : S1x1.Idx → EReal) :=
  blk_whole16 t (V m c main_v34 : S1x1.Idx → EReal)

end Cert.ArrayOut

end
-- ==== Proof.ArrayOut.lean ====
/-
  From blocks to the array.

  At point t the body's output block is the block function of the point's input blocks (BlockOut); row r of those is
  row 5000·t + r of the arrays the region finds (ArrayReads). So what point t writes back is block t of ONE function of
  those arrays: row n of the output is the node function of row n of the features, of the neighbour sums, of the degree
  column and of the scores. Row n lies in block n / 5000, so the twenty blocks cover the array, and the array after
  the run is that function.
-/
import proofs.«169547_j85856396247142_2_alg».proof.Proof.BlockOut
import proofs.«169547_j85856396247142_2_alg».proof.Proof.ArrayReads

set_option maxRecDepth 16384

noncomputable section

namespace Cert.ArrayOut

open Idealize.ShloMosaic Idealize.ShloMosaic.TcCoe Idealize.ShloMosaic.ValueIdx Idealize.SL.Sem Cert.KernelIdeal Cert.KernelIdeal.Gen Cert.BlockOut
open Idealize.ShloMosaic.Pipeline (Dat)

variable (m : (ℓ : Loc nD τ sig) → Buf (Elt Ideal) ℓ) (ρ : Dev nD → PrngReg)

/-- The weights as the region finds them: the blocks of the thirteen weight windows are their whole arrays. -/
def regionWeights (c : Dev nD) : Cert.NodeNet.Weights :=
  Cert.NodeNet.Weights.ofBlocks (V m c main_v23 : S64x128.Idx → EReal) (V m c main_v29 : S1x128.Idx → EReal) (V m c main_v24 : S64x128.Idx → EReal) (V m c main_arg5 : S128x64.Idx → EReal) (V m c main_v30 : S1x64.Idx → EReal) (V m c main_v25 : S64x3.Idx → EReal) (V m c main_v31 : S1x3.Idx → EReal) (V m c main_v26 : S64x64.Idx → EReal) (V m c main_v32 : S1x64.Idx → EReal) (V m c main_arg9 : S64x32.Idx → EReal) (V m c main_v33 : S1x32.Idx → EReal) (V m c main_arg11 : S32x1.Idx → EReal) (V m c main_v34 : S1x1.Idx → EReal)

/-- The output array as ONE function of the arrays the region finds: row n is the node function of row n of the
    features, of the neighbour sums, of the degree column and of the scores. -/
def regionOut (c : Dev nD) : S100000x68.Idx → EReal :=
  Cert.NodeNet.netOut (regionWeights m c) (V m c main_arg0 : S100000x64.Idx → EReal) (V m c main_v21 : S100000x64.Idx → EReal)
    (fun n => (V m c main_v22 : S100000x1.Idx → EReal) (ix2 n (0 : Fin 1))) (V m c main_arg1 : S100000x4.Idx → EReal)

/-- What point t writes back is block t of that function: rows 5000·t … 5000·t + 4999. -/
theorem flushed_eq (c : Dev nD) (t : Fin cfg0.N) :
    (dats m 0 c).flushed 17 t = ((cfg0.win 17).blk t).view.read (Elt Ideal) (regionOut m c) := by
  rw [Cert.KernelIdeal.Value.flushed17_A,
    out_block c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)]
  have e := idx_rows t
  have hN : t.val < 20 := points ▸ t.isLt
  funext y
  obtain ⟨r, j, rfl⟩ : ∃ (r : Fin 5000) (j : Fin 68), y = ix2 r j := ⟨y 0, y 1, eq_ix2 y⟩
  have hn : t.val * 5000 + r.val < 100000 := by have := r.isLt; omega
  have he : ((cfg0.win 17).blk t).view.emb (ix2 r j) = ix2 (⟨t.val * 5000 + r.val, hn⟩ : Fin 100000) j :=
    funext fun a => Fin.ext (by
      match a with
      | ⟨0, _⟩ => show win0_17.index t (0 : Fin 2) * 5000 + 1 * r.val = t.val * 5000 + r.val; omega
      | ⟨1, _⟩ => show win0_17.index t (1 : Fin 2) * 68 + 1 * j.val = j.val; omega)
  show blockFn (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (ix2 r j) = regionOut m c (((cfg0.win 17).blk t).view.emb (ix2 r j))
  rw [he]
  refine (blockFn_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) r j).trans ?_
  refine Eq.trans ?_ (Cert.NodeNet.netOut_apply (regionWeights m c) (V m c main_arg0 : S100000x64.Idx → EReal) (V m c main_v21 : S100000x64.Idx → EReal)
    (fun n => (V m c main_v22 : S100000x1.Idx → EReal) (ix2 n (0 : Fin 1))) (V m c main_arg1 : S100000x4.Idx → EReal) (⟨t.val * 5000 + r.val, hn⟩ : Fin 100000) j).symm
  have hW : Cert.NodeNet.Weights.ofBlocks (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) = regionWeights m c := by
    unfold regionWeights
    rw [read_whole4 m c t, read_whole5 m c t, read_whole6 m c t, read_whole7 m c t, read_whole8 m c t, read_whole9 m c t, read_whole10 m c t, read_whole11 m c t, read_whole12 m c t, read_whole13 m c t, read_whole14 m c t, read_whole15 m c t, read_whole16 m c t]
  have h0 : (fun k : Fin 64 => iblk m c 0 t (ix2 r k)) = fun k => (V m c main_arg0 : S100000x64.Idx → EReal) (ix2 (⟨t.val * 5000 + r.val, hn⟩ : Fin 100000) k) :=
    funext fun k => read_rows0 m c t r k _ rfl
  have h1 : (fun k : Fin 64 => iblk m c 1 t (ix2 r k)) = fun k => (V m c main_v21 : S100000x64.Idx → EReal) (ix2 (⟨t.val * 5000 + r.val, hn⟩ : Fin 100000) k) :=
    funext fun k => read_rows1 m c t r k _ rfl
  have h2 : iblk m c 2 t (ix2 r (0 : Fin 1)) = (V m c main_v22 : S100000x1.Idx → EReal) (ix2 (⟨t.val * 5000 + r.val, hn⟩ : Fin 100000) (0 : Fin 1)) :=
    read_rows2 m c t r 0 _ rfl
  have h3 : (fun k : Fin 4 => iblk m c 3 t (ix2 r k)) = fun k => (V m c main_arg1 : S100000x4.Idx → EReal) (ix2 (⟨t.val * 5000 + r.val, hn⟩ : Fin 100000) k) :=
    funext fun k => read_rows3 m c t r k _ rfl
  rw [hW, h0, h1, h2, h3]

/-- An index of the array is in point t's block iff its row is in that block's 5000 rows (and its column anywhere). -/
theorem mem_blk (t : Fin cfg0.N) (i : S100000x68.Idx) :
    i ∈ ((cfg0.win 17).blk t).view.set ↔ ∀ a : Fin 2, win0_17.index t a * S5000x68.size a ≤ (i a).val ∧ (i a).val < win0_17.index t a * S5000x68.size a + S5000x68.size a := by
  show i ∈ ((View.whole main_v35).slice (win0_17.rect t)).set ↔ _
  rw [View.set_slice_whole, Rect.mem_set_unit]
  exact Iff.rfl

/-- The twenty blocks cover the array: row n lies in block n / 5000. -/
theorem cover (i : S100000x68.Idx) : ∃ t : Fin cfg0.N, (cfg0.win 17).flush t = true ∧ i ∈ ((cfg0.win 17).blk t).view.set := by
  have hi0 : (i 0).val < 100000 := (i 0).isLt
  have hi1 : (i 1).val < 68 := (i 1).isLt
  have ht : (i 0).val / 5000 < cfg0.N := by rw [points]; omega
  obtain ⟨e0, e1, -⟩ := idx_rows ⟨(i 0).val / 5000, ht⟩
  have e0' : win0_17.index ⟨(i 0).val / 5000, ht⟩ (0 : Fin 2) = (i 0).val / 5000 := e0
  have e1' : win0_17.index ⟨(i 0).val / 5000, ht⟩ (1 : Fin 2) = 0 := e1
  refine ⟨⟨(i 0).val / 5000, ht⟩, flush0_17 _, ?_⟩
  rw [mem_blk]
  intro a
  match a with
  | ⟨0, _⟩ =>
    show win0_17.index ⟨(i 0).val / 5000, ht⟩ (0 : Fin 2) * 5000 ≤ (i 0).val ∧ (i 0).val < win0_17.index ⟨(i 0).val / 5000, ht⟩ (0 : Fin 2) * 5000 + 5000
    rw [e0']; omega
  | ⟨1, _⟩ =>
    show win0_17.index ⟨(i 0).val / 5000, ht⟩ (1 : Fin 2) * 68 ≤ (i 1).val ∧ (i 1).val < win0_17.index ⟨(i 0).val / 5000, ht⟩ (1 : Fin 2) * 68 + 68
    rw [e1']; omega

/-- The output array after the run is that function of the arrays the region finds. -/
theorem final (c : Dev nD) : (dats m 0 c).arrAt 17 cfg0.N = regionOut m c :=
  (dats m 0 c).arrAt_eq_of_cover 17 (regionOut m c) (fun t _ => flushed_eq m c t) cover

/-- The kernel program's run, read: every weakly fair execution ends with the output array at that function of the
    arrays the region finds, and the thirteen arguments as they were. -/
theorem run : θ_run defs (onTc (τ := τ) (main (F := Ideal))) ⟨m, fun _ => 0, ρ⟩ fun r => ∀ c : Dev nD,
      r.2.mem ((c : Thread nD τ).loc main_v35) = regionOut m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun r h c => ⟨(h c).1.trans (final m c), (h c).2⟩) (Cert.KernelIdeal.Value.run_blocks m ρ)

end Cert.ArrayOut

end
-- ==== Proof.WeightBlocks.lean ====
/-
  The weight windows' arrays as the region finds them.

  Before the call the host cuts the ten parameter arrays into the thirteen arrays the weight windows stage: rows 0–63
  and rows 64–127 of the first layer's matrix; columns 0–2 and columns 3–66 of the third layer's matrix and of its
  bias; every bias vector viewed as a row of one line. Each of these is read here off the launch memory, and the
  weights read off the thirteen cut arrays are shown to be the weights read off the ten parameter arrays: a slice
  holds at (k, j) the entry (offset + k, j) of its operand, a one-line row holds at (0, j) entry j of its vector.
-/
import proofs.«169547_j85856396247142_2_alg».proof.Proof.Gen.KernelIdeal.Frame
import proofs.«169547_j85856396247142_2_alg».proof.Proof.NodeSpec
import Idealize.ShloMosaic.Lib.StableHlo.Run
import Idealize.ShloMosaic.Lib.ValueLayout

set_option maxRecDepth 16384

noncomputable section

namespace Cert.WeightBlocks

open Idealize.ShloMosaic Idealize.ShloMosaic.TcCoe Idealize.ShloMosaic.ValueIdx Idealize.SL.Sem Idealize.ShloMosaic.StableHlo Cert.KernelIdeal Cert.KernelIdeal.Gen

variable (m : (ℓ : Loc nD τ sig) → Buf (Elt Ideal) ℓ)

theorem main_v23_eq (c : Dev nD) : (V m c main_v23 : S64x128.Idx → EReal)
    = extractStridedSlice S64x128 ![0, 0] (m ((c : Thread nD τ).loc main_arg3)) slices_S128x128_S64x128_0_0 := by
  dsimp only [Gen.V, Gen.hostOps0]
  after_results
  all_goals rfl

theorem main_v24_eq (c : Dev nD) : (V m c main_v24 : S64x128.Idx → EReal)
    = extractStridedSlice S64x128 ![64, 0] (m ((c : Thread nD τ).loc main_arg3)) slices_S128x128_S64x128_64_0 := by
  dsimp only [Gen.V, Gen.hostOps0]
  after_results
  all_goals rfl

theorem main_v25_eq (c : Dev nD) : (V m c main_v25 : S64x3.Idx → EReal)
    = extractStridedSlice S64x3 ![0, 0] (m ((c : Thread nD τ).loc main_arg7)) slices_S64x67_S64x3_0_0 := by
  dsimp only [Gen.V, Gen.hostOps0]
  after_results
  all_goals rfl

theorem main_v26_eq (c : Dev nD) : (V m c main_v26 : S64x64.Idx → EReal)
    = extractStridedSlice S64x64 ![0, 3] (m ((c : Thread nD τ).loc main_arg7)) slices_S64x67_S64x64_0_3 := by
  dsimp only [Gen.V, Gen.hostOps0]
  after_results
  all_goals rfl

theorem main_v29_eq (c : Dev nD) : (V m c main_v29 : S1x128.Idx → EReal)
    = shapeCast S1x128 (m ((c : Thread nD τ).loc main_arg4)) shapeCasts_S128_S1x128 := by
  dsimp only [Gen.V, Gen.hostOps0]
  after_results
  all_goals rfl

theorem main_v30_eq (c : Dev nD) : (V m c main_v30 : S1x64.Idx → EReal)
    = shapeCast S1x64 (m ((c : Thread nD τ).loc main_arg6)) shapeCasts_S64_S1x64 := by
  dsimp only [Gen.V, Gen.hostOps0]
  after_results
  all_goals rfl

theorem main_v31_eq (c : Dev nD) : (V m c main_v31 : S1x3.Idx → EReal)
    = shapeCast S1x3 (extractStridedSlice S3 ![0] (m ((c : Thread nD τ).loc main_arg8)) slices_S67_S3_0) shapeCasts_S3_S1x3 := by
  dsimp only [Gen.V, Gen.hostOps0]
  after_results
  all_goals rfl

theorem main_v32_eq (c : Dev nD) : (V m c main_v32 : S1x64.Idx → EReal)
    = shapeCast S1x64 (extractStridedSlice S64 ![3] (m ((c : Thread nD τ).loc main_arg8)) slices_S67_S64_3) shapeCasts_S64_S1x64 := by
  dsimp only [Gen.V, Gen.hostOps0]
  after_results
  all_goals rfl

theorem main_v33_eq (c : Dev nD) : (V m c main_v33 : S1x32.Idx → EReal)
    = shapeCast S1x32 (m ((c : Thread nD τ).loc main_arg10)) shapeCasts_S32_S1x32 := by
  dsimp only [Gen.V, Gen.hostOps0]
  after_results
  all_goals rfl

theorem main_v34_eq (c : Dev nD) : (V m c main_v34 : S1x1.Idx → EReal)
    = shapeCast S1x1 (m ((c : Thread nD τ).loc main_arg12)) shapeCasts_S1_S1x1 := by
  dsimp only [Gen.V, Gen.hostOps0]
  after_results
  all_goals rfl

section
variable (W1 : S128x128.Idx → EReal) (b1 : S128.Idx → EReal) (W2 : S128x64.Idx → EReal) (b2 : S64.Idx → EReal)
  (W3 : S64x67.Idx → EReal) (b3 : S67.Idx → EReal) (P1 : S64x32.Idx → EReal) (pb1 : S32.Idx → EReal)
  (P2 : S32x1.Idx → EReal) (pb2 : S1.Idx → EReal)

/-- The weights read off the thirteen blocks the host cuts out of the ten parameter arrays — the two halves of the
    first matrix by rows 0–63 and 64–127, the third matrix and its bias by columns 0–2 and 3–66, every bias as a
    one-line row — are the weights read off the parameter arrays themselves. -/
theorem ofBlocks_cut_eq_ofArrays :
    Cert.NodeNet.Weights.ofBlocks
        (extractStridedSlice S64x128 ![0, 0] W1 slices_S128x128_S64x128_0_0)
        (shapeCast S1x128 b1 shapeCasts_S128_S1x128)
        (extractStridedSlice S64x128 ![64, 0] W1 slices_S128x128_S64x128_64_0)
        W2
        (shapeCast S1x64 b2 shapeCasts_S64_S1x64)
        (extractStridedSlice S64x3 ![0, 0] W3 slices_S64x67_S64x3_0_0)
        (shapeCast S1x3 (extractStridedSlice S3 ![0] b3 slices_S67_S3_0) shapeCasts_S3_S1x3)
        (extractStridedSlice S64x64 ![0, 3] W3 slices_S64x67_S64x64_0_3)
        (shapeCast S1x64 (extractStridedSlice S64 ![3] b3 slices_S67_S64_3) shapeCasts_S64_S1x64)
        P1
        (shapeCast S1x32 pb1 shapeCasts_S32_S1x32)
        P2
        (shapeCast S1x1 pb2 shapeCasts_S1_S1x1)
      = Cert.NodeNet.Weights.ofArrays W1 b1 W2 b2 W3 b3 P1 pb1 P2 pb2 := by
  unfold Cert.NodeNet.Weights.ofBlocks Cert.NodeNet.Weights.ofArrays
  congr 1
  · funext k j
    exact extractStridedSlice_apply ![0, 0] W1 slices_S128x128_S64x128_0_0 (ix2 k j) (ix2 (⟨k.val, by omega⟩ : Fin 128) j)
      (fun a => by
        match a with
        | ⟨0, _⟩ => show k.val = 0 + k.val; omega
        | ⟨1, _⟩ => show j.val = 0 + j.val; omega)
  · funext k j
    exact extractStridedSlice_apply ![64, 0] W1 slices_S128x128_S64x128_64_0 (ix2 k j) (ix2 (⟨64 + k.val, by omega⟩ : Fin 128) j)
      (fun a => by
        match a with
        | ⟨0, _⟩ => show 64 + k.val = 64 + k.val; rfl
        | ⟨1, _⟩ => show j.val = 0 + j.val; omega)
  · funext j
    exact shapeCast_a_1a_apply b1 shapeCasts_S128_S1x128 0 j
  · funext j
    exact shapeCast_a_1a_apply b2 shapeCasts_S64_S1x64 0 j
  · funext k q
    exact extractStridedSlice_apply ![0, 0] W3 slices_S64x67_S64x3_0_0 (ix2 k q) (ix2 k (⟨q.val, by omega⟩ : Fin 67))
      (fun a => by
        match a with
        | ⟨0, _⟩ => show k.val = 0 + k.val; omega
        | ⟨1, _⟩ => show q.val = 0 + q.val; omega)
  · funext q
    refine (shapeCast_a_1a_apply (extractStridedSlice S3 ![0] b3 slices_S67_S3_0) shapeCasts_S3_S1x3 0 q).trans ?_
    exact extractStridedSlice_apply ![0] b3 slices_S67_S3_0 (ix1 q) (ix1 (⟨q.val, by omega⟩ : Fin 67))
      (fun a => by
        match a with
        | ⟨0, _⟩ => show q.val = 0 + q.val; omega)
  · funext k q
    exact extractStridedSlice_apply ![0, 3] W3 slices_S64x67_S64x64_0_3 (ix2 k q) (ix2 k (⟨3 + q.val, by omega⟩ : Fin 67))
      (fun a => by
        match a with
        | ⟨0, _⟩ => show k.val = 0 + k.val; omega
        | ⟨1, _⟩ => show 3 + q.val = 3 + q.val; rfl)
  · funext q
    refine (shapeCast_a_1a_apply (extractStridedSlice S64 ![3] b3 slices_S67_S64_3) shapeCasts_S64_S1x64 0 q).trans ?_
    exact extractStridedSlice_apply ![3] b3 slices_S67_S64_3 (ix1 q) (ix1 (⟨3 + q.val, by omega⟩ : Fin 67))
      (fun a => by
        match a with
        | ⟨0, _⟩ => show 3 + q.val = 3 + q.val; rfl)
  · funext j
    exact shapeCast_a_1a_apply pb1 shapeCasts_S32_S1x32 0 j
  · exact shapeCast_a_1a_apply pb2 shapeCasts_S1_S1x1 0 0
end

end Cert.WeightBlocks

end
-- ==== Proof.HostKernelTerm.lean ====
/-
  What the kernel's host code hands to its grid: the neighbour sums and the degrees as terms of the launch arrays.

  Before the grid runs, the host code takes the two rows of the edge array (`src`, `dst`), doubles the edge list
  (targets `src ++ dst`, sources `dst ++ src`), counts the directed edges into every node (a scatter-add of ones into
  zeros, stood up as a column), and adds up, at every node, the features of the sources of the edges into it (negative
  source numbers wrapped by the node count, the features narrowed to sixteen bits and widened again around the gather,
  a scatter-add into zeros).  The two arrays the grid reads are these terms of the launch arrays: each buffer holds the
  value of the operation that wrote it, applied to what its operands' buffers hold.
-/
import proofs.«169547_j85856396247142_2_alg».proof.Proof.Gen.KernelIdeal.Frame
import Idealize.ShloMosaic.Lib.StableHlo.Run
import Idealize.ShloMosaic.PureOps.Ideal
import Idealize.ShloMosaic.Lib.ValueIdx

noncomputable section

namespace Cert.HostBridge

open Cert.KernelIdeal Cert.KernelIdeal.Gen Idealize.ShloMosaic Idealize.ShloMosaic.TcCoe Idealize.SL.Sem
  Idealize.ShloMosaic.StableHlo

/-- Row 0 of the edge array, as a vector: the edges' first ends. -/
def edgeRow0 (E : IVec S2x1600000 32) : IVec S1600000 32 :=
  shapeCast S1600000 (extractStridedSlice S1x1600000 ![0, 0] E slices_S2x1600000_S1x1600000_0_0)
    shapeCasts_S1x1600000_S1600000

/-- Row 1 of the edge array, as a vector: the edges' second ends. -/
def edgeRow1 (E : IVec S2x1600000 32) : IVec S1600000 32 :=
  shapeCast S1600000 (extractStridedSlice S1x1600000 ![1, 0] E slices_S2x1600000_S1x1600000_1_0)
    shapeCasts_S1x1600000_S1600000

/-- The neighbour sums over the doubled edge list, as the host code computes them from the features `X` and the two
    vectors of ends. -/
def kernelSum (X : FVec Ideal S100000x64 .f32) (src dst : IVec S1600000 32) : FVec Ideal S100000x64 .f32 :=
  Host.scatterAdd scatter_S100000x64_S3200000x1_S3200000x64_1_0_0_1
    (broadcastInDim S100000x64 ![] bcast_S_S100000x64 (constant (F := Ideal) S_ .f32 0x00000000#32))
    (broadcastInDim S3200000x1 ![0] bcast_S3200000_S3200000x1_0
      (concatenate S3200000 0 [⟨S1600000, src⟩, ⟨S1600000, dst⟩] concatenates_S1600000_S1600000_S3200000_d0))
    (extf .f32 (Host.gather gather_S100000x64_S3200000x1_S3200000x64_1_0_n_n_0_1_164 (truncf .bf16 X bitsLt_bf16_f32)
      (broadcastInDim S3200000x1 ![0] bcast_S3200000_S3200000x1_0
        (select
          (cmpi .slt (concatenate S3200000 0 [⟨S1600000, dst⟩, ⟨S1600000, src⟩] concatenates_S1600000_S1600000_S3200000_d0)
            (broadcastInDim S3200000 ![] bcast_S_S3200000 (constantI S_ 32 0#32)))
          (addi (concatenate S3200000 0 [⟨S1600000, dst⟩, ⟨S1600000, src⟩] concatenates_S1600000_S1600000_S3200000_d0)
            (broadcastInDim S3200000 ![] bcast_S_S3200000 (constantI S_ 32 100000#32)))
          (concatenate S3200000 0 [⟨S1600000, dst⟩, ⟨S1600000, src⟩] concatenates_S1600000_S1600000_S3200000_d0))))
      bitsLt_bf16_f32)

/-- The degrees over the doubled edge list, as a column, as the host code computes them from the two vectors of ends. -/
def kernelDeg (src dst : IVec S1600000 32) : FVec Ideal S100000x1 .f32 :=
  shapeCast S100000x1
    (Host.scatterAdd scatter_S100000_S3200000x1_S3200000_n_0_0_1
      (broadcastInDim S100000 ![] bcast_S_S100000 (constant (F := Ideal) S_ .f32 0x00000000#32))
      (broadcastInDim S3200000x1 ![0] bcast_S3200000_S3200000x1_0
        (concatenate S3200000 0 [⟨S1600000, src⟩, ⟨S1600000, dst⟩] concatenates_S1600000_S1600000_S3200000_d0))
      (broadcastInDim S3200000 ![] bcast_S_S3200000 (constant (F := Ideal) S_ .f32 0x3F800000#32)))
    shapeCasts_S100000_S100000x1

variable (m : (ℓ : Loc nD τ sig) → Buf (Elt Ideal) ℓ) (c : Dev nD)

/-- The degree column the grid reads is `kernelDeg` of the two rows of the launch memory's edge array. -/
theorem V_main_v22_eq :
    (V m c main_v22 : S100000x1.Idx → EReal)
      = kernelDeg (edgeRow0 (m ((c : Thread nD τ).loc main_arg2))) (edgeRow1 (m ((c : Thread nD τ).loc main_arg2))) := by
  dsimp only [Gen.V, Gen.hostOps0]
  after_results
  rfl

set_option maxHeartbeats 1600000 in
/-- The neighbour sums the grid reads are `kernelSum` of the launch memory's features and the two rows of its edge array. -/
theorem V_main_v21_eq :
    (V m c main_v21 : S100000x64.Idx → EReal)
      = kernelSum (m ((c : Thread nD τ).loc main_arg0)) (edgeRow0 (m ((c : Thread nD τ).loc main_arg2)))
          (edgeRow1 (m ((c : Thread nD τ).loc main_arg2))) := by
  dsimp only [Gen.V, Gen.hostOps0]
  after_results_simp
  repeat (first
    | rw [reshape_result] | rw [unary_result] | rw [binary_result]
    | (rw [reshape_result_ne]; rotate_left; decide)
    | (rw [unary_result_ne]; rotate_left; decide)
    | (rw [binary_result_ne]; rotate_left; decide))
  rfl

end Cert.HostBridge

end
-- ==== Proof.LibRowScatter.lean ====
/-
  Gathering rows of an array, and scatter-adding rows into an array, at a column of row numbers, read at an entry.

  `x[idx]` for an array `x` of `N` rows (of `C` numbers each, or of one number) and a column `idx` of `R` row numbers is
  a gather whose row `e` is row `clampRow idx e` of `x`: the row number read as a signed integer and clamped into
  `[0, N - 1]`.  `x.at[idx].add(u)` adds row `e` of `u` to row `idx e` of `x` when that signed number is a row of `x`,
  and drops it when it is not: over the extended reals entry `(n, c)` of the result is entry `(n, c)` of `x` plus the
  sum of `u e c` over the rows `e` whose number is `n`.
-/
import Idealize.ShloMosaic.PureOps.Ideal
import Idealize.ShloMosaic.Lib.ValueIdx

noncomputable section

open scoped BigOperators

namespace Idealize.ShloMosaic.RowScatter

open Idealize.ShloMosaic Idealize.ShloMosaic.ValueIdx

variable {α : Type}

/-! ## Closed facts about the axis lists of rank 1 and rank 2 -/

theorem kept2_0 : (List.finRange 2).filter (fun a : Fin 2 => a ∉ ([0] ++ [] : List (Fin 2))) = [1] := by decide
theorem kept2_0' : (List.finRange 2).filter (fun a : Fin 2 => a ∉ ([0] : List (Fin 2))) = [1] := by decide
theorem kept1_0 : (List.finRange 1).filter (fun a : Fin 1 => a ∉ ([0] ++ [] : List (Fin 1))) = [] := by decide
theorem kept1_0' : (List.finRange 1).filter (fun a : Fin 1 => a ∉ ([0] : List (Fin 1))) = [] := by decide
theorem idxOf_1 : List.idxOf (1 : Fin 2) [1] = 0 := by decide
theorem one_not_mem : (1 : Fin 2) ∉ ([0] : List (Fin 2)) := by decide
theorem zero_not_mem_one : (0 : Fin 2) ∉ ([1] : List (Fin 2)) := by decide

/-- A rank-1 index set is its one coordinate range. -/
def idxEquiv1 {n : Nat} : (⟨1, ![n]⟩ : Shape).Idx ≃ Fin n where
  toFun i := i 0
  invFun a := ix1 a
  left_inv i := (eq_ix1 i).symm
  right_inv _ := rfl

/-- A sum over a rank-1 index set is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## The column of row numbers -/

/-- Entry `e` of a column of `R` row numbers, read as a signed integer. -/
def rowNo {R w : Nat} (idx : IVec ⟨2, ![R, 1]⟩ w) (e : Fin R) : Int := (idx (ix2 e (0 : Fin 1))).toInt

/-- The row a gather reads for entry `e`: its signed number clamped into `[0, N - 1]`. -/
def clampRow {R w : Nat} (N : Nat) (hN : 0 < N) (idx : IVec ⟨2, ![R, 1]⟩ w) (e : Fin R) : Fin N :=
  ⟨min (rowNo idx e).toNat (N - 1), by omega⟩

/-- A signed number that is a row is its own clamp. -/
theorem clampRow_of_rowNo {R w : Nat} (N : Nat) (hN : 0 < N) (idx : IVec ⟨2, ![R, 1]⟩ w) (e : Fin R) (n : Fin N)
    (h : rowNo idx e = (n.val : Int)) : clampRow N hN idx e = n := by
  apply Fin.ext
  show min (rowNo idx e).toNat (N - 1) = n.val
  have := n.isLt
  rw [h]; omega

/-! ## Rows of a rank-2 array gathered -/

/-- The dimension numbers of `x[idx]` for `x : [N, C]`, `idx : [R, 1]`: result `[R, C]`. -/
abbrev gatherRows (N R C : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

section GatherRows
variable {N R C w : Nat} (wf : GatherDims.WF ⟨2, ![N, C]⟩ ⟨2, ![R, 1]⟩ ⟨2, ![R, C]⟩ [1] [0] [] [0] [] 1 ![1, C])
  (idx : IVec ⟨2, ![R, 1]⟩ w) (e : Fin R) (k : Fin C)

theorem gatherRows_sKept : (gatherRows N R C wf).sKept = [1] := kept2_0

theorem gatherRows_axis0 (hN : 0 < N) :
    (gatherRows N R C wf).start (ix2 e k) idx (0 : Fin 2) + (gatherRows N R C wf).batchCoord (ix2 e k) (0 : Fin 2)
      + (gatherRows N R C wf).offCoord (ix2 e k) (0 : Fin 2) = (clampRow N hN idx e).val := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (gatherRows N R C wf).startIndexMap from List.mem_singleton.mpr rfl)]
  have hsi : (gatherRows N R C wf).siIdx (ix2 e k) ⟨List.idxOf (0 : Fin 2) (gatherRows N R C wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

theorem gatherRows_axis1 :
    (gatherRows N R C wf).start (ix2 e k) idx (1 : Fin 2) + (gatherRows N R C wf).batchCoord (ix2 e k) (1 : Fin 2)
      + (gatherRows N R C wf).offCoord (ix2 e k) (1 : Fin 2) = k.val := by
  rw [GatherDims.batchCoord_eq_zero _ _ _ List.not_mem_nil]
  have hs : (gatherRows N R C wf).start (ix2 e k) idx (1 : Fin 2) = 0 := by
    unfold GatherDims.start
    rw [dif_neg one_not_mem]
  have ho : (gatherRows N R C wf).offCoord (ix2 e k) (1 : Fin 2) = k.val := by
    unfold GatherDims.offCoord
    rw [dif_pos (by rw [gatherRows_sKept]; exact List.mem_singleton.mpr rfl)]
    have h : List.idxOf (1 : Fin 2) (gatherRows N R C wf).sKept = 0 := by rw [gatherRows_sKept]; exact idxOf_1
    simp only [h]
    rfl
  rw [hs, ho]; omega

/-- Row `e` of the gather is row `clampRow idx e` of the operand. -/
theorem gatherRows_apply (hN : 0 < N) (x : (⟨2, ![N, C]⟩ : Shape).Idx → α) :
    Host.gather (gatherRows N R C wf) x idx (ix2 e k) = x (ix2 (clampRow N hN idx e) k) := by
  unfold Host.gather
  congr 1
  funext a
  refine Fin.ext ?_
  revert a
  refine Fin.forall_fin_two.mpr ⟨?_, ?_⟩
  · exact gatherRows_axis0 wf idx e k hN
  · exact gatherRows_axis1 wf idx e k

end GatherRows

/-! ## Entries of a rank-1 array gathered -/

/-- The dimension numbers of `x[idx]` for `x : [N]`, `idx : [R, 1]`: result `[R]`. -/
abbrev gatherCol (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- Entry `e` of the gather is entry `clampRow idx e` of the operand. -/
theorem gatherCol_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (e : Fin R) :
    Host.gather (gatherCol N R wf) x idx (ix1 e) = x (ix1 (clampRow N hN idx e)) := by
  unfold Host.gather
  congr 1
  funext a
  obtain rfl : a = 0 := Subsingleton.elim _ _
  refine Fin.ext ?_
  show (gatherCol N R wf).start (ix1 e) idx 0 + (gatherCol N R wf).batchCoord (ix1 e) 0
    + (gatherCol N R wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gatherCol N R wf).startIndexMap from List.mem_singleton.mpr rfl)]
  have hsi : (gatherCol N R wf).siIdx (ix1 e) ⟨List.idxOf (0 : Fin 1) (gatherCol N R wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-! ## Rows scatter-added into a rank-2 array -/

/-- The dimension numbers of `x.at[idx].add(u)` for `x : [N, C]`, `idx : [R, 1]`, `u : [R, C]`. -/
abbrev scatterRows (N R C : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

section ScatterRows
variable {N R C w : Nat} (wf : ScatterDims.WF ⟨2, ![N, C]⟩ ⟨2, ![R, 1]⟩ ⟨2, ![R, C]⟩ [1] [0] [0] 1)
  (idx : IVec ⟨2, ![R, 1]⟩ w) (e : Fin R) (k : Fin C)

theorem scatterRows_sKept : (scatterRows N R C wf).sKept = [1] := kept2_0'

theorem scatterRows_axis0 :
    (scatterRows N R C wf).start (ix2 e k) idx (0 : Fin 2) + ((scatterRows N R C wf).window (ix2 e k) (0 : Fin 2) : Int)
      = rowNo idx e := by
  have hw : (scatterRows N R C wf).window (ix2 e k) (0 : Fin 2) = 0 := by
    unfold ScatterDims.window
    rw [dif_neg (by rw [scatterRows_sKept]; exact zero_not_mem_one)]
  have hs : (scatterRows N R C wf).start (ix2 e k) idx (0 : Fin 2) = rowNo idx e := by
    unfold ScatterDims.start
    rw [dif_pos (show (0 : Fin 2) ∈ (scatterRows N R C wf).scatterDimsToOperandDims from List.mem_singleton.mpr rfl)]
    have hsi : (scatterRows N R C wf).siIdx (ix2 e k)
        ⟨List.idxOf (0 : Fin 2) (scatterRows N R C wf).scatterDimsToOperandDims,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  rw [hs, hw]; simp

theorem scatterRows_axis1 :
    (scatterRows N R C wf).start (ix2 e k) idx (1 : Fin 2) + ((scatterRows N R C wf).window (ix2 e k) (1 : Fin 2) : Int)
      = (k.val : Int) := by
  have hs : (scatterRows N R C wf).start (ix2 e k) idx (1 : Fin 2) = 0 := by
    unfold ScatterDims.start
    rw [dif_neg one_not_mem]
  have hw : (scatterRows N R C wf).window (ix2 e k) (1 : Fin 2) = k.val := by
    unfold ScatterDims.window
    rw [dif_pos (by rw [scatterRows_sKept]; exact List.mem_singleton.mpr rfl)]
    have h : List.idxOf (1 : Fin 2) (scatterRows N R C wf).sKept = 0 := by rw [scatterRows_sKept]; exact idxOf_1
    simp only [h]
    rfl
  rw [hs, hw]; simp

/-- Update `(e, k)` lands on entry `(n, c)` exactly when row `e`'s signed number is `n` and `k = c`. -/
theorem scatterRows_resultIdx (n : Fin N) (c : Fin C) :
    (scatterRows N R C wf).resultIdx? (ix2 e k) idx = some (ix2 n c) ↔ rowNo idx e = (n.val : Int) ∧ k = c := by
  have h0 := scatterRows_axis0 wf idx e k
  have h1 := scatterRows_axis1 wf idx e k
  unfold ScatterDims.resultIdx?
  split
  · rename_i h
    rw [Option.some.injEq]
    constructor
    · intro hi
      have e0 := congrArg Fin.val (congrFun hi (0 : Fin 2))
      have e1 := congrArg Fin.val (congrFun hi (1 : Fin 2))
      have p0 := (h (0 : Fin 2)).1
      refine ⟨?_, Fin.ext ?_⟩
      · have e0' : ((scatterRows N R C wf).start (ix2 e k) idx (0 : Fin 2)
            + ((scatterRows N R C wf).window (ix2 e k) (0 : Fin 2) : Int)).toNat = n.val := e0
        rw [h0] at e0' p0
        omega
      · have e1' : ((scatterRows N R C wf).start (ix2 e k) idx (1 : Fin 2)
            + ((scatterRows N R C wf).window (ix2 e k) (1 : Fin 2) : Int)).toNat = c.val := e1
        rw [h1] at e1'
        omega
    · rintro ⟨hr, rfl⟩
      funext a
      refine Fin.ext ?_
      revert a
      refine Fin.forall_fin_two.mpr ⟨?_, ?_⟩
      · show ((scatterRows N R C wf).start (ix2 e k) idx (0 : Fin 2)
            + ((scatterRows N R C wf).window (ix2 e k) (0 : Fin 2) : Int)).toNat = n.val
        rw [h0, hr]; simp
      · show ((scatterRows N R C wf).start (ix2 e k) idx (1 : Fin 2)
            + ((scatterRows N R C wf).window (ix2 e k) (1 : Fin 2) : Int)).toNat = k.val
        rw [h1]; simp
  · rename_i h
    constructor
    · intro hi; exact absurd hi (by simp)
    · rintro ⟨hr, rfl⟩
      exfalso
      apply h
      refine Fin.forall_fin_two.mpr ⟨?_, ?_⟩
      · show 0 ≤ (scatterRows N R C wf).start (ix2 e k) idx (0 : Fin 2)
            + ((scatterRows N R C wf).window (ix2 e k) (0 : Fin 2) : Int)
          ∧ (scatterRows N R C wf).start (ix2 e k) idx (0 : Fin 2)
            + ((scatterRows N R C wf).window (ix2 e k) (0 : Fin 2) : Int) < (N : Int)
        rw [h0, hr]
        have := n.isLt
        constructor <;> omega
      · show 0 ≤ (scatterRows N R C wf).start (ix2 e k) idx (1 : Fin 2)
            + ((scatterRows N R C wf).window (ix2 e k) (1 : Fin 2) : Int)
          ∧ (scatterRows N R C wf).start (ix2 e k) idx (1 : Fin 2)
            + ((scatterRows N R C wf).window (ix2 e k) (1 : Fin 2) : Int) < (C : Int)
        rw [h1]
        have := k.isLt
        constructor <;> omega

end ScatterRows

/-- Over the extended reals, entry `(n, c)` after the scatter-add is the entry before plus the sum of `u e c` over
    the rows `e` whose signed number is `n`. -/
theorem scatterAddRows_apply {N R C w : Nat} (wf : ScatterDims.WF ⟨2, ![N, C]⟩ ⟨2, ![R, 1]⟩ ⟨2, ![R, C]⟩ [1] [0] [0] 1)
    (x : (⟨2, ![N, C]⟩ : Shape).Idx → EReal) (idx : IVec ⟨2, ![R, 1]⟩ w) (u : (⟨2, ![R, C]⟩ : Shape).Idx → EReal)
    (n : Fin N) (c : Fin C) :
    Ideal.hostScatterAdd (scatterRows N R C wf) x idx u (ix2 n c)
      = x (ix2 n c) + ∑ e ∈ Finset.univ.filter (fun e : Fin R => rowNo idx e = (n.val : Int)), u (ix2 e c) := by
  unfold Ideal.hostScatterAdd
  congr 1
  rw [Finset.sum_filter, sum_idx2, Finset.sum_filter]
  refine Finset.sum_congr rfl fun e _ => ?_
  simp only [scatterRows_resultIdx]
  by_cases h : rowNo idx e = (n.val : Int)
  · simp [h]
  · simp [h]

/-- The same for the host operation at the ideal values, whose meaning that sum is. -/
theorem hostScatterAddRows_apply {φ : FTy} {N R C w : Nat}
    (wf : ScatterDims.WF ⟨2, ![N, C]⟩ ⟨2, ![R, 1]⟩ ⟨2, ![R, C]⟩ [1] [0] [0] 1)
    (x : FVec Ideal ⟨2, ![N, C]⟩ φ) (idx : IVec ⟨2, ![R, 1]⟩ w) (u : FVec Ideal ⟨2, ![R, C]⟩ φ) (n : Fin N) (c : Fin C) :
    Host.scatterAdd (scatterRows N R C wf) x idx u (ix2 n c)
      = x (ix2 n c) + ∑ e ∈ Finset.univ.filter (fun e : Fin R => rowNo idx e = (n.val : Int)), u (ix2 e c) :=
  scatterAddRows_apply wf x idx u n c

/-! ## Entries scatter-added into a rank-1 array -/

/-- The dimension numbers of `x.at[idx].add(u)` for `x : [N]`, `idx : [R, 1]`, `u : [R]`. -/
abbrev scatterCol (N R : Nat) (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

section ScatterCol
variable {N R w : Nat} (wf : ScatterDims.WF ⟨1, ![N]⟩ ⟨2, ![R, 1]⟩ ⟨1, ![R]⟩ [] [0] [0] 1)
  (idx : IVec ⟨2, ![R, 1]⟩ w) (e : Fin R)

theorem scatterCol_axis0 :
    (scatterCol N R wf).start (ix1 e) idx (0 : Fin 1) + ((scatterCol N R wf).window (ix1 e) (0 : Fin 1) : Int)
      = rowNo idx e := by
  have hw : (scatterCol N R wf).window (ix1 e) (0 : Fin 1) = 0 := by
    unfold ScatterDims.window
    rw [dif_neg (by rw [show (scatterCol N R wf).sKept = [] from kept1_0']; exact List.not_mem_nil)]
  have hs : (scatterCol N R wf).start (ix1 e) idx (0 : Fin 1) = rowNo idx e := by
    unfold ScatterDims.start
    rw [dif_pos (show (0 : Fin 1) ∈ (scatterCol N R wf).scatterDimsToOperandDims from List.mem_singleton.mpr rfl)]
    have hsi : (scatterCol N R wf).siIdx (ix1 e)
        ⟨List.idxOf (0 : Fin 1) (scatterCol N R wf).scatterDimsToOperandDims,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  rw [hs, hw]; simp

/-- Update `e` lands on entry `n` exactly when its signed number is `n`. -/
theorem scatterCol_resultIdx (n : Fin N) :
    (scatterCol N R wf).resultIdx? (ix1 e) idx = some (ix1 n) ↔ rowNo idx e = (n.val : Int) := by
  have h0 := scatterCol_axis0 wf idx e
  unfold ScatterDims.resultIdx?
  split
  · rename_i h
    rw [Option.some.injEq]
    constructor
    · intro hi
      have e0 : ((scatterCol N R wf).start (ix1 e) idx (0 : Fin 1)
          + ((scatterCol N R wf).window (ix1 e) (0 : Fin 1) : Int)).toNat = n.val :=
        congrArg Fin.val (congrFun hi (0 : Fin 1))
      have p0 := (h (0 : Fin 1)).1
      rw [h0] at e0 p0
      omega
    · intro hr
      funext a
      obtain rfl : a = 0 := Subsingleton.elim _ _
      refine Fin.ext ?_
      show ((scatterCol N R wf).start (ix1 e) idx (0 : Fin 1)
          + ((scatterCol N R wf).window (ix1 e) (0 : Fin 1) : Int)).toNat = n.val
      rw [h0, hr]; simp
  · rename_i h
    constructor
    · intro hi; exact absurd hi (by simp)
    · intro hr
      exfalso
      apply h
      intro a
      obtain rfl : a = 0 := Subsingleton.elim _ _
      show 0 ≤ (scatterCol N R wf).start (ix1 e) idx (0 : Fin 1)
          + ((scatterCol N R wf).window (ix1 e) (0 : Fin 1) : Int)
        ∧ (scatterCol N R wf).start (ix1 e) idx (0 : Fin 1)
          + ((scatterCol N R wf).window (ix1 e) (0 : Fin 1) : Int) < (N : Int)
      rw [h0, hr]
      have := n.isLt
      constructor <;> omega

end ScatterCol

/-- Over the extended reals, entry `n` after the scatter-add is the entry before plus the sum of `u e` over the
    entries `e` whose signed number is `n`. -/
theorem scatterAddCol_apply {N R w : Nat} (wf : ScatterDims.WF ⟨1, ![N]⟩ ⟨2, ![R, 1]⟩ ⟨1, ![R]⟩ [] [0] [0] 1)
    (x : (⟨1, ![N]⟩ : Shape).Idx → EReal) (idx : IVec ⟨2, ![R, 1]⟩ w) (u : (⟨1, ![R]⟩ : Shape).Idx → EReal) (n : Fin N) :
    Ideal.hostScatterAdd (scatterCol N R wf) x idx u (ix1 n)
      = x (ix1 n) + ∑ e ∈ Finset.univ.filter (fun e : Fin R => rowNo idx e = (n.val : Int)), u (ix1 e) := by
  unfold Ideal.hostScatterAdd
  congr 1
  rw [Finset.sum_filter, sum_idx1, Finset.sum_filter]
  refine Finset.sum_congr rfl fun e _ => ?_
  simp only [scatterCol_resultIdx]

end Idealize.ShloMosaic.RowScatter

end
-- ==== Proof.LibSegmentGather.lean ====
/-
  Message passing on the extended reals, read at an entry: the rows of an array gathered at one column of row numbers and
  scatter-added into the zero array at another.

  With a source column `scol` and a target column `tcol` of `R` row numbers, `zeros.at[tcol].add(X[scol])` holds at entry
  `(n, c)` the sum, over the rows `e` whose signed target number is `n`, of `X` at the clamped source row of `e` and
  column `c`: the scatter-add keeps exactly the updates whose target is a row of the array, and a gather reads the operand
  at the clamped row.
-/
import proofs.«169547_j85856396247142_2_alg».proof.Proof.LibRowScatter

noncomputable section

open scoped BigOperators

namespace Idealize.ShloMosaic.RowScatter

open Idealize.ShloMosaic Idealize.ShloMosaic.ValueIdx

/-- Gathered rows scatter-added into an array that is zero everywhere, at an entry. -/
theorem scatterAdd_gather_zero_apply {N R C w : ℕ} (hN : 0 < N)
    (wfs : ScatterDims.WF ⟨2, ![N, C]⟩ ⟨2, ![R, 1]⟩ ⟨2, ![R, C]⟩ [1] [0] [0] 1)
    (wfg : GatherDims.WF ⟨2, ![N, C]⟩ ⟨2, ![R, 1]⟩ ⟨2, ![R, C]⟩ [1] [0] [] [0] [] 1 ![1, C])
    (z X : FVec Ideal ⟨2, ![N, C]⟩ .f32) (hz : ∀ i, z i = (0 : EReal)) (tcol scol : IVec ⟨2, ![R, 1]⟩ w) (n : Fin N) (c : Fin C) :
    Host.scatterAdd (scatterRows N R C wfs) z tcol (Host.gather (gatherRows N R C wfg) X scol) (ix2 n c)
      = ∑ e ∈ Finset.univ.filter (fun e : Fin R => rowNo tcol e = (n.val : Int)), X (ix2 (clampRow N hN scol e) c) := by
  rw [hostScatterAddRows_apply, hz, zero_add]
  exact Finset.sum_congr rfl fun e _ => gatherRows_apply wfg scol e c hN X

end Idealize.ShloMosaic.RowScatter

end
-- ==== Proof.LibEdgeWords.lean ====
/-
  Node numbers as machine words, and the degree weight, read at an entry.

  An edge list is a vector of 32-bit words; a gather or a scatter-add takes it as a column `[R, 1]`, and row `e`'s signed
  number is then the word at `e`. Numpy-style indexing first replaces a negative word `x` by `x + N` (a select on `x < 0`);
  a word that is already a node number, so nonnegative, is left alone. Hence an edge whose raw target word is the node `n`
  — the only edges a scatter-add onto `n` keeps — has the wrapped-and-clamped target `n` as well.

  The degree weight is `select (deg > 0) (rsqrt deg) 0`. On the extended reals the reciprocal square root of a positive
  number is a nonnegative real (it is `0` at the top), so the weight always lies in `[0, ⊤)`, whatever the degree.
-/
import Idealize.ShloMosaic.PureOps.Ideal
import Idealize.ShloMosaic.PureOps.Ideal.Laws
import Idealize.ShloMosaic.Lib.ValueIdx
import Idealize.ShloMosaic.Lib.Pipeline.Value
import proofs.«169547_j85856396247142_2_alg».proof.Proof.LibRowScatter

noncomputable section

namespace Idealize.ShloMosaic.EdgeWords

open Idealize.ShloMosaic Idealize.ShloMosaic.ValueIdx Idealize.ShloMosaic.RowScatter

/-- Row `e` of the column made from a vector of words is word `e`. -/
theorem column_apply {α : Type} {R : ℕ} (h : (⟨1, ![R]⟩ : Shape).BroadcastsInDim ⟨2, ![R, 1]⟩ ![0])
    (x : (⟨1, ![R]⟩ : Shape).Idx → α) (e : Fin R) (u : Fin 1) :
    broadcastInDim ⟨2, ![R, 1]⟩ ![0] h x (ix2 e u) = x (ix1 e) := by
  refine broadcastInDim_apply ![0] h x (ix2 e u) (ix1 e) fun a => ?_
  obtain rfl : a = 0 := Subsingleton.elim _ _
  have he := e.isLt
  show e.val = if R = 1 then 0 else e.val
  split <;> omega

/-- Row `e`'s signed number in the column made from a vector of words is the signed word at `e`. -/
theorem rowNo_column {R w : ℕ} (h : (⟨1, ![R]⟩ : Shape).BroadcastsInDim ⟨2, ![R, 1]⟩ ![0])
    (x : IVec ⟨1, ![R]⟩ w) (e : Fin R) :
    rowNo (broadcastInDim ⟨2, ![R, 1]⟩ ![0] h x) e = (x (ix1 e)).toInt := by
  unfold rowNo
  rw [column_apply]

/-- Wrapping negative words by adding `k` leaves a nonnegative word alone. -/
theorem wrap_apply_of_nonneg {s : Shape} (x z k : IVec s 32) (i : s.Idx) (hz : z i = 0#32) (hx : 0 ≤ (x i).toInt) :
    select (cmpi .slt x z) (addi x k) x i = x i := by
  rw [select_apply]
  have hc : cmpi .slt x z i = 0#1 := by
    show IntOp.cmpi .slt (x i) (z i) = 0#1
    rw [hz]
    unfold IntOp.cmpi
    have hs : (x i).slt 0#32 = false := by
      rw [BitVec.slt]
      simp only [BitVec.toInt_zero]
      exact decide_eq_false (not_lt.mpr hx)
    show BitVec.ofBool ((x i).slt 0#32) = 0#1
    rw [hs]; rfl
  rw [hc]
  rfl

/-- An edge whose raw target word is the node `n` has the wrapped and clamped target `n`. -/
theorem clampRow_wrap_of_rowNo {R N : ℕ} (hN : 0 < N)
    (h : (⟨1, ![R]⟩ : Shape).BroadcastsInDim ⟨2, ![R, 1]⟩ ![0]) (x z k : IVec ⟨1, ![R]⟩ 32) (hz : ∀ i, z i = 0#32)
    (e : Fin R) (n : Fin N) (hn : rowNo (broadcastInDim ⟨2, ![R, 1]⟩ ![0] h x) e = (n.val : Int)) :
    clampRow N hN (broadcastInDim ⟨2, ![R, 1]⟩ ![0] h (select (cmpi .slt x z) (addi x k) x)) e = n := by
  apply clampRow_of_rowNo
  rw [rowNo_column] at hn ⊢
  rw [wrap_apply_of_nonneg x z k (ix1 e) (hz _) (by rw [hn]; exact Int.natCast_nonneg _)]
  exact hn

/-- The reciprocal square root of a positive extended real is a nonnegative real. -/
theorem rsqrt_bounds (y : EReal) (hy : 0 < y) : 0 ≤ Ideal.rsqrt y ∧ Ideal.rsqrt y ≠ ⊤ := by
  induction y with
  | bot => exact absurd hy (by simp)
  | top => exact ⟨le_refl _, EReal.zero_ne_top⟩
  | coe r =>
    have hr : 0 < r := by exact_mod_cast hy
    rw [Ideal.rsqrt_coe, if_neg (not_lt.mpr hr.le), if_neg hr.ne']
    exact ⟨EReal.coe_nonneg.mpr (inv_nonneg.mpr (Real.sqrt_nonneg r)), EReal.coe_ne_top _⟩

/-- The degree weight `select (deg > 0) (rsqrt deg) 0` lies in `[0, ⊤)` at every node, whatever the degree. -/
theorem weight_bounds {s : Shape} (deg z z' : FVec Ideal s .f32) (hz : ∀ i, z i = 0) (hz' : ∀ i, z' i = 0) (i : s.Idx) :
    (0 : EReal) ≤ select (cmpf .ogt deg z) (Host.rsqrt deg) z' i ∧ select (cmpf .ogt deg z) (Host.rsqrt deg) z' i ≠ (⊤ : EReal) := by
  rw [select_apply]
  unfold Scalar.select
  split
  · rename_i hc
    have hpos : (0 : EReal) < deg i := by
      have h1 : Ideal.cmp .ogt (deg i) (z i) = 1 := hc
      rw [hz] at h1
      by_contra hn
      unfold Ideal.cmp at h1
      simp [hn] at h1
    exact rsqrt_bounds _ hpos
  · rw [hz']; exact ⟨le_refl _, EReal.zero_ne_top⟩

end Idealize.ShloMosaic.EdgeWords

end
-- ==== Proof.HostEdgeSums.lean ====
/-
  Message passing over a doubled edge list, read at an entry.

  An undirected graph is given by two vectors of `R` node numbers, `src` and `dst`.  One way to add, at every node, the
  features of its neighbours is to double the edge list — targets `src ++ dst`, sources `dst ++ src` — and run ONE gather and
  ONE scatter-add over the `R + R` directed edges; another is to run the two directions apart and add the two results.
  Entry `(n, c)` of either is a sum of `X (source of e, c)` over the directed edges `e` whose target is `n`; the doubled list's
  sum splits at the middle into the two directions' sums, because the concatenation read in its first half is the first
  vector and in its second half the second, and wrapping negative numbers is done word by word.  The degree is the same
  statement with every summand the same constant.  Only the splitting of a finite sum is used: nothing is assumed finite.
-/
import Idealize.ShloMosaic.PureOps.Ideal
import Idealize.ShloMosaic.PureOps.Ideal.Laws
import Idealize.ShloMosaic.Lib.ValueIdx
import Idealize.ShloMosaic.Lib.Pipeline.Value
import proofs.«169547_j85856396247142_2_alg».proof.Proof.LibRowScatter
import proofs.«169547_j85856396247142_2_alg».proof.Proof.LibSegmentGather
import proofs.«169547_j85856396247142_2_alg».proof.Proof.LibEdgeWords
import proofs.«169547_j85856396247142_2_alg».proof.Proof.LibColumnLayout

noncomputable section

open scoped BigOperators

namespace Cert.HostBridge

open Idealize.ShloMosaic Idealize.ShloMosaic.ValueIdx Idealize.ShloMosaic.RowScatter Idealize.ShloMosaic.EdgeWords
  Idealize.ShloMosaic.ColumnLayout

/-! ## A sum over a doubled range -/

/-- A filtered sum over `T = R + R` positions is the filtered sum over the first `R` plus the one over the last `R`. -/
theorem sum_filter_halves {M : Type*} [AddCommMonoid M] {T R : ℕ} (hT : T = R + R) (p : Fin T → Prop) [DecidablePred p]
    (f : Fin T → M) :
    ∑ e ∈ Finset.univ.filter p, f e
      = ∑ e ∈ Finset.univ.filter (fun e : Fin R => p ⟨e.val, by have := e.isLt; omega⟩), f ⟨e.val, by have := e.isLt; omega⟩
        + ∑ e ∈ Finset.univ.filter (fun e : Fin R => p ⟨R + e.val, by have := e.isLt; omega⟩),
            f ⟨R + e.val, by have := e.isLt; omega⟩ := by
  subst hT
  simp only [Finset.sum_filter]
  rw [Fin.sum_univ_add]
  rfl

/-! ## The doubled vector read in each half -/

section Halves
variable {α : Type} {T R : ℕ} (hT : T = R + R)
  (hcat : Shape.Concatenates [(⟨1, ![R]⟩ : Shape), (⟨1, ![R]⟩ : Shape)] (⟨1, ![T]⟩ : Shape) 0)
  (a b : (⟨1, ![R]⟩ : Shape).Idx → α) (e : Fin R)

/-- The concatenation of two `[R]` vectors, read in its first half, is the first vector. -/
theorem concat_first :
    concatenate (⟨1, ![T]⟩ : Shape) 0 [⟨(⟨1, ![R]⟩ : Shape), a⟩, ⟨(⟨1, ![R]⟩ : Shape), b⟩] hcat
        (ix1 ⟨e.val, by have := e.isLt; omega⟩) = a (ix1 e) :=
  concatenate_pair_apply_left 0 a b hcat _ rfl (ix1 e) (fun d => by
    match d with
    | ⟨0, _⟩ => rfl)

/-- The concatenation of two `[R]` vectors, read in its second half, is the second vector. -/
theorem concat_second :
    concatenate (⟨1, ![T]⟩ : Shape) 0 [⟨(⟨1, ![R]⟩ : Shape), a⟩, ⟨(⟨1, ![R]⟩ : Shape), b⟩] hcat
        (ix1 ⟨R + e.val, by have := e.isLt; omega⟩) = b (ix1 e) :=
  concatenate_pair_apply_right 0 a b hcat _ rfl rfl (ix1 e) (fun d hne => by
    match d with
    | ⟨0, _⟩ => exact absurd rfl hne) (by show e.val + R = R + e.val; omega)

end Halves

/-! ## Row numbers of a column made from a vector -/

/-- Two columns with the same signed number at two rows clamp to the same row there. -/
theorem clampRow_congr {R R' w : ℕ} (N : ℕ) (hN : 0 < N) (idx : IVec ⟨2, ![R, 1]⟩ w) (idx' : IVec ⟨2, ![R', 1]⟩ w)
    (e : Fin R) (e' : Fin R') (h : rowNo idx e = rowNo idx' e') : clampRow N hN idx e = clampRow N hN idx' e' := by
  apply Fin.ext
  show min (rowNo idx e).toNat (N - 1) = min (rowNo idx' e').toNat (N - 1)
  rw [h]

/-- Replacing a negative word `x` by `x + k`, on one word. -/
def wrapWord (z k x : BitVec 32) : BitVec 32 := Scalar.select (IntOp.cmpi .slt x z) (IntOp.addi x k) x

/-- The vector form of the wrap, read at an entry, wraps that entry's word. -/
theorem wrap_apply {s : Shape} (x z k : IVec s 32) (i : s.Idx) :
    select (cmpi .slt x z) (addi x k) x i = wrapWord (z i) (k i) (x i) := rfl

/-! ## A sum over the doubled edge list splits into the two directions -/

/-- With a target column and a source column of `T = R + R` rows that agree, in the first half and in the second, with two
    pairs of `R`-row columns, the sum of `X (source of e, c)` over the rows `e` whose target is `n` is the sum of the two
    pairs' sums. -/
theorem segment_sum_halves {T R N C w : ℕ} (hT : T = R + R) (hN : 0 < N)
    (tT sT : IVec ⟨2, ![T, 1]⟩ w) (t1 s1 t2 s2 : IVec ⟨2, ![R, 1]⟩ w)
    (ht1 : ∀ e : Fin R, rowNo tT ⟨e.val, by have := e.isLt; omega⟩ = rowNo t1 e)
    (hs1 : ∀ e : Fin R, rowNo sT ⟨e.val, by have := e.isLt; omega⟩ = rowNo s1 e)
    (ht2 : ∀ e : Fin R, rowNo tT ⟨R + e.val, by have := e.isLt; omega⟩ = rowNo t2 e)
    (hs2 : ∀ e : Fin R, rowNo sT ⟨R + e.val, by have := e.isLt; omega⟩ = rowNo s2 e)
    (X : (⟨2, ![N, C]⟩ : Shape).Idx → EReal) (n : Fin N) (c : Fin C) :
    ∑ e ∈ Finset.univ.filter (fun e : Fin T => rowNo tT e = (n.val : Int)), X (ix2 (clampRow N hN sT e) c)
      = ∑ e ∈ Finset.univ.filter (fun e : Fin R => rowNo t1 e = (n.val : Int)), X (ix2 (clampRow N hN s1 e) c)
        + ∑ e ∈ Finset.univ.filter (fun e : Fin R => rowNo t2 e = (n.val : Int)), X (ix2 (clampRow N hN s2 e) c) := by
  refine (sum_filter_halves hT _ _).trans ?_
  beta_reduce
  congr 1
  · refine Finset.sum_congr (Finset.filter_congr fun e _ => by rw [ht1 e]) fun e _ => ?_
    rw [clampRow_congr N hN sT s1 _ e (hs1 e)]
  · refine Finset.sum_congr (Finset.filter_congr fun e _ => by rw [ht2 e]) fun e _ => ?_
    rw [clampRow_congr N hN sT s2 _ e (hs2 e)]

/-- The same with every summand one constant: the count of the rows whose target is `n`, weighted. -/
theorem segment_count_halves {M : Type*} [AddCommMonoid M] {T R w : ℕ} (hT : T = R + R)
    (tT : IVec ⟨2, ![T, 1]⟩ w) (t1 t2 : IVec ⟨2, ![R, 1]⟩ w)
    (ht1 : ∀ e : Fin R, rowNo tT ⟨e.val, by have := e.isLt; omega⟩ = rowNo t1 e)
    (ht2 : ∀ e : Fin R, rowNo tT ⟨R + e.val, by have := e.isLt; omega⟩ = rowNo t2 e)
    (v : M) (n : Int) :
    ∑ _e ∈ Finset.univ.filter (fun e : Fin T => rowNo tT e = n), v
      = ∑ _e ∈ Finset.univ.filter (fun e : Fin R => rowNo t1 e = n), v
        + ∑ _e ∈ Finset.univ.filter (fun e : Fin R => rowNo t2 e = n), v := by
  refine (sum_filter_halves hT _ _).trans ?_
  beta_reduce
  congr 1
  · exact Finset.sum_congr (Finset.filter_congr fun e _ => by rw [ht1 e]) fun _ _ => rfl
  · exact Finset.sum_congr (Finset.filter_congr fun e _ => by rw [ht2 e]) fun _ _ => rfl

/-! ## The columns of a doubled vector, half by half -/

section Columns
variable {T R : ℕ} (hT : T = R + R)
  (hcat : Shape.Concatenates [(⟨1, ![R]⟩ : Shape), (⟨1, ![R]⟩ : Shape)] (⟨1, ![T]⟩ : Shape) 0)
  (hcolT : (⟨1, ![T]⟩ : Shape).BroadcastsInDim ⟨2, ![T, 1]⟩ ![0])
  (hcolR : (⟨1, ![R]⟩ : Shape).BroadcastsInDim ⟨2, ![R, 1]⟩ ![0])
  (a b : IVec ⟨1, ![R]⟩ 32)

/-- In its first half the column of `a ++ b` numbers its rows as the column of `a` does. -/
theorem rowNo_cat_first (e : Fin R) :
    rowNo (broadcastInDim ⟨2, ![T, 1]⟩ ![0] hcolT
        (concatenate (⟨1, ![T]⟩ : Shape) 0 [⟨(⟨1, ![R]⟩ : Shape), a⟩, ⟨(⟨1, ![R]⟩ : Shape), b⟩] hcat))
        ⟨e.val, by have := e.isLt; omega⟩
      = rowNo (broadcastInDim ⟨2, ![R, 1]⟩ ![0] hcolR a) e := by
  rw [rowNo_column, rowNo_column, concat_first hT hcat a b e]

/-- In its second half the column of `a ++ b` numbers its rows as the column of `b` does. -/
theorem rowNo_cat_second (e : Fin R) :
    rowNo (broadcastInDim ⟨2, ![T, 1]⟩ ![0] hcolT
        (concatenate (⟨1, ![T]⟩ : Shape) 0 [⟨(⟨1, ![R]⟩ : Shape), a⟩, ⟨(⟨1, ![R]⟩ : Shape), b⟩] hcat))
        ⟨R + e.val, by have := e.isLt; omega⟩
      = rowNo (broadcastInDim ⟨2, ![R, 1]⟩ ![0] hcolR b) e := by
  rw [rowNo_column, rowNo_column, concat_second hT hcat a b e]

variable (zT kT : IVec ⟨1, ![T]⟩ 32) (zR kR : IVec ⟨1, ![R]⟩ 32) (zw kw : BitVec 32)

/-- Wrapping `a ++ b` word by word and wrapping `a` give, in the first half, columns with the same row numbers. -/
theorem rowNo_wrap_cat_first (hzT : ∀ i, zT i = zw) (hkT : ∀ i, kT i = kw) (hzR : ∀ i, zR i = zw)
    (hkR : ∀ i, kR i = kw) (e : Fin R) :
    rowNo (broadcastInDim ⟨2, ![T, 1]⟩ ![0] hcolT
        (select (cmpi .slt (concatenate (⟨1, ![T]⟩ : Shape) 0 [⟨(⟨1, ![R]⟩ : Shape), a⟩, ⟨(⟨1, ![R]⟩ : Shape), b⟩] hcat) zT)
          (addi (concatenate (⟨1, ![T]⟩ : Shape) 0 [⟨(⟨1, ![R]⟩ : Shape), a⟩, ⟨(⟨1, ![R]⟩ : Shape), b⟩] hcat) kT)
          (concatenate (⟨1, ![T]⟩ : Shape) 0 [⟨(⟨1, ![R]⟩ : Shape), a⟩, ⟨(⟨1, ![R]⟩ : Shape), b⟩] hcat)))
        ⟨e.val, by have := e.isLt; omega⟩
      = rowNo (broadcastInDim ⟨2, ![R, 1]⟩ ![0] hcolR (select (cmpi .slt a zR) (addi a kR) a)) e := by
  rw [rowNo_column, rowNo_column, wrap_apply, wrap_apply, concat_first hT hcat a b e, hzT, hkT, hzR, hkR]

/-- The same in the second half, against the wrapped `b`. -/
theorem rowNo_wrap_cat_second (hzT : ∀ i, zT i = zw) (hkT : ∀ i, kT i = kw) (hzR : ∀ i, zR i = zw)
    (hkR : ∀ i, kR i = kw) (e : Fin R) :
    rowNo (broadcastInDim ⟨2, ![T, 1]⟩ ![0] hcolT
        (select (cmpi .slt (concatenate (⟨1, ![T]⟩ : Shape) 0 [⟨(⟨1, ![R]⟩ : Shape), a⟩, ⟨(⟨1, ![R]⟩ : Shape), b⟩] hcat) zT)
          (addi (concatenate (⟨1, ![T]⟩ : Shape) 0 [⟨(⟨1, ![R]⟩ : Shape), a⟩, ⟨(⟨1, ![R]⟩ : Shape), b⟩] hcat) kT)
          (concatenate (⟨1, ![T]⟩ : Shape) 0 [⟨(⟨1, ![R]⟩ : Shape), a⟩, ⟨(⟨1, ![R]⟩ : Shape), b⟩] hcat)))
        ⟨R + e.val, by have := e.isLt; omega⟩
      = rowNo (broadcastInDim ⟨2, ![R, 1]⟩ ![0] hcolR (select (cmpi .slt b zR) (addi b kR) b)) e := by
  rw [rowNo_column, rowNo_column, wrap_apply, wrap_apply, concat_second hT hcat a b e, hzT, hkT, hzR, hkR]

end Columns

/-! ## One gather and one scatter-add over the doubled list, against the two directions added -/

/-- The scatter-add into a rank-1 array at the ideal values, at an entry: the entry before plus the sum of the updates whose
    signed number is that entry. -/
theorem hostScatterAddCol_apply {φ : FTy} {N R w : ℕ} (wf : ScatterDims.WF ⟨1, ![N]⟩ ⟨2, ![R, 1]⟩ ⟨1, ![R]⟩ [] [0] [0] 1)
    (x : FVec Ideal ⟨1, ![N]⟩ φ) (idx : IVec ⟨2, ![R, 1]⟩ w) (u : FVec Ideal ⟨1, ![R]⟩ φ) (n : Fin N) :
    Host.scatterAdd (scatterCol N R wf) x idx u (ix1 n)
      = x (ix1 n) + ∑ e ∈ Finset.univ.filter (fun e : Fin R => rowNo idx e = (n.val : Int)), u (ix1 e) :=
  scatterAddCol_apply wf x idx u n

/-- NEIGHBOUR SUMS.  Gathering the (narrowed, then widened: unchanged) features at the wrapped `dst ++ src` and scatter-adding
    them into zeros at `src ++ dst` gives, entry by entry, what the two directions give when added: features gathered at the
    wrapped `dst` and scatter-added at `src`, plus features gathered at the wrapped `src` and scatter-added at `dst`. -/
theorem doubled_sum_eq {T R N C : ℕ} (hT : T = R + R) (hN : 0 < N)
    (wfsT : ScatterDims.WF ⟨2, ![N, C]⟩ ⟨2, ![T, 1]⟩ ⟨2, ![T, C]⟩ [1] [0] [0] 1)
    (wfgT : GatherDims.WF ⟨2, ![N, C]⟩ ⟨2, ![T, 1]⟩ ⟨2, ![T, C]⟩ [1] [0] [] [0] [] 1 ![1, C])
    (wfsR : ScatterDims.WF ⟨2, ![N, C]⟩ ⟨2, ![R, 1]⟩ ⟨2, ![R, C]⟩ [1] [0] [0] 1)
    (wfgR : GatherDims.WF ⟨2, ![N, C]⟩ ⟨2, ![R, 1]⟩ ⟨2, ![R, C]⟩ [1] [0] [] [0] [] 1 ![1, C])
    (hcat : Shape.Concatenates [(⟨1, ![R]⟩ : Shape), (⟨1, ![R]⟩ : Shape)] (⟨1, ![T]⟩ : Shape) 0)
    (hcolT : (⟨1, ![T]⟩ : Shape).BroadcastsInDim ⟨2, ![T, 1]⟩ ![0])
    (hcolR : (⟨1, ![R]⟩ : Shape).BroadcastsInDim ⟨2, ![R, 1]⟩ ![0])
    (hb : FTy.bits .bf16 < FTy.bits .f32)
    (X z z1 z2 : FVec Ideal ⟨2, ![N, C]⟩ .f32) (hz : ∀ i, z i = (0 : EReal)) (hz1 : ∀ i, z1 i = (0 : EReal))
    (hz2 : ∀ i, z2 i = (0 : EReal))
    (src dst : IVec ⟨1, ![R]⟩ 32) (zT kT : IVec ⟨1, ![T]⟩ 32) (zR kR zR' kR' : IVec ⟨1, ![R]⟩ 32) (zw kw : BitVec 32)
    (hzT : ∀ i, zT i = zw) (hkT : ∀ i, kT i = kw) (hzR : ∀ i, zR i = zw) (hkR : ∀ i, kR i = kw)
    (hzR' : ∀ i, zR' i = zw) (hkR' : ∀ i, kR' i = kw) (n : Fin N) (c : Fin C) :
    Host.scatterAdd (scatterRows N T C wfsT) z
        (broadcastInDim ⟨2, ![T, 1]⟩ ![0] hcolT
          (concatenate (⟨1, ![T]⟩ : Shape) 0 [⟨(⟨1, ![R]⟩ : Shape), src⟩, ⟨(⟨1, ![R]⟩ : Shape), dst⟩] hcat))
        (extf .f32 (Host.gather (gatherRows N T C wfgT) (truncf .bf16 X hb)
          (broadcastInDim ⟨2, ![T, 1]⟩ ![0] hcolT
            (select (cmpi .slt (concatenate (⟨1, ![T]⟩ : Shape) 0 [⟨(⟨1, ![R]⟩ : Shape), dst⟩, ⟨(⟨1, ![R]⟩ : Shape), src⟩] hcat) zT)
              (addi (concatenate (⟨1, ![T]⟩ : Shape) 0 [⟨(⟨1, ![R]⟩ : Shape), dst⟩, ⟨(⟨1, ![R]⟩ : Shape), src⟩] hcat) kT)
              (concatenate (⟨1, ![T]⟩ : Shape) 0 [⟨(⟨1, ![R]⟩ : Shape), dst⟩, ⟨(⟨1, ![R]⟩ : Shape), src⟩] hcat)))) hb)
        (ix2 n c)
      = addf
          (Host.scatterAdd (scatterRows N R C wfsR) z1 (broadcastInDim ⟨2, ![R, 1]⟩ ![0] hcolR src)
            (Host.gather (gatherRows N R C wfgR) X
              (broadcastInDim ⟨2, ![R, 1]⟩ ![0] hcolR (select (cmpi .slt dst zR) (addi dst kR) dst))))
          (Host.scatterAdd (scatterRows N R C wfsR) z2 (broadcastInDim ⟨2, ![R, 1]⟩ ![0] hcolR dst)
            (Host.gather (gatherRows N R C wfgR) X
              (broadcastInDim ⟨2, ![R, 1]⟩ ![0] hcolR (select (cmpi .slt src zR') (addi src kR') src))))
          (ix2 n c) := by
  have hk := scatterAdd_gather_zero_apply hN wfsT wfgT z X hz
    (broadcastInDim ⟨2, ![T, 1]⟩ ![0] hcolT
      (concatenate (⟨1, ![T]⟩ : Shape) 0 [⟨(⟨1, ![R]⟩ : Shape), src⟩, ⟨(⟨1, ![R]⟩ : Shape), dst⟩] hcat))
    (broadcastInDim ⟨2, ![T, 1]⟩ ![0] hcolT
      (select (cmpi .slt (concatenate (⟨1, ![T]⟩ : Shape) 0 [⟨(⟨1, ![R]⟩ : Shape), dst⟩, ⟨(⟨1, ![R]⟩ : Shape), src⟩] hcat) zT)
        (addi (concatenate (⟨1, ![T]⟩ : Shape) 0 [⟨(⟨1, ![R]⟩ : Shape), dst⟩, ⟨(⟨1, ![R]⟩ : Shape), src⟩] hcat) kT)
        (concatenate (⟨1, ![T]⟩ : Shape) 0 [⟨(⟨1, ![R]⟩ : Shape), dst⟩, ⟨(⟨1, ![R]⟩ : Shape), src⟩] hcat))) n c
  have h1 := scatterAdd_gather_zero_apply hN wfsR wfgR z1 X hz1 (broadcastInDim ⟨2, ![R, 1]⟩ ![0] hcolR src)
    (broadcastInDim ⟨2, ![R, 1]⟩ ![0] hcolR (select (cmpi .slt dst zR) (addi dst kR) dst)) n c
  have h2 := scatterAdd_gather_zero_apply hN wfsR wfgR z2 X hz2 (broadcastInDim ⟨2, ![R, 1]⟩ ![0] hcolR dst)
    (broadcastInDim ⟨2, ![R, 1]⟩ ![0] hcolR (select (cmpi .slt src zR') (addi src kR') src)) n c
  refine hk.trans ?_
  refine Eq.trans ?_ (congrArg₂ (· + ·) h1 h2).symm
  exact segment_sum_halves hT hN _ _ _ _ _ _
    (rowNo_cat_first hT hcat hcolT hcolR src dst)
    (rowNo_wrap_cat_first hT hcat hcolT hcolR dst src zT kT zR kR zw kw hzT hkT hzR hkR)
    (rowNo_cat_second hT hcat hcolT hcolR src dst)
    (rowNo_wrap_cat_second hT hcat hcolT hcolR dst src zT kT zR' kR' zw kw hzT hkT hzR' hkR')
    X n c

/-- DEGREES.  Scatter-adding one constant per directed edge into zeros at `src ++ dst`, then standing the result up as a
    column, gives at row `n` what scatter-adding the constant at `src` and at `dst` apart and adding the two gives at `n`. -/
theorem doubled_degree_eq {T R N : ℕ} (hT : T = R + R)
    (wfT : ScatterDims.WF ⟨1, ![N]⟩ ⟨2, ![T, 1]⟩ ⟨1, ![T]⟩ [] [0] [0] 1)
    (wfR : ScatterDims.WF ⟨1, ![N]⟩ ⟨2, ![R, 1]⟩ ⟨1, ![R]⟩ [] [0] [0] 1)
    (hcat : Shape.Concatenates [(⟨1, ![R]⟩ : Shape), (⟨1, ![R]⟩ : Shape)] (⟨1, ![T]⟩ : Shape) 0)
    (hcolT : (⟨1, ![T]⟩ : Shape).BroadcastsInDim ⟨2, ![T, 1]⟩ ![0])
    (hcolR : (⟨1, ![R]⟩ : Shape).BroadcastsInDim ⟨2, ![R, 1]⟩ ![0])
    (hcast : (⟨1, ![N]⟩ : Shape).ShapeCasts ⟨2, ![N, 1]⟩)
    (z z1 z2 : FVec Ideal ⟨1, ![N]⟩ .f32) (hz : ∀ i, z i = (0 : EReal)) (hz1 : ∀ i, z1 i = (0 : EReal))
    (hz2 : ∀ i, z2 i = (0 : EReal))
    (oT : FVec Ideal ⟨1, ![T]⟩ .f32) (oR : FVec Ideal ⟨1, ![R]⟩ .f32) (v : EReal) (hoT : ∀ i, oT i = v) (hoR : ∀ i, oR i = v)
    (src dst : IVec ⟨1, ![R]⟩ 32) (n : Fin N) (u : Fin 1) :
    shapeCast ⟨2, ![N, 1]⟩
        (Host.scatterAdd (scatterCol N T wfT) z
          (broadcastInDim ⟨2, ![T, 1]⟩ ![0] hcolT
            (concatenate (⟨1, ![T]⟩ : Shape) 0 [⟨(⟨1, ![R]⟩ : Shape), src⟩, ⟨(⟨1, ![R]⟩ : Shape), dst⟩] hcat)) oT)
        hcast (ix2 n u)
      = addf (Host.scatterAdd (scatterCol N R wfR) z1 (broadcastInDim ⟨2, ![R, 1]⟩ ![0] hcolR src) oR)
          (Host.scatterAdd (scatterCol N R wfR) z2 (broadcastInDim ⟨2, ![R, 1]⟩ ![0] hcolR dst) oR) (ix1 n) := by
  rw [shapeCast_a_a1_apply, addf_apply, hostScatterAddCol_apply, hostScatterAddCol_apply, hostScatterAddCol_apply,
    hz, hz1, hz2, zero_add, zero_add, zero_add]
  simp only [hoT, hoR]
  exact segment_count_halves hT _ _ _ (rowNo_cat_first hT hcat hcolT hcolR src dst)
    (rowNo_cat_second hT hcat hcolT hcolR src dst) v _

end Cert.HostBridge

end
-- ==== Proof.HostBridge.lean ====
/-
  The host bridge: the neighbour sums and the degrees the kernel's host code computes are the reference's.

  The kernel doubles the edge list and runs one gather and one scatter-add over it (and one scatter-add of ones for the
  degrees); the reference runs the two directions apart and adds.  Entry by entry both are the same finite sums: the
  doubled list's sum splits at the middle into the two directions' sums.  The general statement is proved over variables
  in the module on doubled edge lists; here the kernel's host terms, read off the launch memory in the module on the
  kernel's host terms, and the reference's stages are matched against it.
-/
import proofs.«169547_j85856396247142_2_alg».proof.Proof.HostKernelTerm
import proofs.«169547_j85856396247142_2_alg».proof.Proof.HostEdgeSums
import proofs.«169547_j85856396247142_2_alg».proof.Proof.RefRead

noncomputable section

open scoped BigOperators

namespace Cert.HostBridge

open Idealize.ShloMosaic Idealize.ShloMosaic.ValueIdx Idealize.ShloMosaic.RowScatter

/-! ## Constants spread over an array, read at an entry -/

/-- A scalar spread over an array reads, at every entry, the scalar's one value. -/
theorem splat_apply {α : Type} {t : Shape} (h : (⟨0, ![]⟩ : Shape).BroadcastsInDim t ![]) (x : (⟨0, ![]⟩ : Shape).Idx → α)
    (i : t.Idx) : broadcastInDim t ![] h x i = x ix0 :=
  broadcastInDim_apply ![] h x i ix0 (fun a => a.elim0)

/-- The zero word spread over an array is the extended real `0` at every entry. -/
theorem zeros_apply {t : Shape} (h : (⟨0, ![]⟩ : Shape).BroadcastsInDim t ![]) (i : t.Idx) :
    broadcastInDim t ![] h (constant (F := Ideal) ⟨0, ![]⟩ .f32 0x00000000#32) i = (0 : EReal) := by
  rw [splat_apply, constant_apply, Ideal.ofBits_zero_f32]

/-- A float word spread over an array is, at every entry, the extended real the word denotes. -/
theorem floats_apply {t : Shape} (h : (⟨0, ![]⟩ : Shape).BroadcastsInDim t ![]) (b : BitVec 32) (i : t.Idx) :
    broadcastInDim t ![] h (constant (F := Ideal) ⟨0, ![]⟩ .f32 b) i = Ideal.ofBits .f32 b := by
  rw [splat_apply, constant_apply]

/-- An integer word spread over an array is that word at every entry. -/
theorem words_apply {t : Shape} (h : (⟨0, ![]⟩ : Shape).BroadcastsInDim t ![]) (b : BitVec 32) (i : t.Idx) :
    broadcastInDim t ![] h (constantI ⟨0, ![]⟩ 32 b) i = b := by
  rw [splat_apply]; rfl

/-! ## The kernel's host terms against the reference's stages, over variables -/

section OverVariables
open Cert.ReferenceIdeal.Read

variable (X : FVec Ideal ⟨2, ![100000, 64]⟩ .f32) (E : IVec ⟨2, ![2, 1600000]⟩ 32)

/-- The reference's first vector of ends is row 0 of the edge array. -/
theorem ref_src_eq : val_main_v1 (F := Ideal) E = edgeRow0 E := rfl

/-- The reference's second vector of ends is row 1 of the edge array. -/
theorem ref_dst_eq : val_main_v3 (F := Ideal) E = edgeRow1 E := rfl

/-- The kernel's neighbour sums are the reference's, entry by entry. -/
theorem kernelSum_eq_ref (n : Fin 100000) (k : Fin 64) :
    kernelSum X (edgeRow0 E) (edgeRow1 E) (ix2 n k) = val_main_v51 (F := Ideal) X E (ix2 n k) := by
  unfold val_main_v51 val_main_v40 val_main_v50 val_main_v37 val_main_v47 val_main_v39 val_main_v49 val_main_v36
    val_main_v46 val_main_v35 val_main_v45 val_main_v32 val_main_v42 val_main_v34 val_main_v44 kernelSum
  rw [ref_src_eq, ref_dst_eq]
  exact doubled_sum_eq (T := 3200000) (R := 1600000) (N := 100000) (C := 64) (by norm_num) (by norm_num)
    Cert.KernelIdeal.Gen.scatter_S100000x64_S3200000x1_S3200000x64_1_0_0_1_wf
    Cert.KernelIdeal.Gen.gather_S100000x64_S3200000x1_S3200000x64_1_0_n_n_0_1_164_wf
    Cert.ReferenceIdeal.Gen.scatter_S100000x64_S1600000x1_S1600000x64_1_0_0_1_wf
    Cert.ReferenceIdeal.Gen.gather_S100000x64_S1600000x1_S1600000x64_1_0_n_n_0_1_164_wf
    Cert.KernelIdeal.Gen.concatenates_S1600000_S1600000_S3200000_d0
    Cert.KernelIdeal.Gen.bcast_S3200000_S3200000x1_0
    Cert.ReferenceIdeal.Gen.bcast_S1600000_S1600000x1_0
    Cert.KernelIdeal.Gen.bitsLt_bf16_f32
    X _ (val_main_v38 (F := Ideal)) (val_main_v48 (F := Ideal))
    (fun i => zeros_apply Cert.KernelIdeal.Gen.bcast_S_S100000x64 i)
    (fun i => by rw [val_main_v38_apply, val_main_cst_8_apply]; exact Ideal.ofBits_zero_f32)
    (fun i => by rw [val_main_v48_apply, val_main_cst_11_apply]; exact Ideal.ofBits_zero_f32)
    (edgeRow0 E) (edgeRow1 E) _ _ (val_main_v31 (F := Ideal)) (val_main_v33 (F := Ideal)) (val_main_v41 (F := Ideal))
    (val_main_v43 (F := Ideal)) 0#32 100000#32
    (fun i => words_apply Cert.KernelIdeal.Gen.bcast_S_S3200000 0#32 i)
    (fun i => words_apply Cert.KernelIdeal.Gen.bcast_S_S3200000 100000#32 i)
    (fun i => by rw [val_main_v31_apply, val_main_c_apply])
    (fun i => by rw [val_main_v33_apply, val_main_c_7_apply])
    (fun i => by rw [val_main_v41_apply, val_main_c_9_apply])
    (fun i => by rw [val_main_v43_apply, val_main_c_10_apply])
    n k

/-- The kernel's degree column is the reference's degrees, row by row. -/
theorem kernelDeg_eq_ref (n : Fin 100000) :
    kernelDeg (edgeRow0 E) (edgeRow1 E) (ix2 n (0 : Fin 1)) = val_main_v24 (F := Ideal) E (ix1 n) := by
  unfold val_main_v24 val_main_v20 val_main_v23 val_main_v19 val_main_v22 kernelDeg
  rw [ref_src_eq, ref_dst_eq]
  exact doubled_degree_eq (T := 3200000) (R := 1600000) (N := 100000) (by norm_num)
    Cert.KernelIdeal.Gen.scatter_S100000_S3200000x1_S3200000_n_0_0_1_wf
    Cert.ReferenceIdeal.Gen.scatter_S100000_S1600000x1_S1600000_n_0_0_1_wf
    Cert.KernelIdeal.Gen.concatenates_S1600000_S1600000_S3200000_d0
    Cert.KernelIdeal.Gen.bcast_S3200000_S3200000x1_0
    Cert.ReferenceIdeal.Gen.bcast_S1600000_S1600000x1_0
    Cert.KernelIdeal.Gen.shapeCasts_S100000_S100000x1
    _ (val_main_v18 (F := Ideal)) (val_main_v21 (F := Ideal))
    (fun i => zeros_apply Cert.KernelIdeal.Gen.bcast_S_S100000 i)
    (fun i => by rw [val_main_v18_apply, val_main_cst_3_apply]; exact Ideal.ofBits_zero_f32)
    (fun i => by rw [val_main_v21_apply, val_main_cst_4_apply]; exact Ideal.ofBits_zero_f32)
    _ (val_main_v17 (F := Ideal)) (Ideal.ofBits .f32 0x3F800000#32)
    (fun i => floats_apply Cert.KernelIdeal.Gen.bcast_S_S3200000 0x3F800000#32 i)
    (fun i => by rw [val_main_v17_apply, val_main_cst_2_apply]; rfl)
    (edgeRow0 E) (edgeRow1 E) n 0

end OverVariables

/-! ## The two arrays the grid reads are the reference's -/

section Bridge
open Idealize.ShloMosaic.TcCoe Idealize.SL.Sem

variable (m : (ℓ : Loc Cert.KernelIdeal.nD Cert.KernelIdeal.τ Cert.KernelIdeal.sig) → Buf (Elt Ideal) ℓ)
  (c : Dev Cert.KernelIdeal.nD)

/-- NEIGHBOUR SUMS: the array of neighbour sums the kernel's grid reads is, entry by entry, the reference's neighbour sums
    of the launch memory's features and edge array. -/
theorem nsum_bridge (n : Fin 100000) (k : Fin 64) :
    (Cert.KernelIdeal.Gen.V m c Cert.KernelIdeal.main_v21 : Cert.KernelIdeal.S100000x64.Idx → EReal) (ix2 n k)
      = Cert.ReferenceIdeal.Read.val_main_v51 (F := Ideal)
          (m ((c : Thread Cert.KernelIdeal.nD Cert.KernelIdeal.τ).loc Cert.KernelIdeal.main_arg0))
          (m ((c : Thread Cert.KernelIdeal.nD Cert.KernelIdeal.τ).loc Cert.KernelIdeal.main_arg2)) (ix2 n k) :=
  (congrFun (V_main_v21_eq m c) (ix2 n k)).trans (kernelSum_eq_ref _ _ n k)

/-- DEGREES: the degree column the kernel's grid reads is, row by row, the reference's degrees of the launch memory's edge
    array. -/
theorem deg_bridge (n : Fin 100000) :
    (Cert.KernelIdeal.Gen.V m c Cert.KernelIdeal.main_v22 : Cert.KernelIdeal.S100000x1.Idx → EReal) (ix2 n (0 : Fin 1))
      = Cert.ReferenceIdeal.Read.val_main_v24 (F := Ideal)
          (m ((c : Thread Cert.KernelIdeal.nD Cert.KernelIdeal.τ).loc Cert.KernelIdeal.main_arg2)) (ix1 n) :=
  (congrFun (V_main_v22_eq m c) (ix2 n (0 : Fin 1))).trans (kernelDeg_eq_ref _ n)

end Bridge

end Cert.HostBridge

end
-- ==== Proof.LibDenseRows.lean ====
/-
  Rows of dense layers read at an entry: a block of consecutive columns (or rows) of a matrix, two matrices set side
  by side along the columns, and a bias vector laid out as a row and repeated down the rows.

  For a matrix `x` with `n` columns, the block of `k` columns starting at column `c0` holds at `(r, e)` the entry
  `x (r, c0 + e)`; the block of `k` rows starting at row `r0` holds at `(e, c)` the entry `x (r0 + e, c)`. Two matrices
  with `k1` and `k2` columns set side by side hold at `(r, e)` the left one's `(r, e)` when `e < k1` and the right one's
  `(r, e - k1)` otherwise. A vector `v` of length `b` viewed as a `1 × b` row and repeated over `a` rows holds `v c` at
  `(r, c)`.
-/
import Idealize.ShloMosaic.Lib.ValueIdx
import Idealize.ShloMosaic.Lib.Pipeline.Value
import Idealize.ShloMosaic.Lib.ValueLayout

noncomputable section

namespace Cert.DenseRows

open Idealize.ShloMosaic Idealize.ShloMosaic.ValueIdx

variable {α : Type}

/-- A block of consecutive columns at an entry. -/
theorem sliceCols_apply {a n k : ℕ} (c0 : ℕ) (x : (⟨2, ![a, n]⟩ : Shape).Idx → α)
    (h : (⟨2, ![a, n]⟩ : Shape).Slices ![0, c0] ⟨2, ![a, k]⟩) (r : Fin a) (e : Fin k) (hb : c0 + e.val < n) :
    extractStridedSlice ⟨2, ![a, k]⟩ ![0, c0] x h (ix2 r e) = x (ix2 r ⟨c0 + e.val, hb⟩) :=
  extractStridedSlice_apply _ x h _ _ (fun ax => by
    match ax with
    | ⟨0, _⟩ => show r.val = 0 + r.val; omega
    | ⟨1, _⟩ => rfl)

/-- A block of consecutive rows at an entry. -/
theorem sliceRows_apply {n b k : ℕ} (r0 : ℕ) (x : (⟨2, ![n, b]⟩ : Shape).Idx → α)
    (h : (⟨2, ![n, b]⟩ : Shape).Slices ![r0, 0] ⟨2, ![k, b]⟩) (e : Fin k) (c : Fin b) (hb : r0 + e.val < n) :
    extractStridedSlice ⟨2, ![k, b]⟩ ![r0, 0] x h (ix2 e c) = x (ix2 ⟨r0 + e.val, hb⟩ c) :=
  extractStridedSlice_apply _ x h _ _ (fun ax => by
    match ax with
    | ⟨0, _⟩ => rfl
    | ⟨1, _⟩ => show c.val = 0 + c.val; omega)

/-- Two matrices side by side, at an entry of the left one. -/
theorem concatCols_left {a k1 k2 k : ℕ} (x₁ : (⟨2, ![a, k1]⟩ : Shape).Idx → α) (x₂ : (⟨2, ![a, k2]⟩ : Shape).Idx → α)
    (h : Shape.Concatenates [(⟨2, ![a, k1]⟩ : Shape), (⟨2, ![a, k2]⟩ : Shape)] (⟨2, ![a, k]⟩ : Shape) 1)
    (r : Fin a) (e : Fin k) (he : e.val < k1) :
    concatenate (⟨2, ![a, k]⟩ : Shape) 1 [⟨(⟨2, ![a, k1]⟩ : Shape), x₁⟩, ⟨(⟨2, ![a, k2]⟩ : Shape), x₂⟩] h (ix2 r e)
      = x₁ (ix2 r ⟨e.val, he⟩) :=
  concatenate_pair_apply_left 1 x₁ x₂ h (ix2 r e) rfl (ix2 r ⟨e.val, he⟩) (fun b => by
    match b with
    | ⟨0, _⟩ => rfl
    | ⟨1, _⟩ => rfl)

/-- Two matrices side by side, at an entry of the right one. -/
theorem concatCols_right {a k1 k2 k : ℕ} (x₁ : (⟨2, ![a, k1]⟩ : Shape).Idx → α) (x₂ : (⟨2, ![a, k2]⟩ : Shape).Idx → α)
    (h : Shape.Concatenates [(⟨2, ![a, k1]⟩ : Shape), (⟨2, ![a, k2]⟩ : Shape)] (⟨2, ![a, k]⟩ : Shape) 1)
    (r : Fin a) (e : Fin k) (he : k1 ≤ e.val) (hb : e.val - k1 < k2) :
    concatenate (⟨2, ![a, k]⟩ : Shape) 1 [⟨(⟨2, ![a, k1]⟩ : Shape), x₁⟩, ⟨(⟨2, ![a, k2]⟩ : Shape), x₂⟩] h (ix2 r e)
      = x₂ (ix2 r ⟨e.val - k1, hb⟩) :=
  concatenate_pair_apply_right 1 x₁ x₂ h (ix2 r e) rfl rfl (ix2 r ⟨e.val - k1, hb⟩) (fun b hne => by
    match b with
    | ⟨0, _⟩ => rfl
    | ⟨1, _⟩ => exact absurd rfl hne) (by show (e.val - k1) + k1 = e.val; omega)

/-- A bias vector as a row, repeated down the rows, at an entry. -/
theorem biasRow_apply {a b : ℕ} (v : (⟨1, ![b]⟩ : Shape).Idx → α)
    (h1 : (⟨1, ![b]⟩ : Shape).ShapeCasts ⟨2, ![1, b]⟩) (h2 : (⟨2, ![1, b]⟩ : Shape).Broadcasts ⟨2, ![a, b]⟩)
    (r : Fin a) (c : Fin b) :
    broadcastTo ⟨2, ![a, b]⟩ (shapeCast ⟨2, ![1, b]⟩ v h1) h2 (ix2 r c) = v (ix1 c) := by
  rw [broadcastTo_1b_ab_apply, shapeCast_a_1a_apply]

end Cert.DenseRows

end
-- ==== Proof.RefRows.lean ====
/-
  The reference's result, row by row, is the node specification.

  Every stage of the reference that depends on one node only is read at that node and identified with the node
  specification's term of the same name, in four steps.
  * The candidate mask: row n of the four scores goes through a softmax (the row's maximum, a running maximum from the
    least extended real taken once more against it; the exponentials of the differences; their sum; the quotient at the
    first entry); the node is a candidate when that quotient exceeds 1/2 and the degree is positive, and the one-bit
    answer is read as a number.
  * The first dense layer: its input row is the node's feature row followed by the neighbours' mean (the neighbour sum
    over max(degree, 1)); the product with the 128 × 128 matrix is a sum over 128 positions, split into the 64 that meet
    the features and the 64 that meet the mean.
  * The remaining layers: the second layer; the third layer's 67 columns, of which the first three are the positions
    and the last 64 the features; the hidden layer on the features; and the probability, spelt 1 / (1 + exp (−t)), which
    is the logistic function.
  * The result row: the three bands side by side (columns 0–2, 3–66 and 67), every entry times the node's mask, which
    is kept as a column and repeated along the row.
  The neighbour sum and the degree are never opened: they enter as the values the reference holds for them.
-/
import proofs.«169547_j85856396247142_2_alg».proof.Proof.RefRead
import proofs.«169547_j85856396247142_2_alg».proof.Proof.NodeSpec
import proofs.«169547_j85856396247142_2_alg».proof.Proof.LibColumnLayout
import proofs.«169547_j85856396247142_2_alg».proof.Proof.LibDenseRows
import Idealize.ShloMosaic.PureOps.Reduce
import Idealize.ShloMosaic.PureOps.Ideal.Laws
import Idealize.ShloMosaic.Lib.IdealHost

noncomputable section

open scoped BigOperators

namespace Cert.RefRows

open Idealize.ShloMosaic Idealize.ShloMosaic.ValueIdx Cert.ReferenceIdeal Cert.ReferenceIdeal.Gen Cert.ReferenceIdeal.Read

section Mask

/-- Row n's index with the score coordinate k put back on the reduced axis. -/
theorem lift_scores (h : S100000x4.Reduces [1] S100000) (n : Fin 100000) (k : Fin (S100000x4.size 1)) :
    h.lift (ix1 n) k = ix2 n (⟨k.val, k.isLt⟩ : Fin 4) := by
  funext c; apply Fin.ext
  match c with
  | ⟨0, _⟩ => rfl
  | ⟨1, _⟩ => rfl

/-- The running maximum of row n of the scores. -/
theorem scoreMax_at (x1 : (⟨S100000x4, .f32⟩ : BufTy).Contents (Elt Ideal)) (n : Fin 100000) :
    val_main_v6 (F := Ideal) x1 (ix1 n) = Cert.NodeNet.rowMax (fun k => x1 (ix2 n k)) := by
  have h : S100000x4.Reduces [1] S100000 := by decide
  rw [val_main_v6_apply, val_main_v5_apply, val_main_cst_0_apply]
  unfold val_main_v4
  rw [Host.reduce_eq_fold_single (FloatOps.maximumf (F := Ideal) (φ := .f32)) x1 _ reducesTo_S100000x4_S100000_d1 h h_S_,
    val_main_cst_apply]
  have hf : (x1 ∘ h.lift (ix1 n)) = fun k : Fin 4 => x1 (ix2 n k) := funext fun k => congrArg x1 (lift_scores h n k)
  show max (Ideal.ofBits .f32 0xFF800000#32)
      ((Finset.univ : Finset (Fin 4)).fold max (Ideal.ofBits .f32 0xFF800000#32) (x1 ∘ h.lift (ix1 n))) = _
  rw [Idealize.ShloMosaic.ColumnLayout.ofBits_neg_inf_f32, hf]
  rfl

/-- The exponential of a score less the row's maximum, at (n, k). -/
theorem expo_at (x1 : (⟨S100000x4, .f32⟩ : BufTy).Contents (Elt Ideal)) (n : Fin 100000) (k : Fin 4) :
    val_main_v10 (F := Ideal) x1 (ix2 n k) = Ideal.exp (x1 (ix2 n k) - Cert.NodeNet.rowMax (fun k => x1 (ix2 n k))) := by
  have e8 : idx_main_v8 (ix2 n k) = ix2 n (0 : Fin 1) := funext fun a => by match a with | ⟨0, _⟩ => rfl | ⟨1, _⟩ => rfl
  have e7 : idx_main_v7 (ix2 n (0 : Fin 1)) = ix1 n := funext fun a => by match a with | ⟨0, _⟩ => rfl
  rw [val_main_v10_apply, val_main_v9_apply, val_main_v8_apply, e8, val_main_v7_apply, e7, scoreMax_at]
  rfl

/-- The sum of row n's four exponentials. -/
theorem expoSum_at (x1 : (⟨S100000x4, .f32⟩ : BufTy).Contents (Elt Ideal)) (n : Fin 100000) :
    val_main_v11 (F := Ideal) x1 (ix1 n) = ∑ k : Fin 4, Ideal.exp (x1 (ix2 n k) - Cert.NodeNet.rowMax (fun k => x1 (ix2 n k))) := by
  have e11 : ∀ k : Fin 4, idx_main_v11 (ix1 n) k = ix2 n k := fun k => funext fun a => by match a with | ⟨0, _⟩ => rfl | ⟨1, _⟩ => rfl
  rw [val_main_v11_apply, val_main_cst_1_apply, Ideal.ofBits_def, Ideal.ofBits_zero_f32, zero_add]
  exact Finset.sum_congr rfl fun k _ => by rw [e11 k, expo_at]

/-- The softmax of row n at its first entry. -/
theorem insert_at (x1 : (⟨S100000x4, .f32⟩ : BufTy).Contents (Elt Ideal)) (n : Fin 100000) :
    val_main_v16 (F := Ideal) x1 (ix1 n) = Cert.NodeNet.insertProb (fun k => x1 (ix2 n k)) := by
  have e16 : idx_main_v16 (ix1 n) = ix2 n (0 : Fin 1) := funext fun a => by
    match a with
    | ⟨0, _⟩ => exact Fin.ext (Nat.div_one _)
    | ⟨1, _⟩ => rfl
  have e15 : idx_main_v15 (ix2 n (0 : Fin 1)) = ix2 n (0 : Fin 4) := funext fun a => by match a with | ⟨0, _⟩ => rfl | ⟨1, _⟩ => rfl
  have e13 : idx_main_v13 (ix2 n (0 : Fin 4)) = ix2 n (0 : Fin 1) := funext fun a => by match a with | ⟨0, _⟩ => rfl | ⟨1, _⟩ => rfl
  have e12 : idx_main_v12 (ix2 n (0 : Fin 1)) = ix1 n := funext fun a => by match a with | ⟨0, _⟩ => rfl
  rw [val_main_v16_apply, e16, val_main_v15_apply, e15, val_main_v14_apply, val_main_v13_apply, e13, val_main_v12_apply, e12,
    expo_at, expoSum_at]
  rfl

/-- The candidate mask of node n, as a number. -/
theorem mask_at (x1 : (⟨S100000x4, .f32⟩ : BufTy).Contents (Elt Ideal)) (x2 : (⟨S2x1600000, .i32⟩ : BufTy).Contents (Elt Ideal)) (n : Fin 100000) :
    val_main_v30 (F := Ideal) x1 x2 (ix1 n)
      = Cert.NodeNet.mask (fun k => x1 (ix2 n k)) (val_main_v24 (F := Ideal) x2 (ix1 n)) := by
  rw [val_main_v30_apply, val_main_v29_apply, val_main_v26_apply, val_main_v28_apply, val_main_v25_apply,
    val_main_cst_5_apply, val_main_v27_apply, val_main_cst_6_apply, insert_at]
  rfl

end Mask

section FirstLayer

/-- A sum over 128 positions is the sum over the first 64 plus the sum over the last 64. -/
theorem sum_halves (f : Fin 128 → EReal) :
    ∑ e : Fin 128, f e = (∑ k : Fin 64, f ⟨k.val, by omega⟩) + ∑ k : Fin 64, f ⟨64 + k.val, by omega⟩ :=
  Fin.sum_univ_add (a := 64) (b := 64) f

variable (x0 : (⟨S100000x64, .f32⟩ : BufTy).Contents (Elt Ideal)) (x1 : (⟨S100000x4, .f32⟩ : BufTy).Contents (Elt Ideal)) (x2 : (⟨S2x1600000, .i32⟩ : BufTy).Contents (Elt Ideal)) (x3 : (⟨S128x128, .f32⟩ : BufTy).Contents (Elt Ideal)) (x4 : (⟨S128, .f32⟩ : BufTy).Contents (Elt Ideal)) (x5 : (⟨S128x64, .f32⟩ : BufTy).Contents (Elt Ideal)) (x6 : (⟨S64, .f32⟩ : BufTy).Contents (Elt Ideal)) (x7 : (⟨S64x67, .f32⟩ : BufTy).Contents (Elt Ideal)) (x8 : (⟨S67, .f32⟩ : BufTy).Contents (Elt Ideal)) (x9 : (⟨S64x32, .f32⟩ : BufTy).Contents (Elt Ideal)) (x10 : (⟨S32, .f32⟩ : BufTy).Contents (Elt Ideal)) (x11 : (⟨S32x1, .f32⟩ : BufTy).Contents (Elt Ideal)) (x12 : (⟨S1, .f32⟩ : BufTy).Contents (Elt Ideal))

/-- The neighbours' mean at (n, k): the neighbour sum over max(degree, 1). -/
theorem mean_at (n : Fin 100000) (k : Fin 64) :
    val_main_v56 (F := Ideal) x0 x2 (ix2 n k)
      = Cert.NodeNet.nmean (fun k => val_main_v51 (F := Ideal) x0 x2 (ix2 n k)) (val_main_v24 (F := Ideal) x2 (ix1 n)) k := by
  have e55 : idx_main_v55 (ix2 n k) = ix2 n (0 : Fin 1) :=
    funext fun a => by match a with | ⟨0, _⟩ => rfl | ⟨1, _⟩ => rfl
  have e54 : idx_main_v54 (ix2 n (0 : Fin 1)) = ix1 n :=
    funext fun a => by match a with | ⟨0, _⟩ => rfl
  rw [val_main_v56_apply, val_main_v55_apply, e55, val_main_v54_apply, e54, val_main_v53_apply, val_main_v52_apply,
    val_main_cst_12_apply]
  rfl

/-- The layer's input at one of its first 64 columns: the node's feature. -/
theorem ctx_left (n : Fin 100000) (k : Fin 64) :
    val_main_v57 (F := Ideal) x0 x2 (ix2 n (⟨k.val, by omega⟩ : Fin 128)) = x0 (ix2 n k) := by
  unfold val_main_v57
  generalize val_main_v56 (F := Ideal) x0 x2 = y
  exact Cert.DenseRows.concatCols_left x0 y concatenates_S100000x64_S100000x64_S100000x128_d1 n
    (⟨k.val, by omega⟩ : Fin 128) k.isLt

/-- The layer's input at one of its last 64 columns: the neighbours' mean. -/
theorem ctx_right (n : Fin 100000) (k : Fin 64) :
    val_main_v57 (F := Ideal) x0 x2 (ix2 n (⟨64 + k.val, by omega⟩ : Fin 128)) = val_main_v56 (F := Ideal) x0 x2 (ix2 n k) := by
  unfold val_main_v57
  generalize val_main_v56 (F := Ideal) x0 x2 = y
  refine (Cert.DenseRows.concatCols_right x0 y concatenates_S100000x64_S100000x64_S100000x128_d1 n
    (⟨64 + k.val, by omega⟩ : Fin 128) (by show 64 ≤ 64 + k.val; omega) (by show 64 + k.val - 64 < 64; omega)).trans ?_
  exact congrArg (fun q => y (ix2 n q)) (Fin.ext (by show 64 + k.val - 64 = k.val; omega))

/-- The first layer's activation at (n, j). -/
theorem act1_at (n : Fin 100000) (j : Fin 128) :
    val_main_v62 (F := Ideal) x0 x2 x3 x4 (ix2 n j)
      = Cert.NodeNet.layer1 (Cert.NodeNet.Weights.ofArrays x3 x4 x5 x6 x7 x8 x9 x10 x11 x12) (fun k => x0 (ix2 n k))
          (Cert.NodeNet.nmean (fun k => val_main_v51 (F := Ideal) x0 x2 (ix2 n k)) (val_main_v24 (F := Ideal) x2 (ix1 n))) j := by
  have el : ∀ k : Fin 128, lidx_main_v58 (ix2 n j) k = ix2 n k := fun k =>
    funext fun a => by match a with | ⟨0, _⟩ => rfl | ⟨1, _⟩ => rfl
  have er : ∀ k : Fin 128, ridx_main_v58 (ix2 n j) k = ix2 k j := fun k =>
    funext fun a => by match a with | ⟨0, _⟩ => rfl | ⟨1, _⟩ => rfl
  have e60 : idx_main_v60 (ix2 n j) = ix2 (0 : Fin 1) j :=
    funext fun a => by match a with | ⟨0, _⟩ => rfl | ⟨1, _⟩ => rfl
  have e59 : idx_main_v59 (ix2 (0 : Fin 1) j) = ix1 j :=
    funext fun a => by match a with | ⟨0, _⟩ => rfl
  rw [val_main_v62_apply, val_main_call0_v0_apply, val_main_call0_cst_apply, val_main_v61_apply, val_main_v60_apply, e60,
    val_main_v59_apply, e59, val_main_v58_apply]
  have hs : (∑ k : Fin 128, val_main_v57 (F := Ideal) x0 x2 (lidx_main_v58 (ix2 n j) k) * x3 (ridx_main_v58 (ix2 n j) k))
      = ∑ k : Fin 128, val_main_v57 (F := Ideal) x0 x2 (ix2 n k) * x3 (ix2 k j) :=
    Finset.sum_congr rfl fun k _ => by rw [el k, er k]
  rw [hs, sum_halves]
  simp only [ctx_left, ctx_right, mean_at]
  rfl

end FirstLayer

section Layers

variable (x0 : (⟨S100000x64, .f32⟩ : BufTy).Contents (Elt Ideal)) (x1 : (⟨S100000x4, .f32⟩ : BufTy).Contents (Elt Ideal)) (x2 : (⟨S2x1600000, .i32⟩ : BufTy).Contents (Elt Ideal)) (x3 : (⟨S128x128, .f32⟩ : BufTy).Contents (Elt Ideal)) (x4 : (⟨S128, .f32⟩ : BufTy).Contents (Elt Ideal)) (x5 : (⟨S128x64, .f32⟩ : BufTy).Contents (Elt Ideal)) (x6 : (⟨S64, .f32⟩ : BufTy).Contents (Elt Ideal)) (x7 : (⟨S64x67, .f32⟩ : BufTy).Contents (Elt Ideal)) (x8 : (⟨S67, .f32⟩ : BufTy).Contents (Elt Ideal)) (x9 : (⟨S64x32, .f32⟩ : BufTy).Contents (Elt Ideal)) (x10 : (⟨S32, .f32⟩ : BufTy).Contents (Elt Ideal)) (x11 : (⟨S32x1, .f32⟩ : BufTy).Contents (Elt Ideal)) (x12 : (⟨S1, .f32⟩ : BufTy).Contents (Elt Ideal))

/-- The second layer's activation at (n, j). -/
theorem act2_at (n : Fin 100000) (j : Fin 64) :
    val_main_v67 (F := Ideal) x0 x2 x3 x4 x5 x6 (ix2 n j)
      = Cert.NodeNet.act2 (Cert.NodeNet.Weights.ofArrays x3 x4 x5 x6 x7 x8 x9 x10 x11 x12) (fun k => x0 (ix2 n k)) (fun k => val_main_v51 (F := Ideal) x0 x2 (ix2 n k)) (val_main_v24 (F := Ideal) x2 (ix1 n)) j := by
  have el : ∀ k : Fin 128, lidx_main_v63 (ix2 n j) k = ix2 n k := fun k => funext fun a => by match a with | ⟨0, _⟩ => rfl | ⟨1, _⟩ => rfl
  have er : ∀ k : Fin 128, ridx_main_v63 (ix2 n j) k = ix2 k j := fun k => funext fun a => by match a with | ⟨0, _⟩ => rfl | ⟨1, _⟩ => rfl
  have e65 : idx_main_v65 (ix2 n j) = ix2 (0 : Fin 1) j := funext fun a => by match a with | ⟨0, _⟩ => rfl | ⟨1, _⟩ => rfl
  have e64 : idx_main_v64 (ix2 (0 : Fin 1) j) = ix1 j := funext fun a => by match a with | ⟨0, _⟩ => rfl
  rw [val_main_v67_apply, val_main_call1_v0_apply, val_main_call1_cst_apply, val_main_v66_apply, val_main_v65_apply, e65,
    val_main_v64_apply, e64, val_main_v63_apply]
  have hs : (∑ k : Fin 128, val_main_v62 (F := Ideal) x0 x2 x3 x4 (lidx_main_v63 (ix2 n j) k) * x5 (ridx_main_v63 (ix2 n j) k))
      = ∑ k : Fin 128, Cert.NodeNet.layer1 (Cert.NodeNet.Weights.ofArrays x3 x4 x5 x6 x7 x8 x9 x10 x11 x12) (fun k => x0 (ix2 n k))
          (Cert.NodeNet.nmean (fun k => val_main_v51 (F := Ideal) x0 x2 (ix2 n k)) (val_main_v24 (F := Ideal) x2 (ix1 n))) k
            * x5 (ix2 k j) :=
    Finset.sum_congr rfl fun k _ => by rw [el k, er k, act1_at x0 x2 x3 x4 x5 x6 x7 x8 x9 x10 x11 x12 n k]
  rw [hs]
  rfl

/-- The third layer's output at (n, c), all 67 columns. -/
theorem gen_at (n : Fin 100000) (c : Fin 67) :
    val_main_v71 (F := Ideal) x0 x2 x3 x4 x5 x6 x7 x8 (ix2 n c)
      = (∑ k : Fin 64, Cert.NodeNet.act2 (Cert.NodeNet.Weights.ofArrays x3 x4 x5 x6 x7 x8 x9 x10 x11 x12) (fun k => x0 (ix2 n k)) (fun k => val_main_v51 (F := Ideal) x0 x2 (ix2 n k)) (val_main_v24 (F := Ideal) x2 (ix1 n)) k * x7 (ix2 k c)) + x8 (ix1 c) := by
  have el : ∀ k : Fin 64, lidx_main_v68 (ix2 n c) k = ix2 n k := fun k => funext fun a => by match a with | ⟨0, _⟩ => rfl | ⟨1, _⟩ => rfl
  have er : ∀ k : Fin 64, ridx_main_v68 (ix2 n c) k = ix2 k c := fun k => funext fun a => by match a with | ⟨0, _⟩ => rfl | ⟨1, _⟩ => rfl
  have e70 : idx_main_v70 (ix2 n c) = ix2 (0 : Fin 1) c := funext fun a => by match a with | ⟨0, _⟩ => rfl | ⟨1, _⟩ => rfl
  have e69 : idx_main_v69 (ix2 (0 : Fin 1) c) = ix1 c := funext fun a => by match a with | ⟨0, _⟩ => rfl
  rw [val_main_v71_apply, val_main_v70_apply, e70, val_main_v69_apply, e69, val_main_v68_apply]
  have hs : (∑ k : Fin 64, val_main_v67 (F := Ideal) x0 x2 x3 x4 x5 x6 (lidx_main_v68 (ix2 n c) k) * x7 (ridx_main_v68 (ix2 n c) k))
      = ∑ k : Fin 64, Cert.NodeNet.act2 (Cert.NodeNet.Weights.ofArrays x3 x4 x5 x6 x7 x8 x9 x10 x11 x12) (fun k => x0 (ix2 n k)) (fun k => val_main_v51 (F := Ideal) x0 x2 (ix2 n k)) (val_main_v24 (F := Ideal) x2 (ix1 n)) k * x7 (ix2 k c) :=
    Finset.sum_congr rfl fun k _ => by rw [el k, er k, act2_at x0 x2 x3 x4 x5 x6 x7 x8 x9 x10 x11 x12 n k]
  rw [hs]
  rfl

/-- The positions band at (n, c): the third layer's first three columns. -/
theorem pos_at (n : Fin 100000) (c : Fin 3) :
    val_main_v72 (F := Ideal) x0 x2 x3 x4 x5 x6 x7 x8 (ix2 n c)
      = Cert.NodeNet.posRow (Cert.NodeNet.Weights.ofArrays x3 x4 x5 x6 x7 x8 x9 x10 x11 x12) (fun k => x0 (ix2 n k)) (fun k => val_main_v51 (F := Ideal) x0 x2 (ix2 n k)) (val_main_v24 (F := Ideal) x2 (ix1 n)) c := by
  have e72 : idx_main_v72 (ix2 n c) = ix2 n (⟨c.val, by omega⟩ : Fin 67) := funext fun a => by match a with | ⟨0, _⟩ => rfl | ⟨1, _⟩ => rfl
  rw [val_main_v72_apply, e72, gen_at x0 x2 x3 x4 x5 x6 x7 x8 x9 x10 x11 x12 n]
  rfl

/-- The features band at (n, c): the third layer's last 64 columns. -/
theorem feats_at (n : Fin 100000) (c : Fin 64) :
    val_main_v73 (F := Ideal) x0 x2 x3 x4 x5 x6 x7 x8 (ix2 n c)
      = Cert.NodeNet.featsRow (Cert.NodeNet.Weights.ofArrays x3 x4 x5 x6 x7 x8 x9 x10 x11 x12) (fun k => x0 (ix2 n k)) (fun k => val_main_v51 (F := Ideal) x0 x2 (ix2 n k)) (val_main_v24 (F := Ideal) x2 (ix1 n)) c := by
  have e73 : idx_main_v73 (ix2 n c) = ix2 n (⟨3 + c.val, by omega⟩ : Fin 67) := funext fun a => by match a with | ⟨0, _⟩ => rfl | ⟨1, _⟩ => rfl
  rw [val_main_v73_apply, e73, gen_at x0 x2 x3 x4 x5 x6 x7 x8 x9 x10 x11 x12 n]
  rfl

/-- The hidden layer on the features at (n, j). -/
theorem hidden_at (n : Fin 100000) (j : Fin 32) :
    val_main_v78 (F := Ideal) x0 x2 x3 x4 x5 x6 x7 x8 x9 x10 (ix2 n j)
      = Cert.NodeNet.hidden (Cert.NodeNet.Weights.ofArrays x3 x4 x5 x6 x7 x8 x9 x10 x11 x12) (Cert.NodeNet.featsRow (Cert.NodeNet.Weights.ofArrays x3 x4 x5 x6 x7 x8 x9 x10 x11 x12) (fun k => x0 (ix2 n k)) (fun k => val_main_v51 (F := Ideal) x0 x2 (ix2 n k)) (val_main_v24 (F := Ideal) x2 (ix1 n))) j := by
  have el : ∀ k : Fin 64, lidx_main_v74 (ix2 n j) k = ix2 n k := fun k => funext fun a => by match a with | ⟨0, _⟩ => rfl | ⟨1, _⟩ => rfl
  have er : ∀ k : Fin 64, ridx_main_v74 (ix2 n j) k = ix2 k j := fun k => funext fun a => by match a with | ⟨0, _⟩ => rfl | ⟨1, _⟩ => rfl
  have e76 : idx_main_v76 (ix2 n j) = ix2 (0 : Fin 1) j := funext fun a => by match a with | ⟨0, _⟩ => rfl | ⟨1, _⟩ => rfl
  have e75 : idx_main_v75 (ix2 (0 : Fin 1) j) = ix1 j := funext fun a => by match a with | ⟨0, _⟩ => rfl
  rw [val_main_v78_apply, val_main_call2_v0_apply, val_main_call2_cst_apply, val_main_v77_apply, val_main_v76_apply, e76,
    val_main_v75_apply, e75, val_main_v74_apply]
  have hs : (∑ k : Fin 64, val_main_v73 (F := Ideal) x0 x2 x3 x4 x5 x6 x7 x8 (lidx_main_v74 (ix2 n j) k) * x9 (ridx_main_v74 (ix2 n j) k))
      = ∑ k : Fin 64, Cert.NodeNet.featsRow (Cert.NodeNet.Weights.ofArrays x3 x4 x5 x6 x7 x8 x9 x10 x11 x12) (fun k => x0 (ix2 n k)) (fun k => val_main_v51 (F := Ideal) x0 x2 (ix2 n k)) (val_main_v24 (F := Ideal) x2 (ix1 n)) k * x9 (ix2 k j) :=
    Finset.sum_congr rfl fun k _ => by rw [el k, er k, feats_at x0 x2 x3 x4 x5 x6 x7 x8 x9 x10 x11 x12 n k]
  rw [hs]
  rfl

/-- The probability at (n, 0): one over one plus the exponential of the negated last layer, the logistic function. -/
theorem prob_at (n : Fin 100000) (u : Fin 1) :
    val_main_v88 (F := Ideal) x0 x2 x3 x4 x5 x6 x7 x8 x9 x10 x11 x12 (ix2 n u)
      = Cert.NodeNet.probRow (Cert.NodeNet.Weights.ofArrays x3 x4 x5 x6 x7 x8 x9 x10 x11 x12) (fun k => x0 (ix2 n k)) (fun k => val_main_v51 (F := Ideal) x0 x2 (ix2 n k)) (val_main_v24 (F := Ideal) x2 (ix1 n)) := by
  obtain rfl : u = 0 := Subsingleton.elim _ _
  have el : ∀ k : Fin 32, lidx_main_v79 (ix2 n (0 : Fin 1)) k = ix2 n k := fun k => funext fun a => by match a with | ⟨0, _⟩ => rfl | ⟨1, _⟩ => rfl
  have er : ∀ k : Fin 32, ridx_main_v79 (ix2 n (0 : Fin 1)) k = ix2 k (0 : Fin 1) := fun k => funext fun a => by match a with | ⟨0, _⟩ => rfl | ⟨1, _⟩ => rfl
  have e81 : idx_main_v81 (ix2 n (0 : Fin 1)) = ix2 (0 : Fin 1) (0 : Fin 1) := funext fun a => by match a with | ⟨0, _⟩ => rfl | ⟨1, _⟩ => rfl
  have e80 : idx_main_v80 (ix2 (0 : Fin 1) (0 : Fin 1)) = ix1 (0 : Fin 1) := funext fun a => by match a with | ⟨0, _⟩ => rfl
  rw [val_main_v88_apply, val_main_v87_apply, val_main_cst_14_apply, val_main_v86_apply, val_main_v85_apply,
    val_main_cst_13_apply, val_main_v84_apply, val_main_v83_apply, val_main_v82_apply, val_main_v81_apply, e81,
    val_main_v80_apply, e80, val_main_v79_apply]
  have hs : (∑ k : Fin 32, val_main_v78 (F := Ideal) x0 x2 x3 x4 x5 x6 x7 x8 x9 x10 (lidx_main_v79 (ix2 n (0 : Fin 1)) k)
        * x11 (ridx_main_v79 (ix2 n (0 : Fin 1)) k))
      = ∑ k : Fin 32, Cert.NodeNet.hidden (Cert.NodeNet.Weights.ofArrays x3 x4 x5 x6 x7 x8 x9 x10 x11 x12) (Cert.NodeNet.featsRow (Cert.NodeNet.Weights.ofArrays x3 x4 x5 x6 x7 x8 x9 x10 x11 x12) (fun k => x0 (ix2 n k)) (fun k => val_main_v51 (F := Ideal) x0 x2 (ix2 n k)) (val_main_v24 (F := Ideal) x2 (ix1 n))) k * x11 (ix2 k (0 : Fin 1)) :=
    Finset.sum_congr rfl fun k _ => by rw [el k, er k, hidden_at x0 x2 x3 x4 x5 x6 x7 x8 x9 x10 x11 x12 n k]
  rw [hs]
  simp only [Ideal.ofBits_def, Ideal.hostDivf_def, Ideal.addf_def, Ideal.hostUnary_exp_def, Ideal.hostNegf_def,
    Ideal.negf_def, Ideal.ofBits_one_f32]
  rfl

end Layers

section Rows

section Bands
variable {α : Type} (y₁ : S100000x3.Idx → α) (y₂ : S100000x64.Idx → α) (y₃ : S100000x1.Idx → α)
  (h : Shape.Concatenates [S100000x3, S100000x64, S100000x1] S100000x68 1) (n : Fin 100000) (j : Fin 68)

/-- Three bands of 3, 64 and 1 columns side by side, at a column of the first band. -/
theorem bands_first (h3 : j.val < 3) :
    concatenate S100000x68 1 [⟨S100000x3, y₁⟩, ⟨S100000x64, y₂⟩, ⟨S100000x1, y₃⟩] h (ix2 n j)
      = y₁ (ix2 n (⟨j.val, h3⟩ : Fin 3)) :=
  concatenate_apply_piece 1 [⟨S100000x3, y₁⟩, ⟨S100000x64, y₂⟩, ⟨S100000x1, y₃⟩] h (ix2 n j) 0 (by show 0 < 3; omega) S100000x3 y₁ rfl rfl
    0 rfl (ix2 n (⟨j.val, h3⟩ : Fin 3))
    (fun b hb => by
      match b with
      | ⟨0, _⟩ => rfl
      | ⟨1, _⟩ => exact absurd rfl hb)
    (by show 0 + j.val = j.val; omega)

/-- The same, at a column of the second band. -/
theorem bands_second (h3 : ¬ j.val < 3) (h67 : j.val < 67) :
    concatenate S100000x68 1 [⟨S100000x3, y₁⟩, ⟨S100000x64, y₂⟩, ⟨S100000x1, y₃⟩] h (ix2 n j)
      = y₂ (ix2 n (⟨j.val - 3, by omega⟩ : Fin 64)) :=
  concatenate_apply_piece 1 [⟨S100000x3, y₁⟩, ⟨S100000x64, y₂⟩, ⟨S100000x1, y₃⟩] h (ix2 n j) 1 (by show 1 < 3; omega) S100000x64 y₂ rfl rfl
    3 rfl (ix2 n (⟨j.val - 3, by omega⟩ : Fin 64))
    (fun b hb => by
      match b with
      | ⟨0, _⟩ => rfl
      | ⟨1, _⟩ => exact absurd rfl hb)
    (by show 3 + (j.val - 3) = j.val; omega)

/-- The same, at the last column. -/
theorem bands_third (h67 : ¬ j.val < 67) :
    concatenate S100000x68 1 [⟨S100000x3, y₁⟩, ⟨S100000x64, y₂⟩, ⟨S100000x1, y₃⟩] h (ix2 n j)
      = y₃ (ix2 n (0 : Fin 1)) :=
  concatenate_apply_piece 1 [⟨S100000x3, y₁⟩, ⟨S100000x64, y₂⟩, ⟨S100000x1, y₃⟩] h (ix2 n j) 2 (by show 2 < 3; omega) S100000x1 y₃ rfl rfl
    67 rfl (ix2 n (0 : Fin 1))
    (fun b hb => by
      match b with
      | ⟨0, _⟩ => rfl
      | ⟨1, _⟩ => exact absurd rfl hb)
    (by show 67 + 0 = j.val; have := j.isLt; omega)

end Bands

variable (x0 : (⟨S100000x64, .f32⟩ : BufTy).Contents (Elt Ideal)) (x1 : (⟨S100000x4, .f32⟩ : BufTy).Contents (Elt Ideal)) (x2 : (⟨S2x1600000, .i32⟩ : BufTy).Contents (Elt Ideal)) (x3 : (⟨S128x128, .f32⟩ : BufTy).Contents (Elt Ideal)) (x4 : (⟨S128, .f32⟩ : BufTy).Contents (Elt Ideal)) (x5 : (⟨S128x64, .f32⟩ : BufTy).Contents (Elt Ideal)) (x6 : (⟨S64, .f32⟩ : BufTy).Contents (Elt Ideal)) (x7 : (⟨S64x67, .f32⟩ : BufTy).Contents (Elt Ideal)) (x8 : (⟨S67, .f32⟩ : BufTy).Contents (Elt Ideal)) (x9 : (⟨S64x32, .f32⟩ : BufTy).Contents (Elt Ideal)) (x10 : (⟨S32, .f32⟩ : BufTy).Contents (Elt Ideal)) (x11 : (⟨S32x1, .f32⟩ : BufTy).Contents (Elt Ideal)) (x12 : (⟨S1, .f32⟩ : BufTy).Contents (Elt Ideal))

/-- The mask column repeated along the row, at (n, j): the node's candidate mask. -/
theorem maskCol_at (n : Fin 100000) (j : Fin 68) :
    val_main_v91 (F := Ideal) x1 x2 (ix2 n j)
      = Cert.NodeNet.mask (fun k => x1 (ix2 n k)) (val_main_v24 (F := Ideal) x2 (ix1 n)) := by
  have e91 : idx_main_v91 (ix2 n j) = ix2 n (0 : Fin 1) := funext fun a => by match a with | ⟨0, _⟩ => rfl | ⟨1, _⟩ => rfl
  have e90 : idx_main_v90 (ix2 n (0 : Fin 1)) = ix1 n := funext fun a => by match a with | ⟨0, _⟩ => rfl
  rw [val_main_v91_apply, e91, val_main_v90_apply, e90, mask_at]

open Idealize.ShloMosaic Idealize.ShloMosaic.ValueIdx Cert.ReferenceIdeal Cert.ReferenceIdeal.Read in
theorem ref_row (x0 : (⟨S100000x64, .f32⟩ : BufTy).Contents (Elt Ideal)) (x1 : (⟨S100000x4, .f32⟩ : BufTy).Contents (Elt Ideal)) (x2 : (⟨S2x1600000, .i32⟩ : BufTy).Contents (Elt Ideal)) (x3 : (⟨S128x128, .f32⟩ : BufTy).Contents (Elt Ideal)) (x4 : (⟨S128, .f32⟩ : BufTy).Contents (Elt Ideal)) (x5 : (⟨S128x64, .f32⟩ : BufTy).Contents (Elt Ideal)) (x6 : (⟨S64, .f32⟩ : BufTy).Contents (Elt Ideal)) (x7 : (⟨S64x67, .f32⟩ : BufTy).Contents (Elt Ideal)) (x8 : (⟨S67, .f32⟩ : BufTy).Contents (Elt Ideal)) (x9 : (⟨S64x32, .f32⟩ : BufTy).Contents (Elt Ideal)) (x10 : (⟨S32, .f32⟩ : BufTy).Contents (Elt Ideal)) (x11 : (⟨S32x1, .f32⟩ : BufTy).Contents (Elt Ideal)) (x12 : (⟨S1, .f32⟩ : BufTy).Contents (Elt Ideal)) (n : Fin 100000) (j : Fin 68) :
      val_main_v92 (F := Ideal) x0 x1 x2 x3 x4 x5 x6 x7 x8 x9 x10 x11 x12 (ix2 n j)
        = Cert.NodeNet.rowOut (Cert.NodeNet.Weights.ofArrays x3 x4 x5 x6 x7 x8 x9 x10 x11 x12)
            (fun k => x0 (ix2 n k))
            (fun k => val_main_v51 (F := Ideal) x0 x2 (ix2 n k))
            (val_main_v24 (F := Ideal) x2 (ix1 n))
            (fun k => x1 (ix2 n k)) j := by
  rw [val_main_v92_apply, maskCol_at]
  unfold val_main_v89 Cert.NodeNet.rowOut
  by_cases h3 : j.val < 3
  · rw [dif_pos h3, bands_first _ _ _ _ n j h3, pos_at x0 x2 x3 x4 x5 x6 x7 x8 x9 x10 x11 x12 n]
    rfl
  · rw [dif_neg h3]
    by_cases h67 : j.val < 67
    · rw [dif_pos h67, bands_second _ _ _ _ n j h3 h67, feats_at x0 x2 x3 x4 x5 x6 x7 x8 x9 x10 x11 x12 n]
      rfl
    · rw [dif_neg h67, bands_third _ _ _ _ n j h67, prob_at x0 x2 x3 x4 x5 x6 x7 x8 x9 x10 x11 x12 n]
      rfl

end Rows

end Cert.RefRows

end
-- ==== Proof.Claims.lean ====
/-
  The five claims.

  The three frames: the two kernel programs' are the generated frame runs; the reference has no kernel, and its frame
  is its run with the result dropped. The idealizing pass rewrote nothing, so there is nothing to preserve.

  The algebraic claim. The kernel program's output array is, row n by row n, the node function (NodeSpec) of row n of
  the features, of the neighbour sums and degree its host code computes, of row n of the scores, and of the weights its
  host code cuts out of the parameter arrays (ArrayOut). The reference's result is the same node function of the same
  features, scores and weights and of ITS neighbour sums and degree (RefRows). The two host computations of the
  neighbour sums and of the degree give the same numbers — one scatter-add over the 3,200,000 concatenated directed edges
  against the sum of two scatter-adds over the 1,600,000 stored edges, a regrouping of a finite sum (HostBridge) — and
  the weights cut out are the weights (WeightBlocks). No step uses that the inputs are finite: only that + on the
  extended reals is commutative and associative.
-/
import proofs.«169547_j85856396247142_2_alg».proof.Defs
import proofs.«169547_j85856396247142_2_alg».proof.Proof.Gen.Kernel.Frame
import proofs.«169547_j85856396247142_2_alg».proof.Proof.Gen.Pre_finite_inputs
import proofs.«169547_j85856396247142_2_alg».proof.Proof.ArrayOut
import proofs.«169547_j85856396247142_2_alg».proof.Proof.WeightBlocks
import proofs.«169547_j85856396247142_2_alg».proof.Proof.HostBridge
import proofs.«169547_j85856396247142_2_alg».proof.Proof.RefRows
import proofs.«169547_j85856396247142_2_alg».proof.Proof.RefRun
import proofs.«169547_j85856396247142_2_alg».proof.Proof.RefReadEq

set_option maxRecDepth 16384

noncomputable section

namespace Cert.Proof.NodeClaims

open Idealize.ShloMosaic Idealize.ShloMosaic.TcCoe Idealize.ShloMosaic.ValueIdx Idealize.SL.Sem

section
open Cert.KernelIdeal Cert.KernelIdeal.Gen Cert.ArrayOut
variable (m : (ℓ : Loc nD τ sig) → Buf (Elt Ideal) ℓ)

/-- The weights as the region finds them are the weights read off the parameter arrays in the launch memory. -/
theorem regionWeights_eq (c : Dev nD) :
    regionWeights m c = Cert.NodeNet.Weights.ofArrays (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg10)) (m ((c : Thread Cert.KernelIdeal.nD Cert.KernelIdeal.τ).loc Cert.KernelIdeal.main_arg11)) (m ((c : Thread Cert.KernelIdeal.nD Cert.KernelIdeal.τ).loc Cert.KernelIdeal.main_arg12)) := by
  unfold regionWeights
  rw [Cert.WeightBlocks.main_v23_eq m c, Cert.WeightBlocks.main_v29_eq m c, Cert.WeightBlocks.main_v24_eq m c, V_main_arg5 m c,
    Cert.WeightBlocks.main_v30_eq m c, Cert.WeightBlocks.main_v25_eq m c, Cert.WeightBlocks.main_v31_eq m c,
    Cert.WeightBlocks.main_v26_eq m c, Cert.WeightBlocks.main_v32_eq m c, V_main_arg9 m c, Cert.WeightBlocks.main_v33_eq m c,
    V_main_arg11 m c, Cert.WeightBlocks.main_v34_eq m c]
  exact Cert.WeightBlocks.ofBlocks_cut_eq_ofArrays (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg10)) (m ((c : Thread Cert.KernelIdeal.nD Cert.KernelIdeal.τ).loc Cert.KernelIdeal.main_arg11)) (m ((c : Thread Cert.KernelIdeal.nD Cert.KernelIdeal.τ).loc Cert.KernelIdeal.main_arg12))

/-- The output array the kernel program ends with is the reference's last stage of the same thirteen arguments: row by
    row both are the node function, of the same features, scores and weights, and of neighbour sums and degrees that
    the two host computations make equal. -/
theorem regionOut_eq_ref (c : Dev nD) :
    regionOut m c = Cert.ReferenceIdeal.Read.val_main_v92 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg10)) (m ((c : Thread Cert.KernelIdeal.nD Cert.KernelIdeal.τ).loc Cert.KernelIdeal.main_arg11)) (m ((c : Thread Cert.KernelIdeal.nD Cert.KernelIdeal.τ).loc Cert.KernelIdeal.main_arg12)) := by
  funext i
  obtain ⟨n, j, rfl⟩ : ∃ (n : Fin 100000) (j : Fin 68), i = ix2 n j := ⟨i 0, i 1, eq_ix2 i⟩
  refine Eq.trans ?_ (Cert.RefRows.ref_row (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg10)) (m ((c : Thread Cert.KernelIdeal.nD Cert.KernelIdeal.τ).loc Cert.KernelIdeal.main_arg11)) (m ((c : Thread Cert.KernelIdeal.nD Cert.KernelIdeal.τ).loc Cert.KernelIdeal.main_arg12)) n j).symm
  unfold regionOut
  refine (Cert.NodeNet.netOut_apply (regionWeights m c) (V m c main_arg0 : S100000x64.Idx → EReal) (V m c main_v21 : S100000x64.Idx → EReal)
    (fun n => (V m c main_v22 : S100000x1.Idx → EReal) (ix2 n (0 : Fin 1))) (V m c main_arg1 : S100000x4.Idx → EReal) n j).trans ?_
  have h1 : (fun k : Fin 64 => (V m c main_v21 : S100000x64.Idx → EReal) (ix2 n k))
      = fun k => Cert.ReferenceIdeal.Read.val_main_v51 (F := Ideal) (m ((c : Thread Cert.KernelIdeal.nD Cert.KernelIdeal.τ).loc Cert.KernelIdeal.main_arg0)) (m ((c : Thread Cert.KernelIdeal.nD Cert.KernelIdeal.τ).loc Cert.KernelIdeal.main_arg2)) (ix2 n k) :=
    funext fun k => Cert.HostBridge.nsum_bridge m c n k
  rw [regionWeights_eq m c, V_main_arg0 m c, V_main_arg1 m c, h1, ← Cert.HostBridge.deg_bridge m c n]
end

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealizing pass rewrote nothing: there is nothing to preserve. -/
theorem preserves : Cert.preserves_Kernel_KernelIdeal := trivial

/-- Both programs end, and with one result: the kernel program's output array is the node function row by row of the
    arrays its region finds, the reference's is its last stage of its arguments, and these agree when the arguments do. -/
theorem algebraic : Cert.algebraic_KernelIdeal_ReferenceIdeal := by
  intro m ρ m' ρ' _ hagree
  refine ⟨fun c => Cert.ArrayOut.regionOut m c, Cert.ArrayOut.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12⟩ := hagree c
  rw [Cert.ReferenceIdeal.Read.val_main_v92_eq, a0, a1, a2, a3, a4, a5, a6, a7, a8, a9, a10, a11, a12]
  exact (regionOut_eq_ref m c).symm

end Cert.Proof.NodeClaims

end
-- ==== Proof.lean ====
/-
  A graph network's per-node update, fused into one kernel, against its plain reference: the certificate.

  Both programs compute, for each of 100,000 nodes, the mean of the node's neighbours' feature rows (a sum over the
  edges divided by max(degree, 1)), a three-layer perceptron of the node's own row and that mean, a small predictor with
  a logistic output, and a mask (the softmax of the node's four operation scores exceeds 1/2 at "insert" and the node
  has a neighbour), and return the row (positions | features | probability) times the mask. The kernel program tiles the
  nodes 5000 at a time and splits two of the matrix products; over the extended reals both are one function, and
  Proof/Claims.lean proves the five claims.
-/
import proofs.«169547_j85856396247142_2_alg».proof.Proof.Claims

noncomputable section

namespace Cert.Proof

theorem claim : Cert.Claim :=
  ⟨Cert.Kernel.Gen.facts, Cert.KernelIdeal.Gen.facts, Cert.ReferenceIdeal.Gen.facts, Cert.Pre_finite_inputs.Gen.facts,
    Cert.Proof.NodeClaims.frame_k, Cert.Proof.NodeClaims.frame_ki, Cert.Proof.NodeClaims.frame_ri,
    Cert.Proof.NodeClaims.preserves, Cert.Proof.NodeClaims.algebraic⟩

end Cert.Proof

end
